-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x120000x4 : Shape := ⟨3, ![2, 120000, 4]⟩
abbrev S64x10 : Shape := ⟨2, ![64, 10]⟩
abbrev S64 : Shape := ⟨1, ![64]⟩
abbrev S256x64 : Shape := ⟨2, ![256, 64]⟩
abbrev S256 : Shape := ⟨1, ![256]⟩
abbrev S_ : Shape := ⟨0, ![]⟩

class Facts : Prop where
  bcast_S_S2x120000x4 : S_.BroadcastsInDim S2x120000x4 (![] : Fin 0 → Fin S2x120000x4.rank)
  reducesTo_S2x120000x4_S_d0_1_2 : S2x120000x4.ReducesTo [0, 1, 2] S_
  h_S_ : 0 < S_.numel
  bcast_S_S64x10 : S_.BroadcastsInDim S64x10 (![] : Fin 0 → Fin S64x10.rank)
  reducesTo_S64x10_S_d0_1 : S64x10.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x64 .f32) (main_arg8 : FVec F S256 .f32) (main_arg9 : FVec F S256 .f32) (main_arg10 : FVec F S256 .f32) (main_arg11 : FVec F S256 .f32) (main_arg12 : FVec F S256 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S64 .f32) (main_arg5 : FVec F S64 .f32) (main_arg6 : FVec F S64 .f32) (main_arg7 : FVec F S256x64 .f32) (main_arg8 : FVec F S256 .f32) (main_arg9 : FVec F S256 .f32) (main_arg10 : FVec F S256 .f32) (main_arg11 : FVec F S256 .f32) (main_arg12 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x120000x4 .f32) (main_arg1 : FVec F S64x10 .f32) (main_arg2 : FVec F S64 .f32) (main_arg3 : FVec F S64 .f32) (main_arg4 : FVec F S64 .f32) (main_arg5 : FVec F S64 .f32) (main_arg6 : FVec F S64 .f32) (main_arg7 : FVec F S256x64 .f32) (main_arg8 : FVec F S256 .f32) (main_arg9 : FVec F S256 .f32) (main_arg10 : FVec F S256 .f32) (main_arg11 : FVec F S256 .f32) (main_arg12 : FVec F S256 .f32) : IVec S_ 1 :=
  let main_v0 : FVec F S2x120000x4 .f32 := Host.absf main_arg0
  let main_cst : FVec F S_ .f32 := constant S_ .f32 0x7F800000#32
  let main_v1 : FVec F S2x120000x4 .f32 := broadcastInDim S2x120000x4 ![] bcast_S_S2x120000x4 main_cst
  let main_v2 : IVec S2x120000x4 1 := cmpf .olt main_v0 main_v1
  let main_c : IVec S_ 1 := constantI S_ 1 1#1
  let main_v3 : IVec S_ 1 := (fun x v => Host.reduce IntOp.andi x v reducesTo_S2x120000x4_S_d0_1_2 h_S_) main_v2 main_c
  let main_v4 : FVec F S64x10 .f32 := Host.absf main_arg1
  let main_cst_0 : FVec F S_ .f32 := constant S_ .f32 0x7F800000#32
  let main_v5 : FVec F S64x10 .f32 := broadcastInDim S64x10 ![] bcast_S_S64x10 main_cst_0
  let main_v6 : IVec S64x10 1 := cmpf .olt main_v4 main_v5
  let main_c_1 : IVec S_ 1 := constantI S_ 1 1#1
  let main_v7 : IVec S_ 1 := (fun x v => Host.reduce IntOp.andi x v reducesTo_S64x10_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_v13 main_v16
-- ==== Kernel.lean ====
abbrev S2x120000x4 : Shape := ⟨3, ![2, 120000, 4]⟩
abbrev S64x10 : Shape := ⟨2, ![64, 10]⟩
abbrev S64 : Shape := ⟨1, ![64]⟩
abbrev S256x64 : Shape := ⟨2, ![256, 64]⟩
abbrev S256 : Shape := ⟨1, ![256]⟩
abbrev S10x64 : Shape := ⟨2, ![10, 64]⟩
abbrev S64x256 : Shape := ⟨2, ![64, 256]⟩
abbrev S1x64 : Shape := ⟨2, ![1, 64]⟩
abbrev S1x256 : Shape := ⟨2, ![1, 256]⟩
abbrev S2x120000x256 : Shape := ⟨3, ![2, 120000, 256]⟩
abbrev S2x120000x1 : Shape := ⟨3, ![2, 120000, 1]⟩
abbrev S1x6000x4 : Shape := ⟨3, ![1, 6000, 4]⟩
abbrev S1x6000x256 : Shape := ⟨3, ![1, 6000, 256]⟩
abbrev S1x6000x1 : Shape := ⟨3, ![1, 6000, 1]⟩
abbrev S6000x4 : Shape := ⟨2, ![6000, 4]⟩
abbrev S6000x1 : Shape := ⟨2, ![6000, 1]⟩
abbrev S6000x10 : Shape := ⟨2, ![6000, 10]⟩
abbrev S6000x64 : Shape := ⟨2, ![6000, 64]⟩
abbrev S6000x256 : Shape := ⟨2, ![6000, 256]⟩
abbrev S240000x256 : Shape := ⟨2, ![240000, 256]⟩
abbrev S240000 : Shape := ⟨1, ![240000]⟩
abbrev S_ : Shape := ⟨0, ![]⟩
abbrev S524290x256 : Shape := ⟨2, ![524290, 256]⟩
abbrev S240000x1 : Shape := ⟨2, ![240000, 1]⟩
abbrev S524290 : Shape := ⟨1, ![524290]⟩
abbrev S2x262145x256 : Shape := ⟨3, ![2, 262145, 256]⟩
abbrev S2x262145x1 : Shape := ⟨3, ![2, 262145, 1]⟩
abbrev S2x262144x256 : Shape := ⟨3, ![2, 262144, 256]⟩
abbrev S1x4096x256 : Shape := ⟨3, ![1, 4096, 256]⟩
abbrev S1x4096x1 : Shape := ⟨3, ![1, 4096, 1]⟩
abbrev S4096x256 : Shape := ⟨2, ![4096, 256]⟩
abbrev S4096x1 : Shape := ⟨2, ![4096, 1]⟩
abbrev S2x512x512x256 : Shape := ⟨4, ![2, 512, 512, 256]⟩
abbrev S2x256x512x512 : Shape := ⟨4, ![2, 256, 512, 512]⟩

abbrev nBuf : Space → Nat
  | .hbm => 44
  | .vmem => 24
  | .smem => 0
  | _ => 0

abbrev bufTy : (tb : Table) → Fin (tcTables nBuf tb) → BufTy
  | .hbm, ⟨0, _⟩ => ⟨S2x120000x4, .f32⟩
  | .hbm, ⟨1, _⟩ => ⟨S64x10, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S256x64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S10x64, .f32⟩
  | .hbm, ⟨14, _⟩ => ⟨S64x256, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S2x120000x256, .f32⟩
  | .hbm, ⟨26, _⟩ => ⟨S2x120000x1, .i32⟩
  | .hbm, ⟨27, _⟩ => ⟨S240000x256, .f32⟩
  | .hbm, ⟨28, _⟩ => ⟨S240000, .i32⟩
  | .hbm, ⟨29, _⟩ => ⟨S_, .f32⟩
  | .hbm, ⟨30, _⟩ => ⟨S524290x256, .f32⟩
  | .hbm, ⟨31, _⟩ => ⟨S240000x1, .i32⟩
  | .hbm, ⟨32, _⟩ => ⟨S524290x256, .f32⟩
  | .hbm, ⟨33, _⟩ => ⟨S_, .f32⟩
  | .hbm, ⟨34, _⟩ => ⟨S240000, .f32⟩
  | .hbm, ⟨35, _⟩ => ⟨S_, .f32⟩
  | .hbm, ⟨36, _⟩ => ⟨S524290, .f32⟩
  | .hbm, ⟨37, _⟩ => ⟨S240000x1, .i32⟩
  | .hbm, ⟨38, _⟩ => ⟨S524290, .f32⟩
  | .hbm, ⟨39, _⟩ => ⟨S2x262145x256, .f32⟩
  | .hbm, ⟨40, _⟩ => ⟨S2x262145x1, .f32⟩
  | .hbm, ⟨41, _⟩ => ⟨S2x262144x256, .f32⟩
  | .hbm, ⟨42, _⟩ => ⟨S2x512x512x256, .f32⟩
  | .hbm, ⟨43, _⟩ => ⟨S2x256x512x512, .f32⟩
  | .local _ .vmem, ⟨0, _⟩ => ⟨S1x6000x4, .f32⟩
  | .local _ .vmem, ⟨1, _⟩ => ⟨S1x6000x4, .f32⟩
  | .local _ .vmem, ⟨2, _⟩ => ⟨S10x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x6000x256, .f32⟩
  | .local _ .vmem, ⟨15, _⟩ => ⟨S1x6000x256, .f32⟩
  | .local _ .vmem, ⟨16, _⟩ => ⟨S1x6000x1, .i32⟩
  | .local _ .vmem, ⟨17, _⟩ => ⟨S1x6000x1, .i32⟩
  | .local _ .vmem, ⟨18, _⟩ => ⟨S1x4096x256, .f32⟩
  | .local _ .vmem, ⟨19, _⟩ => ⟨S1x4096x256, .f32⟩
  | .local _ .vmem, ⟨20, _⟩ => ⟨S1x4096x1, .f32⟩
  | .local _ .vmem, ⟨21, _⟩ => ⟨S1x4096x1, .f32⟩
  | .local _ .vmem, ⟨22, _⟩ => ⟨S1x4096x256, .f32⟩
  | .local _ .vmem, ⟨23, _⟩ => ⟨S1x4096x256, .f32⟩
  | _, _ => ⟨S2x120000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23

abbrev nD : Nat := 1
abbrev τ : Topo := Topo.v7x

variable {F : FTy → Type} [FloatOps F]

abbrev grid0 : Pipeline.Grid := ⟨2, ![2, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x6000x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x6000x1 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![2, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S64x10_S10x64_1_0 : S64x10.Transposes [1, 0] S10x64
  transposes_S256x64_S64x256_1_0 : S256x64.Transposes [1, 0] S64x256
  shapeCasts_S64_S1x64 : S64.ShapeCasts S1x64
  shapeCasts_S256_S1x256 : S256.ShapeCasts S1x256
  inb_S1x6000x4_S1x6000x4_0_0_0 : ∀ a, (![0, 0, 0] : Fin 3 → Nat) a + S1x6000x4.size a ≤ S1x6000x4.size a
  h_S1x6000x4 : 0 < S1x6000x4.numel
  shapeCasts_S1x6000x4_S6000x4 : S1x6000x4.ShapeCasts S6000x4
  slices_S6000x4_o0_0_S6000x1 : S6000x4.Slices ![0, 0] S6000x1
  slices_S6000x4_o0_1_S6000x1 : S6000x4.Slices ![0, 1] S6000x1
  concatenates_S6000x4_S6000x1_S6000x1_S6000x1_S6000x1_S6000x1_S6000x1_S6000x10_d1 : Shape.Concatenates [S6000x4, S6000x1, S6000x1, S6000x1, S6000x1, S6000x1, S6000x1] S6000x10 1
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  shapeCasts_S10x64_S10x64 : S10x64.ShapeCasts S10x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6000x256 : S1x256.Broadcasts S6000x256
  inb_S1x6000x256_S1x6000x256_0_0_0 : ∀ a, (![0, 0, 0] : Fin 3 → Nat) a + S1x6000x256.size a ≤ S1x6000x256.size a
  h_S1x6000x256 : 0 < S1x6000x256.numel
  shapeCasts_S1x6000x256_S6000x256 : S1x6000x256.ShapeCasts S6000x256
  shapeCasts_S6000x256_S1x6000x256 : S6000x256.ShapeCasts S1x6000x256
  inb_S1x6000x1_S1x6000x1_0_0_0 : ∀ a, (![0, 0, 0] : Fin 3 → Nat) a + S1x6000x1.size a ≤ S1x6000x1.size a
  h_S1x6000x1 : 0 < S1x6000x1.numel
  shapeCasts_S1x6000x1_S6000x1 : S1x6000x1.ShapeCasts S6000x1
  shapeCasts_S6000x1_S1x6000x1 : S6000x1.ShapeCasts S1x6000x1
  shapeCasts_S2x120000x256_S240000x256 : S2x120000x256.ShapeCasts S240000x256
  shapeCasts_S2x120000x1_S240000 : S2x120000x1.ShapeCasts S240000
  bcast_S_S524290x256 : S_.BroadcastsInDim S524290x256 (![] : Fin 0 → Fin S524290x256.rank)
  bcast_S240000_S240000x1_0 : S240000.BroadcastsInDim S240000x1 (![0] : Fin 1 → Fin S240000x1.rank)
  bcast_S_S240000 : S_.BroadcastsInDim S240000 (![] : Fin 0 → Fin S240000.rank)
  bcast_S_S524290 : S_.BroadcastsInDim S524290 (![] : Fin 0 → Fin S524290.rank)
  shapeCasts_S524290x256_S2x262145x256 : S524290x256.ShapeCasts S2x262145x256
  shapeCasts_S524290_S2x262145x1 : S524290.ShapeCasts S2x262145x1
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  broadcasts_S4096x1_S4096x256 : S4096x1.Broadcasts S4096x256
  shapeCasts_S4096x256_S1x4096x256 : S4096x256.ShapeCasts S1x4096x256
  shapeCasts_S2x262144x256_S2x512x512x256 : S2x262144x256.ShapeCasts S2x512x512x256
  transposes_S2x512x512x256_S2x256x512x512_0_3_1_2 : S2x512x512x256.Transposes [0, 3, 1, 2] S2x256x512x512
  dot_S6000x10_S10x64_S6000x64_1_0_0_1_n_n_wf : DotDims.WF S6000x10 S10x64 S6000x64 [1] [0] [0] [1] [] []
  dot_S6000x64_S64x256_S6000x256_1_0_0_1_n_n_wf : DotDims.WF S6000x64 S64x256 S6000x256 [1] [0] [0] [1] [] []
  scatter_S524290x256_S240000x1_S240000x256_1_0_0_1_wf : ScatterDims.WF S524290x256 S240000x1 S240000x256 [1] [0] [0] 1
  scatter_S524290_S240000x1_S240000_n_0_0_1_wf : ScatterDims.WF S524290 S240000x1 S240000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6000x4.size a ≤ S2x120000x4.size a
  hwx0_0 : ∀ i : grid0.Coords, EltTy.bits .f32 = 32 ∨ (Rect.block (s := S2x120000x4) S1x6000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .f32 = 32 ∨ (Rect.block (s := S10x64) S10x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x6000x256.size a ≤ S2x120000x256.size a
  hwx0_13 : ∀ i : grid0.Coords, EltTy.bits .f32 = 32 ∨ (Rect.block (s := S2x120000x256) S1x6000x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x6000x1.size a ≤ S2x120000x1.size a
  hwx0_14 : ∀ i : grid0.Coords, EltTy.bits .i32 = 32 ∨ (Rect.block (s := S2x120000x1) S1x6000x1.size (cc0_transform_14 i) (hinb0_14 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x4096x256.size a < S2x262145x256.size a
  hwx1_0 : ∀ i : grid1.Coords, EltTy.bits .f32 = 32 ∨ (Rect.unit (s := S2x262145x256) (fun a => cc1_transform_0 i a * S1x4096x256.size a) (fun a => (Pipeline.Clip.of (cc1_transform_0 i a) (S1x4096x256.size a) (S2x262145x256.size a)).extent (S1x4096x256.size a)) fun a => Pipeline.Clip.inb (Pipeline.Clip.ok_of (hstart1_0 i a))).WholeWords (EltTy.packing .f32)
  hwxs1_0 : ∀ i : grid1.Coords, EltTy.bits .f32 = 32 ∨ (Rect.unit (s := S1x4096x256) (fun _ => 0) (fun a => (Pipeline.Clip.of (cc1_transform_0 i a) (S1x4096x256.size a) (S2x262145x256.size a)).extent (S1x4096x256.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x4096x1.size a < S2x262145x1.size a
  hwx1_1 : ∀ i : grid1.Coords, EltTy.bits .f32 = 32 ∨ (Rect.unit (s := S2x262145x1) (fun a => cc1_transform_1 i a * S1x4096x1.size a) (fun a => (Pipeline.Clip.of (cc1_transform_1 i a) (S1x4096x1.size a) (S2x262145x1.size a)).extent (S1x4096x1.size a)) fun a => Pipeline.Clip.inb (Pipeline.Clip.ok_of (hstart1_1 i a))).WholeWords (EltTy.packing .f32)
  hwxs1_1 : ∀ i : grid1.Coords, EltTy.bits .f32 = 32 ∨ (Rect.unit (s := S1x4096x1) (fun _ => 0) (fun a => (Pipeline.Clip.of (cc1_transform_1 i a) (S1x4096x1.size a) (S2x262145x1.size a)).extent (S1x4096x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S2x262144x256.size a
  hwx1_2 : ∀ i : grid1.Coords, EltTy.bits .f32 = 32 ∨ (Rect.block (s := S2x262144x256) S1x4096x256.size (cc1_transform_2 i) (hinb1_2 i)).WholeWords (EltTy.packing .f32)

variable [Facts₀]

def dot_S6000x10_S10x64_S6000x64_1_0_0_1_n_n : DotDims S6000x10 S10x64 S6000x64 where
  lhsContracting := [1]
  rhsContracting := [0]
  lhsNonContracting := [0]
  rhsNonContracting := [1]
  lhsBatch := []
  rhsBatch := []
  wf := dot_S6000x10_S10x64_S6000x64_1_0_0_1_n_n_wf
def dot_S6000x64_S64x256_S6000x256_1_0_0_1_n_n : DotDims S6000x64 S64x256 S6000x256 where
  lhsContracting := [1]
  rhsContracting := [0]
  lhsNonContracting := [0]
  rhsNonContracting := [1]
  lhsBatch := []
  rhsBatch := []
  wf := dot_S6000x64_S64x256_S6000x256_1_0_0_1_n_n_wf
def scatter_S524290x256_S240000x1_S240000x256_1_0_0_1 : ScatterDims S524290x256 S240000x1 S240000x256 where
  updateWindowDims := [1]
  insertedWindowDims := [0]
  scatterDimsToOperandDims := [0]
  indexVectorDim := 1
  wf := scatter_S524290x256_S240000x1_S240000x256_1_0_0_1_wf
def scatter_S524290_S240000x1_S240000_n_0_0_1 : ScatterDims S524290 S240000x1 S240000 where
  updateWindowDims := []
  insertedWindowDims := [0]
  scatterDimsToOperandDims := [0]
  indexVectorDim := 1
  wf := scatter_S524290_S240000x1_S240000_n_0_0_1_wf

abbrev win0_0 : Pipeline.Window sig grid0 :=
  Pipeline.Window.ofSpec (Memref.whole main_arg0) S1x6000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S1x6000x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S1x6000x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpecClip (Memref.whole main_v22) S1x4096x256.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v23) S1x4096x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v24) S1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x120000x4 : Shape := ⟨3, ![2, 120000, 4]⟩
abbrev S64x10 : Shape := ⟨2, ![64, 10]⟩
abbrev S64 : Shape := ⟨1, ![64]⟩
abbrev S256x64 : Shape := ⟨2, ![256, 64]⟩
abbrev S256 : Shape := ⟨1, ![256]⟩
abbrev S2x120000x1 : Shape := ⟨3, ![2, 120000, 1]⟩
abbrev S2x120000 : Shape := ⟨2, ![2, 120000]⟩
abbrev S_ : Shape := ⟨0, ![]⟩
abbrev S2x120000x6 : Shape := ⟨3, ![2, 120000, 6]⟩
abbrev S2x120000x10 : Shape := ⟨3, ![2, 120000, 10]⟩
abbrev S2x120000x64 : Shape := ⟨3, ![2, 120000, 64]⟩
abbrev S1x1x64 : Shape := ⟨3, ![1, 1, 64]⟩
abbrev S2x120000x256 : Shape := ⟨3, ![2, 120000, 256]⟩
abbrev S1x1x256 : Shape := ⟨3, ![1, 1, 256]⟩
abbrev S2 : Shape := ⟨1, ![2]⟩
abbrev S2x1 : Shape := ⟨2, ![2, 1]⟩
abbrev S240000 : Shape := ⟨1, ![240000]⟩
abbrev S240000x256 : Shape := ⟨2, ![240000, 256]⟩
abbrev S524290x256 : Shape := ⟨2, ![524290, 256]⟩
abbrev S240000x1 : Shape := ⟨2, ![240000, 1]⟩
abbrev S524290 : Shape := ⟨1, ![524290]⟩
abbrev S524290x1 : Shape := ⟨2, ![524290, 1]⟩
abbrev S2x262145x256 : Shape := ⟨3, ![2, 262145, 256]⟩
abbrev S2x262144x256 : Shape := ⟨3, ![2, 262144, 256]⟩
abbrev S2x512x512x256 : Shape := ⟨4, ![2, 512, 512, 256]⟩
abbrev S2x256x512x512 : Shape := ⟨4, ![2, 256, 512, 512]⟩

abbrev nBuf : Space → Nat
  | .hbm => 181
  | .vmem => 0
  | .smem => 0
  | _ => 0

abbrev hbmTy0_0 (i : Nat) : BufTy := match i % 128 with
  | 0 => ⟨S2x120000x4, .f32⟩
  | 1 => ⟨S64x10, .f32⟩
  | 2 => ⟨S64, .f32⟩
  | 3 => ⟨S64, .f32⟩
  | 4 => ⟨S64, .f32⟩
  | 5 => ⟨S64, .f32⟩
  | 6 => ⟨S64, .f32⟩
  | 7 => ⟨S256x64, .f32⟩
  | 8 => ⟨S256, .f32⟩
  | 9 => ⟨S256, .f32⟩
  | 10 => ⟨S256, .f32⟩
  | 11 => ⟨S256, .f32⟩
  | 12 => ⟨S256, .f32⟩
  | 13 => ⟨S2x120000x1, .f32⟩
  | 14 => ⟨S2x120000, .f32⟩
  | 15 => ⟨S2x120000x1, .f32⟩
  | 16 => ⟨S2x120000, .f32⟩
  | 17 => ⟨S_, .f32⟩
  | 18 => ⟨S2x120000, .f32⟩
  | 19 => ⟨S2x120000, .f32⟩
  | 20 => ⟨S_, .f32⟩
  | 21 => ⟨S2x120000, .f32⟩
  | 22 => ⟨S2x120000, .f32⟩
  | 23 => ⟨S_, .f32⟩
  | 24 => ⟨S2x120000, .f32⟩
  | 25 => ⟨S2x120000, .i1⟩
  | 26 => ⟨S2x120000, .f32⟩
  | 27 => ⟨S2x120000, .f32⟩
  | 28 => ⟨S2x120000, .f32⟩
  | 29 => ⟨S2x120000, .i32⟩
  | 30 => ⟨S_, .f32⟩
  | 31 => ⟨S2x120000, .f32⟩
  | 32 => ⟨S2x120000, .f32⟩
  | 33 => ⟨S_, .f32⟩
  | 34 => ⟨S2x120000, .f32⟩
  | 35 => ⟨S2x120000, .f32⟩
  | 36 => ⟨S_, .f32⟩
  | 37 => ⟨S2x120000, .f32⟩
  | 38 => ⟨S2x120000, .i1⟩
  | 39 => ⟨S2x120000, .f32⟩
  | 40 => ⟨S2x120000, .f32⟩
  | 41 => ⟨S2x120000, .f32⟩
  | 42 => ⟨S2x120000, .i32⟩
  | 43 => ⟨S_, .i32⟩
  | 44 => ⟨S2x120000, .i32⟩
  | 45 => ⟨S2x120000, .i1⟩
  | 46 => ⟨S_, .i32⟩
  | 47 => ⟨S2x120000, .i32⟩
  | 48 => ⟨S2x120000, .i1⟩
  | 49 => ⟨S2x120000, .i1⟩
  | 50 => ⟨S_, .i32⟩
  | 51 => ⟨S2x120000, .i32⟩
  | 52 => ⟨S2x120000, .i1⟩
  | 53 => ⟨S2x120000, .i1⟩
  | 54 => ⟨S_, .i32⟩
  | 55 => ⟨S2x120000, .i32⟩
  | 56 => ⟨S2x120000, .i1⟩
  | 57 => ⟨S2x120000, .i1⟩
  | 58 => ⟨S2x120000, .f32⟩
  | 59 => ⟨S_, .f32⟩
  | 60 => ⟨S2x120000, .f32⟩
  | 61 => ⟨S2x120000, .f32⟩
  | 62 => ⟨S_, .f32⟩
  | 63 => ⟨S2x120000, .f32⟩
  | 64 => ⟨S2x120000, .f32⟩
  | 65 => ⟨S_, .f32⟩
  | 66 => ⟨S2x120000, .f32⟩
  | 67 => ⟨S2x120000, .f32⟩
  | 68 => ⟨S2x120000, .f32⟩
  | 69 => ⟨S_, .f32⟩
  | 70 => ⟨S2x120000, .f32⟩
  | 71 => ⟨S2x120000, .f32⟩
  | 72 => ⟨S_, .f32⟩
  | 73 => ⟨S2x120000, .f32⟩
  | 74 => ⟨S2x120000, .f32⟩
  | 75 => ⟨S_, .f32⟩
  | 76 => ⟨S2x120000, .f32⟩
  | 77 => ⟨S2x120000, .f32⟩
  | 78 => ⟨S_, .f32⟩
  | 79 => ⟨S2x120000, .f32⟩
  | 80 => ⟨S2x120000, .f32⟩
  | 81 => ⟨S2x120000, .f32⟩
  | 82 => ⟨S2x120000x1, .f32⟩
  | 83 => ⟨S2x120000x1, .f32⟩
  | 84 => ⟨S2x120000x1, .f32⟩
  | 85 => ⟨S2x120000x1, .f32⟩
  | 86 => ⟨S2x120000x1, .f32⟩
  | 87 => ⟨S2x120000x1, .f32⟩
  | 88 => ⟨S2x120000x6, .f32⟩
  | 89 => ⟨S2x120000x10, .f32⟩
  | 90 => ⟨S2x120000x64, .f32⟩
  | 91 => ⟨S1x1x64, .f32⟩
  | 92 => ⟨S2x120000x64, .f32⟩
  | 93 => ⟨S2x120000x64, .f32⟩
  | 94 => ⟨S1x1x64, .f32⟩
  | 95 => ⟨S2x120000x64, .f32⟩
  | 96 => ⟨S2x120000x64, .f32⟩
  | 97 => ⟨S_, .f32⟩
  | 98 => ⟨S64, .f32⟩
  | 99 => ⟨S64, .f32⟩
  | 100 => ⟨S64, .f32⟩
  | 101 => ⟨S1x1x64, .f32⟩
  | 102 => ⟨S2x120000x64, .f32⟩
  | 103 => ⟨S2x120000x64, .f32⟩
  | 104 => ⟨S1x1x64, .f32⟩
  | 105 => ⟨S2x120000x64, .f32⟩
  | 106 => ⟨S2x120000x64, .f32⟩
  | 107 => ⟨S1x1x64, .f32⟩
  | 108 => ⟨S2x120000x64, .f32⟩
  | 109 => ⟨S2x120000x64, .f32⟩
  | 110 => ⟨S_, .f32⟩
  | 111 => ⟨S2x120000x64, .f32⟩
  | 112 => ⟨S2x120000x64, .f32⟩
  | 113 => ⟨S2x120000x256, .f32⟩
  | 114 => ⟨S1x1x256, .f32⟩
  | 115 => ⟨S2x120000x256, .f32⟩
  | 116 => ⟨S2x120000x256, .f32⟩
  | 117 => ⟨S1x1x256, .f32⟩
  | 118 => ⟨S2x120000x256, .f32⟩
  | 119 => ⟨S2x120000x256, .f32⟩
  | 120 => ⟨S_, .f32⟩
  | 121 => ⟨S256, .f32⟩
  | 122 => ⟨S256, .f32⟩
  | 123 => ⟨S256, .f32⟩
  | 124 => ⟨S1x1x256, .f32⟩
  | 125 => ⟨S2x120000x256, .f32⟩
  | 126 => ⟨S2x120000x256, .f32⟩
  | 127 => ⟨S1x1x256, .f32⟩
  | _ => ⟨S2x120000x4, .f32⟩

abbrev hbmTy0_1 (i : Nat) : BufTy := match i % 128 with
  | 0 => ⟨S2x120000x256, .f32⟩
  | 1 => ⟨S2x120000x256, .f32⟩
  | 2 => ⟨S1x1x256, .f32⟩
  | 3 => ⟨S2x120000x256, .f32⟩
  | 4 => ⟨S2x120000x256, .f32⟩
  | 5 => ⟨S_, .f32⟩
  | 6 => ⟨S2x120000x256, .f32⟩
  | 7 => ⟨S2x120000x256, .f32⟩
  | 8 => ⟨S_, .f32⟩
  | 9 => ⟨S_, .f32⟩
  | 10 => ⟨S_, .f32⟩
  | 11 => ⟨S2x120000x256, .f32⟩
  | 12 => ⟨S2x120000x256, .f32⟩
  | 13 => ⟨S_, .f32⟩
  | 14 => ⟨S2x120000x256, .f32⟩
  | 15 => ⟨S2x120000x256, .f32⟩
  | 16 => ⟨S_, .i32⟩
  | 17 => ⟨S2x120000, .i32⟩
  | 18 => ⟨S2x120000, .i32⟩
  | 19 => ⟨S2x120000, .i32⟩
  | 20 => ⟨S_, .i32⟩
  | 21 => ⟨S_, .i32⟩
  | 22 => ⟨S2x120000, .i32⟩
  | 23 => ⟨S2x120000, .i32⟩
  | 24 => ⟨S2, .i32⟩
  | 25 => ⟨S2x1, .i32⟩
  | 26 => ⟨S_, .i32⟩
  | 27 => ⟨S2x1, .i32⟩
  | 28 => ⟨S2x1, .i32⟩
  | 29 => ⟨S2x120000, .i32⟩
  | 30 => ⟨S2x120000, .i32⟩
  | 31 => ⟨S240000, .i32⟩
  | 32 => ⟨S240000x256, .f32⟩
  | 33 => ⟨S_, .f32⟩
  | 34 => ⟨S524290x256, .f32⟩
  | 35 => ⟨S240000x1, .i32⟩
  | 36 => ⟨S524290x256, .f32⟩
  | 37 => ⟨S_, .f32⟩
  | 38 => ⟨S240000, .f32⟩
  | 39 => ⟨S_, .f32⟩
  | 40 => ⟨S524290, .f32⟩
  | 41 => ⟨S240000x1, .i32⟩
  | 42 => ⟨S524290, .f32⟩
  | 43 => ⟨S524290x1, .f32⟩
  | 44 => ⟨S_, .f32⟩
  | 45 => ⟨S524290x1, .f32⟩
  | 46 => ⟨S524290x1, .f32⟩
  | 47 => ⟨S524290x256, .f32⟩
  | 48 => ⟨S524290x256, .f32⟩
  | 49 => ⟨S2x262145x256, .f32⟩
  | 50 => ⟨S2x262144x256, .f32⟩
  | 51 => ⟨S2x512x512x256, .f32⟩
  | 52 => ⟨S2x256x512x512, .f32⟩
  | _ => ⟨S2x120000x4, .f32⟩

abbrev hbmTy (i : Nat) : BufTy := match i / 128 with
  | 0 => hbmTy0_0 i
  | 1 => hbmTy0_1 i
  | _ => ⟨S2x120000x4, .f32⟩

abbrev bufTy : (tb : Table) → Fin (tcTables nBuf tb) → BufTy
  | .hbm, ⟨i, _⟩ => hbmTy i
  | _, _ => ⟨S2x120000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩
abbrev main_v31 : Ref sig .tc := ⟨.hbm, 64, rfl⟩
abbrev main_cst_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_9 : Ref sig .tc := ⟨.hbm, 69, rfl⟩
abbrev main_v35 : Ref sig .tc := ⟨.hbm, 70, rfl⟩
abbrev main_v36 : Ref sig .tc := ⟨.hbm, 71, rfl⟩
abbrev main_cst_10 : Ref sig .tc := ⟨.hbm, 72, rfl⟩
abbrev main_v37 : Ref sig .tc := ⟨.hbm, 73, rfl⟩
abbrev main_v38 : Ref sig .tc := ⟨.hbm, 74, rfl⟩
abbrev main_cst_11 : Ref sig .tc := ⟨.hbm, 75, rfl⟩
abbrev main_v39 : Ref sig .tc := ⟨.hbm, 76, rfl⟩
abbrev main_v40 : Ref sig .tc := ⟨.hbm, 77, rfl⟩
abbrev main_cst_12 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call2_cst : Ref sig .tc := ⟨.hbm, 110, rfl⟩
abbrev main_call2_v0 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call3_cst : Ref sig .tc := ⟨.hbm, 133, rfl⟩
abbrev main_call3_v0 : Ref sig .tc := ⟨.hbm, 134, rfl⟩
abbrev main_v91 : Ref sig .tc := ⟨.hbm, 135, rfl⟩
abbrev main_cst_15 : Ref sig .tc := ⟨.hbm, 136, rfl⟩
abbrev main_cst_16 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_v92 : Ref sig .tc := ⟨.hbm, 143, rfl⟩
abbrev main_c_17 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_18 : Ref sig .tc := ⟨.hbm, 148, rfl⟩
abbrev main_call5_v0 : Ref sig .tc := ⟨.hbm, 149, rfl⟩
abbrev main_call5_v1 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_19 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_20 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_21 : Ref sig .tc := ⟨.hbm, 165, rfl⟩
abbrev main_v108 : Ref sig .tc := ⟨.hbm, 166, rfl⟩
abbrev main_cst_22 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_23 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩

abbrev nD : Nat := 1
abbrev τ : Topo := Topo.v7x

variable {F : FTy → Type} [FloatOps F]

class Facts₀ : Prop where
  slices_S2x120000x4_S2x120000x1_0_0_0 : S2x120000x4.Slices ![0, 0, 0] S2x120000x1
  shapeCasts_S2x120000x1_S2x120000 : S2x120000x1.ShapeCasts S2x120000
  slices_S2x120000x4_S2x120000x1_0_0_1 : S2x120000x4.Slices ![0, 0, 1] S2x120000x1
  bcast_S_S2x120000 : S_.BroadcastsInDim S2x120000 (![] : Fin 0 → Fin S2x120000.rank)
  bcast_S2x120000_S2x120000x1_0_1 : S2x120000.BroadcastsInDim S2x120000x1 (![0, 1] : Fin 2 → Fin S2x120000x1.rank)
  concatenates_S2x120000x1_S2x120000x1_S2x120000x1_S2x120000x1_S2x120000x1_S2x120000x1_S2x120000x6_d2 : Shape.Concatenates [S2x120000x1, S2x120000x1, S2x120000x1, S2x120000x1, S2x120000x1, S2x120000x1] S2x120000x6 2
  concatenates_S2x120000x4_S2x120000x6_S2x120000x10_d2 : Shape.Concatenates [S2x120000x4, S2x120000x6] S2x120000x10 2
  bcast_S64_S1x1x64_2 : S64.BroadcastsInDim S1x1x64 (![2] : Fin 1 → Fin S1x1x64.rank)
  bcast_S1x1x64_S2x120000x64_0_1_2 : S1x1x64.BroadcastsInDim S2x120000x64 (![0, 1, 2] : Fin 3 → Fin S2x120000x64.rank)
  bcast_S_S64 : S_.BroadcastsInDim S64 (![] : Fin 0 → Fin S64.rank)
  bcast_S_S2x120000x64 : S_.BroadcastsInDim S2x120000x64 (![] : Fin 0 → Fin S2x120000x64.rank)
  bcast_S256_S1x1x256_2 : S256.BroadcastsInDim S1x1x256 (![2] : Fin 1 → Fin S1x1x256.rank)
  bcast_S1x1x256_S2x120000x256_0_1_2 : S1x1x256.BroadcastsInDim S2x120000x256 (![0, 1, 2] : Fin 3 → Fin S2x120000x256.rank)
  bcast_S_S256 : S_.BroadcastsInDim S256 (![] : Fin 0 → Fin S256.rank)
  bcast_S_S2x120000x256 : S_.BroadcastsInDim S2x120000x256 (![] : Fin 0 → Fin S2x120000x256.rank)
  bcast_S2_S2x1_0 : S2.BroadcastsInDim S2x1 (![0] : Fin 1 → Fin S2x1.rank)
  bcast_S_S2x1 : S_.BroadcastsInDim S2x1 (![] : Fin 0 → Fin S2x1.rank)
  bcast_S2x1_S2x120000_0_1 : S2x1.BroadcastsInDim S2x120000 (![0, 1] : Fin 2 → Fin S2x120000.rank)
  shapeCasts_S2x120000_S240000 : S2x120000.ShapeCasts S240000
  shapeCasts_S2x120000x256_S240000x256 : S2x120000x256.ShapeCasts S240000x256
  bcast_S_S524290x256 : S_.BroadcastsInDim S524290x256 (![] : Fin 0 → Fin S524290x256.rank)
  bcast_S240000_S240000x1_0 : S240000.BroadcastsInDim S240000x1 (![0] : Fin 1 → Fin S240000x1.rank)
  bcast_S_S240000 : S_.BroadcastsInDim S240000 (![] : Fin 0 → Fin S240000.rank)
  bcast_S_S524290 : S_.BroadcastsInDim S524290 (![] : Fin 0 → Fin S524290.rank)
  bcast_S524290_S524290x1_0 : S524290.BroadcastsInDim S524290x1 (![0] : Fin 1 → Fin S524290x1.rank)
  bcast_S_S524290x1 : S_.BroadcastsInDim S524290x1 (![] : Fin 0 → Fin S524290x1.rank)
  bcast_S524290x1_S524290x256_0_1 : S524290x1.BroadcastsInDim S524290x256 (![0, 1] : Fin 2 → Fin S524290x256.rank)
  shapeCasts_S524290x256_S2x262145x256 : S524290x256.ShapeCasts S2x262145x256
  slices_S2x262145x256_S2x262144x256_0_0_0 : S2x262145x256.Slices ![0, 0, 0] S2x262144x256
  shapeCasts_S2x262144x256_S2x512x512x256 : S2x262144x256.ShapeCasts S2x512x512x256
  transposes_S2x512x512x256_S2x256x512x512_0_3_1_2 : S2x512x512x256.Transposes [0, 3, 1, 2] S2x256x512x512
  dot_S2x120000x10_S64x10_S2x120000x64_2_1_01_0_n_n_wf : DotDims.WF S2x120000x10 S64x10 S2x120000x64 [2] [1] [0, 1] [0] [] []
  dot_S2x120000x64_S256x64_S2x120000x256_2_1_01_0_n_n_wf : DotDims.WF S2x120000x64 S256x64 S2x120000x256 [2] [1] [0, 1] [0] [] []
  scatter_S524290x256_S240000x1_S240000x256_1_0_0_1_wf : ScatterDims.WF S524290x256 S240000x1 S240000x256 [1] [0] [0] 1
  scatter_S524290_S240000x1_S240000_n_0_0_1_wf : ScatterDims.WF S524290 S240000x1 S240000 [] [0] [0] 1

variable [Facts₀]

def dot_S2x120000x10_S64x10_S2x120000x64_2_1_01_0_n_n : DotDims S2x120000x10 S64x10 S2x120000x64 where
  lhsContracting := [2]
  rhsContracting := [1]
  lhsNonContracting := [0, 1]
  rhsNonContracting := [0]
  lhsBatch := []
  rhsBatch := []
  wf := dot_S2x120000x10_S64x10_S2x120000x64_2_1_01_0_n_n_wf
def dot_S2x120000x64_S256x64_S2x120000x256_2_1_01_0_n_n : DotDims S2x120000x64 S256x64 S2x120000x256 where
  lhsContracting := [2]
  rhsContracting := [1]
  lhsNonContracting := [0, 1]
  rhsNonContracting := [0]
  lhsBatch := []
  rhsBatch := []
  wf := dot_S2x120000x64_S256x64_S2x120000x256_2_1_01_0_n_n_wf
def scatter_S524290x256_S240000x1_S240000x256_1_0_0_1 : ScatterDims S524290x256 S240000x1 S240000x256 where
  updateWindowDims := [1]
  insertedWindowDims := [0]
  scatterDimsToOperandDims := [0]
  indexVectorDim := 1
  wf := scatter_S524290x256_S240000x1_S240000x256_1_0_0_1_wf
def scatter_S524290_S240000x1_S240000_n_0_0_1 : ScatterDims S524290 S240000x1 S240000 where
  updateWindowDims := []
  insertedWindowDims := [0]
  scatterDimsToOperandDims := [0]
  indexVectorDim := 1
  wf := scatter_S524290_S240000x1_S240000_n_0_0_1_wf

class Facts : Prop extends Facts₀ where

variable [Facts]
-- ==== Proof.K.R0.lean ====
/-
  Region 0 of the kernel program: the per-point network as a pipeline over 40 blocks of 6000 points.
  At a point the body loads the block of points and the twelve parameter arrays whole, and stores two
  whole blocks: the clipped features and the segment ids. What each output's staging buffer holds after
  the body is therefore ONE store's payload over the loaded blocks (the canonical contents of a single
  covering piece); the thirteen inputs are left as found. The segment ids read the batch coordinate of
  the grid point, so that output is a function of the point's coordinates as well.
-/
import proofs.«118269_j50740743635700_2_alg».proof.Proof.Gen.Kernel.Launch
import proofs.«118269_j50740743635700_2_alg».proof.Proof.Gen.Kernel.Skeleton
import proofs.«118269_j50740743635700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0
-- the buffers' contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not (an unfetched window's block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not (an unfetched window's block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not (an unfetched window's block index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not (an unfetched window's block index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, fetched there or not (an unfetched window's block index has not moved). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, fetched there or not (an unfetched window's block index has not moved). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, fetched there or not (an unfetched window's block index has not moved). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole buffer -/

abbrev rw_S1x6000x4 : Rect S1x6000x4 := Rect.unit (s := S1x6000x4) ![0, 0, 0] S1x6000x4.size inb_S1x6000x4_S1x6000x4_0_0_0
abbrev rw_S10x64 : Rect S10x64 := Rect.unit (s := S10x64) ![0, 0] S10x64.size inb_S10x64_S10x64_0_0
abbrev rw_S1x64 : Rect S1x64 := Rect.unit (s := S1x64) ![0, 0] S1x64.size inb_S1x64_S1x64_0_0
abbrev rw_S64x256 : Rect S64x256 := Rect.unit (s := S64x256) ![0, 0] S64x256.size inb_S64x256_S64x256_0_0
abbrev rw_S1x256 : Rect S1x256 := Rect.unit (s := S1x256) ![0, 0] S1x256.size inb_S1x256_S1x256_0_0
abbrev rw_S1x6000x256 : Rect S1x6000x256 := Rect.unit (s := S1x6000x256) ![0, 0, 0] S1x6000x256.size inb_S1x6000x256_S1x6000x256_0_0_0
abbrev rw_S1x6000x1 : Rect S1x6000x1 := Rect.unit (s := S1x6000x1) ![0, 0, 0] S1x6000x1.size inb_S1x6000x1_S1x6000x1_0_0_0

/-! ## What the body leaves in each output window's buffer -/

/-- The features' staging buffer after the body: the one whole store of the clipped second layer over the loaded blocks. -/
def out0_13 (x0 : Vec F S1x6000x4 .f32) (x1 : Vec F S10x64 .f32) (x2 : Vec F S1x64 .f32) (x3 : Vec F S1x64 .f32) (x4 : Vec F S1x64 .f32) (x5 : Vec F S1x64 .f32) (x6 : Vec F S1x64 .f32) (x7 : Vec F S64x256 .f32) (x8 : Vec F S1x256 .f32) (x9 : Vec F S1x256 .f32) (x10 : Vec F S1x256 .f32) (x11 : Vec F S1x256 .f32) (x12 : Vec F S1x256 .f32) : Vec F S1x6000x256 .f32 :=
  View.canon [⟨rw_S1x6000x256, k0_pay15 (k0_pay12 (k0_pay2 (View.ld x0 rw_S1x6000x4)) (k0_pay8 (View.ld x0 rw_S1x6000x4)) (k0_pay9 (View.ld x0 rw_S1x6000x4)) (k0_pay10 (View.ld x0 rw_S1x6000x4)) (k0_pay11 (View.ld x0 rw_S1x6000x4)) (View.ld x1 rw_S10x64) (View.ld x2 rw_S1x64) (View.ld x5 rw_S1x64) (View.ld x6 rw_S1x64) (View.ld x3 rw_S1x64) (View.ld x4 rw_S1x64) (View.ld x7 rw_S64x256)) (k0_pay13 (View.ld x8 rw_S1x256)) (View.ld x11 rw_S1x256) (View.ld x12 rw_S1x256) (View.ld x9 rw_S1x256) (View.ld x10 rw_S1x256)⟩]

/-- The segment ids' staging buffer after the body, at grid coordinates `i` (the batch coordinate enters the id). -/
def out0_14 (i : grid0.Coords) (x0 : Vec F S1x6000x4 .f32) : Vec F S1x6000x1 .i32 :=
  View.canon [⟨rw_S1x6000x1, k0_pay1 (k0_pay14 (BitVec.ofNat 32 (i 0).val) (k0_pay5 (View.ld x0 rw_S1x6000x4)) (k0_pay6 (View.ld x0 rw_S1x6000x4)) (k0_pay7 (View.ld x0 rw_S1x6000x4)))⟩]

theorem cover0_13 (p0 : Vec F S1x6000x256 .f32) (y : S1x6000x256.Idx) :
    ∃ pc ∈ ([⟨rw_S1x6000x256, p0⟩] : List (View.Piece (Elt F) S1x6000x256 .f32)), y ∈ pc.1.set :=
  View.cover_of_tiled [⟨rw_S1x6000x256, p0⟩] S1x6000x256.size (by rfl) y

theorem cover0_14 (p0 : Vec F S1x6000x1 .i32) (y : S1x6000x1.Idx) :
    ∃ pc ∈ ([⟨rw_S1x6000x1, p0⟩] : List (View.Piece (Elt F) S1x6000x1 .i32)), y ∈ pc.1.set :=
  View.cover_of_tiled [⟨rw_S1x6000x1, p0⟩] S1x6000x1.size (by rfl) y

/-! ## The body's triple -/

set_option maxHeartbeats 4000000 in
/-- The body on whole staging buffers, the inputs' at read contents `xW` and the outputs' at anything, runs to the
    continuation holding the inputs' as they were and each output's at its store's payload over the inputs'. -/
theorem sound_kernel0 (c : Dev nD) (E : Set ℕ) (i : grid0.Coords) (arg0 : Memref sig .tc .vmem S1x6000x4 .f32) (harg0 : arg0.IsWhole) (arg1 : Memref sig .tc .vmem S10x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x6000x256 .f32) (harg13 : arg13.IsWhole) (arg14 : Memref sig .tc .vmem S1x6000x1 .i32) (harg14 : arg14.IsWhole)
    (x0 : Vec F S1x6000x4 .f32) (x1 : Vec F S10x64 .f32) (x2 : Vec F S1x64 .f32) (x3 : Vec F S1x64 .f32) (x4 : Vec F S1x64 .f32) (x5 : Vec F S1x64 .f32) (x6 : Vec F S1x64 .f32) (x7 : Vec F S64x256 .f32) (x8 : Vec F S1x256 .f32) (x9 : Vec F S1x256 .f32) (x10 : Vec F S1x256 .f32) (x11 : Vec F S1x256 .f32) (x12 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out0_13 x0 x1 x2 x3 x4 x5 x6 x7 x8 x9 x10 x11 x12) ∗ owns (c : Thread nD τ) arg14 fullShare (out0_14 i x0)) -∗ K ⟨⟩))
      ⊢ wp frame (wpE (defs₀ (F := F)) Variants.none c none) E (cc0__point_mlp_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__point_mlp_kernel_eq_skeleton]; unfold cc0__point_mlp_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-! ## The pipeline's proof data -/

/-- The proof data of pipeline 0 on core `c`: the arrays as the region finds them; after the body at point `t` each
    input's buffer at its block and each output's at its payload over the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨14, _⟩ => out0_14 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_14 (c : Dev nD) (t : Fin cfg0.N) : (dat0 V c).after 14 t = out0_14 (grid0.coords t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1.lean ====
/-
  Region 1 of the kernel program: the normalisation sums / (counts + ε) as a pipeline over 2 × 64 blocks of
  4096 pillar rows. The two operand arrays have 262145 rows per batch entry (the last one collects the points
  outside the grid) and the blocks have 4096, so the arrays are not tiled by blocks — but the grid stops at
  block 63, whose last row is row 262143: at no grid point does a block overhang its array, every fetch fills
  the whole staging buffer, and what the body finds there is a function of the array alone.
-/
import proofs.«118269_j50740743635700_2_alg».proof.Proof.Gen.Kernel.Launch
import proofs.«118269_j50740743635700_2_alg».proof.Proof.Gen.Kernel.Skeleton
import proofs.«118269_j50740743635700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No transfer of the two operand windows is cut, at any grid point and on any axis. -/
theorem noclip1_0 : ∀ t : Fin cfg1.N, ∀ a, (cfg1.win 0).clip (cfg1.grid.coords t) a = none :=
  (by decide +kernel : ∀ t : Fin grid1.N, ∀ a, win1_0.clip (grid1.coords t) a = none)
theorem noclip1_1 : ∀ t : Fin cfg1.N, ∀ a, (cfg1.win 1).clip (cfg1.grid.coords t) a = none :=
  (by decide +kernel : ∀ t : Fin grid1.N, ∀ a, win1_1.clip (grid1.coords t) a = none)

/-- So every coordinate of the block is moved by the transfer. -/
theorem moved1_0 (t : Fin cfg1.N) (j : (cfg1.win 0).block.Idx) : (cfg1.win 0).moved (cfg1.grid.coords t) j = true :=
  ((cfg1.win 0).moved_iff _ j).mpr fun a => by
    show (j a).val < ((cfg1.win 0).clip (cfg1.grid.coords t) a).extent ((cfg1.win 0).size a)
    rw [noclip1_0 t a]; exact (j a).isLt
theorem moved1_1 (t : Fin cfg1.N) (j : (cfg1.win 1).block.Idx) : (cfg1.win 1).moved (cfg1.grid.coords t) j = true :=
  ((cfg1.win 1).moved_iff _ j).mpr fun a => by
    show (j a).val < ((cfg1.win 1).clip (cfg1.grid.coords t) a).extent ((cfg1.win 1).size a)
    rw [noclip1_1 t a]; exact (j a).isLt

/-- The whole staging buffer of an operand window after its fetch at point `t`: the array's block, on every coordinate. -/
def full1_0 (c : Dev nD) (t : Fin cfg1.N) : (cfg1.win 0).block.Idx → Elt F (cfg1.win 0).elt :=
  (cfg1.win 0).fill (cfg1.grid.coords t) (fun _ => Scalar.ofBits .f32 0#32) (iblk1 V c 0 t)
def full1_1 (c : Dev nD) (t : Fin cfg1.N) : (cfg1.win 1).block.Idx → Elt F (cfg1.win 1).elt :=
  (cfg1.win 1).fill (cfg1.grid.coords t) (fun _ => Scalar.ofBits .f32 0#32) (iblk1 V c 1 t)

/-- Whatever the buffer held before, the fetch leaves exactly that. -/
theorem fill1_0 (c : Dev nD) (t : Fin cfg1.N) (d : (cfg1.win 0).block.Idx → Elt F (cfg1.win 0).elt) :
    (cfg1.win 0).fill (cfg1.grid.coords t) d (iblk1 V c 0 t) = full1_0 V c t := by
  funext j; unfold full1_0 Window.fill; rw [dif_pos (moved1_0 t j), dif_pos (moved1_0 t j)]
theorem fill1_1 (c : Dev nD) (t : Fin cfg1.N) (d : (cfg1.win 1).block.Idx → Elt F (cfg1.win 1).elt) :
    (cfg1.win 1).fill (cfg1.grid.coords t) d (iblk1 V c 1 t) = full1_1 V c t := by
  funext j; unfold full1_1 Window.fill; rw [dif_pos (moved1_1 t j), dif_pos (moved1_1 t j)]

/-! ## The body's accesses and what it leaves -/

abbrev rw_S1x4096x256 : Rect S1x4096x256 := Rect.unit (s := S1x4096x256) ![0, 0, 0] S1x4096x256.size inb_S1x4096x256_S1x4096x256_0_0_0
abbrev rw_S1x4096x1 : Rect S1x4096x1 := Rect.unit (s := S1x4096x1) ![0, 0, 0] S1x4096x1.size inb_S1x4096x1_S1x4096x1_0_0_0

/-- The result's staging buffer after the body: the one whole store of the quotient over the two loaded blocks. -/
def out1_2 (x0 : Vec F S1x4096x256 .f32) (x1 : Vec F S1x4096x1 .f32) : Vec F S1x4096x256 .f32 :=
  View.canon [⟨rw_S1x4096x256, k1_pay1 (View.ld x0 rw_S1x4096x256) (View.ld x1 rw_S1x4096x1)⟩]

theorem cover1_2 (p0 : Vec F S1x4096x256 .f32) (y : S1x4096x256.Idx) :
    ∃ pc ∈ ([⟨rw_S1x4096x256, p0⟩] : List (View.Piece (Elt F) S1x4096x256 .f32)), y ∈ pc.1.set :=
  View.cover_of_tiled [⟨rw_S1x4096x256, p0⟩] S1x4096x256.size (by rfl) y

set_option maxHeartbeats 2000000 in
theorem sound_kernel1 (c : Dev nD) (E : Set ℕ) (i : grid1.Coords) (arg0 : Memref sig .tc .vmem S1x4096x256 .f32) (harg0 : arg0.IsWhole) (arg1 : Memref sig .tc .vmem S1x4096x1 .f32) (harg1 : arg1.IsWhole) (arg2 : Memref sig .tc .vmem S1x4096x256 .f32) (harg2 : arg2.IsWhole)
    (x0 : Vec F S1x4096x256 .f32) (x1 : Vec F S1x4096x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__pillar_norm_kernel i arg0 harg0 arg1 harg1 arg2 harg2) K := by
  simp only [cc1__pillar_norm_kernel_eq_skeleton]; unfold cc1__pillar_norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

def dat1 (c : Dev nD) : Dat τ (Elt F) Unit ℕ (UR sig nD τ) ℕ cfg1 c where
  A w := V c (Pipeline.arrRef spec1 w)
  after w t := match w with
    | ⟨0, _⟩ => full1_0 V c t
    | ⟨1, _⟩ => full1_1 V c t
    | ⟨2, _⟩ => out1_2 (full1_0 V c t) (full1_1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = full1_0 V c t := by dsimp only [dat1]
theorem after1_1 (c : Dev nD) (t : Fin cfg1.N) : (dat1 V c).after 1 t = full1_1 V c t := by dsimp only [dat1]
theorem after1_2 (c : Dev nD) (t : Fin cfg1.N) : (dat1 V c).after 2 t = out1_2 (full1_0 V c t) (full1_1 V c t) := by dsimp only [dat1]

theorem blockOf1 (c : Dev nD) (w : Fin cfg1.W) (t : Fin cfg1.N) : (dat1 V c).blockOf w t = iblk1 V c w t := by
  unfold Dat.blockOf iblk1; rw [A_eq1]

/-- An operand's staging buffer holds its whole block at every point, whatever it held before. -/
theorem before1_0 (c : Dev nD) (t : Fin cfg1.N) (d) : (dat1 V c).before 0 t d = full1_0 V c t := by
  rw [(dat1 V c).before_in_eq_fetched 0 rfl (fun _ => rfl)
    (fun t t' _ => funext fun a => (noclip1_0 t a).trans (noclip1_0 t' a).symm)
    (fun t => by rw [after1_0, blockOf1]; exact (cfg1.win 0).cut_fill _ _ _) t d]
  unfold Dat.fetched; rw [blockOf1]; exact fill1_0 V c t d
theorem before1_1 (c : Dev nD) (t : Fin cfg1.N) (d) : (dat1 V c).before 1 t d = full1_1 V c t := by
  rw [(dat1 V c).before_in_eq_fetched 1 rfl (fun _ => rfl)
    (fun t t' _ => funext fun a => (noclip1_1 t a).trans (noclip1_1 t' a).symm)
    (fun t => by rw [after1_1, blockOf1]; exact (cfg1.win 1).cut_fill _ _ _) t d]
  unfold Dat.fetched; rw [blockOf1]; exact fill1_1 V c t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the operand windows are described on the part their transfers move (all of it). -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (full1_0 V c t) (full1_1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (full1_0 V c t); rw [Window.fill_cut]; iexact H0
  isplitl [H1]
  · iexists (full1_1 V c t); rw [Window.fill_cut]; iexact H1
  iexact H2

theorem body_obligation1 (c : Dev nD) : BodyObligationLoose (dat1 (F := F) V c) (defs₀ (F := F)) Variants.none () Set.univ := fun t => by
  rw [bigSep_W1, bigSep_W1]
  exact sound_body1 V c t

end Region1

end Cert.Kernel.Hand

end
-- ==== Proof.K.Run.lean ====
/-
  The kernel program's run: @main is three stretches of host operations around two pipelined regions. The
  contents of every buffer the program never frees are followed from the launch through the five segments:
  a host stretch applies its operations to the contents; a region leaves every array of its windows at what
  its write-backs left there (the inputs as they were, each output at the fold of its blocks) and every
  other buffer alone. The run ends with every such buffer at the last contents, from which the frame (no
  argument array is ever written) and the result array's value are read.
-/
import proofs.«118269_j50740743635700_2_alg».proof.Proof.K.R0
import proofs.«118269_j50740743635700_2_alg».proof.Proof.K.R1
import proofs.«118269_j50740743635700_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the first host stretch (the transposed weights, the parameter rows): region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the two segment sums): region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch (the reshape and the transposition): the end. -/
abbrev W5 : Dev nD → Valuation τ sig (Elt F) := fun c => StableHlo.after hostOps2 (W4 m ρ c)

/-! ### The arguments end as launched: no host operation writes one, and a region either reads it through an input
    window or does not touch it -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the core's generator register at some state and its dues, none. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every kept buffer at the last contents. -/
abbrev TnH (c : Dev nD) : sProp 𝕄 := StableHlo.held (c : Thread nD τ) (Pipeline.ucRefs τ sig) (W5 m ρ c)

/-! ## The regions as segments -/

set_option backward.isDefEq.respectTransparency.types false in
def regH0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regH1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := body_obligation1 (U3 m ρ) c
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m ρ) () defs₀ 𝒱H LH lvH) :=
  [ .host (hsegH hostOps0 hostOps0_sub hostOps0_fresh (W0 m ρ)),
    .region (regH0 m ρ),
    .host (hsegH hostOps1 hostOps1_sub hostOps1_fresh (W2 m ρ)),
    .region (regH1 m ρ),
    .host (hsegH hostOps2 hostOps2_sub hostOps2_fresh (W4 m ρ)) ]

theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting,
    and every final state holds every kept buffer at the last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c)
        ⊢ iprop(TnH m ρ c ∗ ∃ W, owes (c : Thread nD τ) (0 : CellTallies nD τ sig Unit) W)
      iintro ⟨Hh, -, HO⟩
      isplitl [Hh]; · iexact Hh
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      unfold TnH StableHlo.held
      iintro ⟨Hh, HSI⟩
      imodintro
      iapply (pointsTo_read_all (Pipeline.ucRefs τ sig) (fun b => (((c : Thread nD τ)).1, b)) (W5 m ρ c) s')
      isplitl [Hh] <;> iassumption)
    (hQ := fun s h c => h c)

/-- The frame, at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩) (run_all m ρ)

/-- The run read at the result array and the arguments. -/
theorem run_value : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v26 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩) (run_all m ρ)

end Cert.Kernel.Hand

end
-- ==== Proof.KI.R0.lean ====
/-
  Region 0 of the kernel program: the per-point network as a pipeline over 40 blocks of 6000 points.
  At a point the body loads the block of points and the twelve parameter arrays whole, and stores two
  whole blocks: the clipped features and the segment ids. What each output's staging buffer holds after
  the body is therefore ONE store's payload over the loaded blocks (the canonical contents of a single
  covering piece); the thirteen inputs are left as found. The segment ids read the batch coordinate of
  the grid point, so that output is a function of the point's coordinates as well.
-/
import proofs.«118269_j50740743635700_2_alg».proof.Proof.Gen.KernelIdeal.Launch
import proofs.«118269_j50740743635700_2_alg».proof.Proof.Gen.KernelIdeal.Skeleton
import proofs.«118269_j50740743635700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0
-- the buffers' contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not (an unfetched window's block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not (an unfetched window's block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not (an unfetched window's block index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not (an unfetched window's block index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, fetched there or not (an unfetched window's block index has not moved). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, fetched there or not (an unfetched window's block index has not moved). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, fetched there or not (an unfetched window's block index has not moved). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole buffer -/

abbrev rw_S1x6000x4 : Rect S1x6000x4 := Rect.unit (s := S1x6000x4) ![0, 0, 0] S1x6000x4.size inb_S1x6000x4_S1x6000x4_0_0_0
abbrev rw_S10x64 : Rect S10x64 := Rect.unit (s := S10x64) ![0, 0] S10x64.size inb_S10x64_S10x64_0_0
abbrev rw_S1x64 : Rect S1x64 := Rect.unit (s := S1x64) ![0, 0] S1x64.size inb_S1x64_S1x64_0_0
abbrev rw_S64x256 : Rect S64x256 := Rect.unit (s := S64x256) ![0, 0] S64x256.size inb_S64x256_S64x256_0_0
abbrev rw_S1x256 : Rect S1x256 := Rect.unit (s := S1x256) ![0, 0] S1x256.size inb_S1x256_S1x256_0_0
abbrev rw_S1x6000x256 : Rect S1x6000x256 := Rect.unit (s := S1x6000x256) ![0, 0, 0] S1x6000x256.size inb_S1x6000x256_S1x6000x256_0_0_0
abbrev rw_S1x6000x1 : Rect S1x6000x1 := Rect.unit (s := S1x6000x1) ![0, 0, 0] S1x6000x1.size inb_S1x6000x1_S1x6000x1_0_0_0

/-! ## What the body leaves in each output window's buffer -/

/-- The features' staging buffer after the body: the one whole store of the clipped second layer over the loaded blocks. -/
def out0_13 (x0 : Vec F S1x6000x4 .f32) (x1 : Vec F S10x64 .f32) (x2 : Vec F S1x64 .f32) (x3 : Vec F S1x64 .f32) (x4 : Vec F S1x64 .f32) (x5 : Vec F S1x64 .f32) (x6 : Vec F S1x64 .f32) (x7 : Vec F S64x256 .f32) (x8 : Vec F S1x256 .f32) (x9 : Vec F S1x256 .f32) (x10 : Vec F S1x256 .f32) (x11 : Vec F S1x256 .f32) (x12 : Vec F S1x256 .f32) : Vec F S1x6000x256 .f32 :=
  View.canon [⟨rw_S1x6000x256, k0_pay15 (k0_pay12 (k0_pay2 (View.ld x0 rw_S1x6000x4)) (k0_pay8 (View.ld x0 rw_S1x6000x4)) (k0_pay9 (View.ld x0 rw_S1x6000x4)) (k0_pay10 (View.ld x0 rw_S1x6000x4)) (k0_pay11 (View.ld x0 rw_S1x6000x4)) (View.ld x1 rw_S10x64) (View.ld x2 rw_S1x64) (View.ld x5 rw_S1x64) (View.ld x6 rw_S1x64) (View.ld x3 rw_S1x64) (View.ld x4 rw_S1x64) (View.ld x7 rw_S64x256)) (k0_pay13 (View.ld x8 rw_S1x256)) (View.ld x11 rw_S1x256) (View.ld x12 rw_S1x256) (View.ld x9 rw_S1x256) (View.ld x10 rw_S1x256)⟩]

/-- The segment ids' staging buffer after the body, at grid coordinates `i` (the batch coordinate enters the id). -/
def out0_14 (i : grid0.Coords) (x0 : Vec F S1x6000x4 .f32) : Vec F S1x6000x1 .i32 :=
  View.canon [⟨rw_S1x6000x1, k0_pay1 (k0_pay14 (BitVec.ofNat 32 (i 0).val) (k0_pay5 (View.ld x0 rw_S1x6000x4)) (k0_pay6 (View.ld x0 rw_S1x6000x4)) (k0_pay7 (View.ld x0 rw_S1x6000x4)))⟩]

theorem cover0_13 (p0 : Vec F S1x6000x256 .f32) (y : S1x6000x256.Idx) :
    ∃ pc ∈ ([⟨rw_S1x6000x256, p0⟩] : List (View.Piece (Elt F) S1x6000x256 .f32)), y ∈ pc.1.set :=
  View.cover_of_tiled [⟨rw_S1x6000x256, p0⟩] S1x6000x256.size (by rfl) y

theorem cover0_14 (p0 : Vec F S1x6000x1 .i32) (y : S1x6000x1.Idx) :
    ∃ pc ∈ ([⟨rw_S1x6000x1, p0⟩] : List (View.Piece (Elt F) S1x6000x1 .i32)), y ∈ pc.1.set :=
  View.cover_of_tiled [⟨rw_S1x6000x1, p0⟩] S1x6000x1.size (by rfl) y

/-! ## The body's triple -/

set_option maxHeartbeats 4000000 in
/-- The body on whole staging buffers, the inputs' at read contents `xW` and the outputs' at anything, runs to the
    continuation holding the inputs' as they were and each output's at its store's payload over the inputs'. -/
theorem sound_kernel0 (c : Dev nD) (E : Set ℕ) (i : grid0.Coords) (arg0 : Memref sig .tc .vmem S1x6000x4 .f32) (harg0 : arg0.IsWhole) (arg1 : Memref sig .tc .vmem S10x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x6000x256 .f32) (harg13 : arg13.IsWhole) (arg14 : Memref sig .tc .vmem S1x6000x1 .i32) (harg14 : arg14.IsWhole)
    (x0 : Vec F S1x6000x4 .f32) (x1 : Vec F S10x64 .f32) (x2 : Vec F S1x64 .f32) (x3 : Vec F S1x64 .f32) (x4 : Vec F S1x64 .f32) (x5 : Vec F S1x64 .f32) (x6 : Vec F S1x64 .f32) (x7 : Vec F S64x256 .f32) (x8 : Vec F S1x256 .f32) (x9 : Vec F S1x256 .f32) (x10 : Vec F S1x256 .f32) (x11 : Vec F S1x256 .f32) (x12 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out0_13 x0 x1 x2 x3 x4 x5 x6 x7 x8 x9 x10 x11 x12) ∗ owns (c : Thread nD τ) arg14 fullShare (out0_14 i x0)) -∗ K ⟨⟩))
      ⊢ wp frame (wpE (defs₀ (F := F)) Variants.none c none) E (cc0__point_mlp_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__point_mlp_kernel_eq_skeleton]; unfold cc0__point_mlp_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-! ## The pipeline's proof data -/

/-- The proof data of pipeline 0 on core `c`: the arrays as the region finds them; after the body at point `t` each
    input's buffer at its block and each output's at its payload over the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨14, _⟩ => out0_14 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_14 (c : Dev nD) (t : Fin cfg0.N) : (dat0 V c).after 14 t = out0_14 (grid0.coords t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.lean ====
/-
  Region 1 of the kernel program: the normalisation sums / (counts + ε) as a pipeline over 2 × 64 blocks of
  4096 pillar rows. The two operand arrays have 262145 rows per batch entry (the last one collects the points
  outside the grid) and the blocks have 4096, so the arrays are not tiled by blocks — but the grid stops at
  block 63, whose last row is row 262143: at no grid point does a block overhang its array, every fetch fills
  the whole staging buffer, and what the body finds there is a function of the array alone.
-/
import proofs.«118269_j50740743635700_2_alg».proof.Proof.Gen.KernelIdeal.Launch
import proofs.«118269_j50740743635700_2_alg».proof.Proof.Gen.KernelIdeal.Skeleton
import proofs.«118269_j50740743635700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No transfer of the two operand windows is cut, at any grid point and on any axis. -/
theorem noclip1_0 : ∀ t : Fin cfg1.N, ∀ a, (cfg1.win 0).clip (cfg1.grid.coords t) a = none :=
  (by decide +kernel : ∀ t : Fin grid1.N, ∀ a, win1_0.clip (grid1.coords t) a = none)
theorem noclip1_1 : ∀ t : Fin cfg1.N, ∀ a, (cfg1.win 1).clip (cfg1.grid.coords t) a = none :=
  (by decide +kernel : ∀ t : Fin grid1.N, ∀ a, win1_1.clip (grid1.coords t) a = none)

/-- So every coordinate of the block is moved by the transfer. -/
theorem moved1_0 (t : Fin cfg1.N) (j : (cfg1.win 0).block.Idx) : (cfg1.win 0).moved (cfg1.grid.coords t) j = true :=
  ((cfg1.win 0).moved_iff _ j).mpr fun a => by
    show (j a).val < ((cfg1.win 0).clip (cfg1.grid.coords t) a).extent ((cfg1.win 0).size a)
    rw [noclip1_0 t a]; exact (j a).isLt
theorem moved1_1 (t : Fin cfg1.N) (j : (cfg1.win 1).block.Idx) : (cfg1.win 1).moved (cfg1.grid.coords t) j = true :=
  ((cfg1.win 1).moved_iff _ j).mpr fun a => by
    show (j a).val < ((cfg1.win 1).clip (cfg1.grid.coords t) a).extent ((cfg1.win 1).size a)
    rw [noclip1_1 t a]; exact (j a).isLt

/-- The whole staging buffer of an operand window after its fetch at point `t`: the array's block, on every coordinate. -/
def full1_0 (c : Dev nD) (t : Fin cfg1.N) : (cfg1.win 0).block.Idx → Elt F (cfg1.win 0).elt :=
  (cfg1.win 0).fill (cfg1.grid.coords t) (fun _ => Scalar.ofBits .f32 0#32) (iblk1 V c 0 t)
def full1_1 (c : Dev nD) (t : Fin cfg1.N) : (cfg1.win 1).block.Idx → Elt F (cfg1.win 1).elt :=
  (cfg1.win 1).fill (cfg1.grid.coords t) (fun _ => Scalar.ofBits .f32 0#32) (iblk1 V c 1 t)

/-- Whatever the buffer held before, the fetch leaves exactly that. -/
theorem fill1_0 (c : Dev nD) (t : Fin cfg1.N) (d : (cfg1.win 0).block.Idx → Elt F (cfg1.win 0).elt) :
    (cfg1.win 0).fill (cfg1.grid.coords t) d (iblk1 V c 0 t) = full1_0 V c t := by
  funext j; unfold full1_0 Window.fill; rw [dif_pos (moved1_0 t j), dif_pos (moved1_0 t j)]
theorem fill1_1 (c : Dev nD) (t : Fin cfg1.N) (d : (cfg1.win 1).block.Idx → Elt F (cfg1.win 1).elt) :
    (cfg1.win 1).fill (cfg1.grid.coords t) d (iblk1 V c 1 t) = full1_1 V c t := by
  funext j; unfold full1_1 Window.fill; rw [dif_pos (moved1_1 t j), dif_pos (moved1_1 t j)]

/-! ## The body's accesses and what it leaves -/

abbrev rw_S1x4096x256 : Rect S1x4096x256 := Rect.unit (s := S1x4096x256) ![0, 0, 0] S1x4096x256.size inb_S1x4096x256_S1x4096x256_0_0_0
abbrev rw_S1x4096x1 : Rect S1x4096x1 := Rect.unit (s := S1x4096x1) ![0, 0, 0] S1x4096x1.size inb_S1x4096x1_S1x4096x1_0_0_0

/-- The result's staging buffer after the body: the one whole store of the quotient over the two loaded blocks. -/
def out1_2 (x0 : Vec F S1x4096x256 .f32) (x1 : Vec F S1x4096x1 .f32) : Vec F S1x4096x256 .f32 :=
  View.canon [⟨rw_S1x4096x256, k1_pay1 (View.ld x0 rw_S1x4096x256) (View.ld x1 rw_S1x4096x1)⟩]

theorem cover1_2 (p0 : Vec F S1x4096x256 .f32) (y : S1x4096x256.Idx) :
    ∃ pc ∈ ([⟨rw_S1x4096x256, p0⟩] : List (View.Piece (Elt F) S1x4096x256 .f32)), y ∈ pc.1.set :=
  View.cover_of_tiled [⟨rw_S1x4096x256, p0⟩] S1x4096x256.size (by rfl) y

set_option maxHeartbeats 2000000 in
theorem sound_kernel1 (c : Dev nD) (E : Set ℕ) (i : grid1.Coords) (arg0 : Memref sig .tc .vmem S1x4096x256 .f32) (harg0 : arg0.IsWhole) (arg1 : Memref sig .tc .vmem S1x4096x1 .f32) (harg1 : arg1.IsWhole) (arg2 : Memref sig .tc .vmem S1x4096x256 .f32) (harg2 : arg2.IsWhole)
    (x0 : Vec F S1x4096x256 .f32) (x1 : Vec F S1x4096x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__pillar_norm_kernel i arg0 harg0 arg1 harg1 arg2 harg2) K := by
  simp only [cc1__pillar_norm_kernel_eq_skeleton]; unfold cc1__pillar_norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

def dat1 (c : Dev nD) : Dat τ (Elt F) Unit ℕ (UR sig nD τ) ℕ cfg1 c where
  A w := V c (Pipeline.arrRef spec1 w)
  after w t := match w with
    | ⟨0, _⟩ => full1_0 V c t
    | ⟨1, _⟩ => full1_1 V c t
    | ⟨2, _⟩ => out1_2 (full1_0 V c t) (full1_1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = full1_0 V c t := by dsimp only [dat1]
theorem after1_1 (c : Dev nD) (t : Fin cfg1.N) : (dat1 V c).after 1 t = full1_1 V c t := by dsimp only [dat1]
theorem after1_2 (c : Dev nD) (t : Fin cfg1.N) : (dat1 V c).after 2 t = out1_2 (full1_0 V c t) (full1_1 V c t) := by dsimp only [dat1]

theorem blockOf1 (c : Dev nD) (w : Fin cfg1.W) (t : Fin cfg1.N) : (dat1 V c).blockOf w t = iblk1 V c w t := by
  unfold Dat.blockOf iblk1; rw [A_eq1]

/-- An operand's staging buffer holds its whole block at every point, whatever it held before. -/
theorem before1_0 (c : Dev nD) (t : Fin cfg1.N) (d) : (dat1 V c).before 0 t d = full1_0 V c t := by
  rw [(dat1 V c).before_in_eq_fetched 0 rfl (fun _ => rfl)
    (fun t t' _ => funext fun a => (noclip1_0 t a).trans (noclip1_0 t' a).symm)
    (fun t => by rw [after1_0, blockOf1]; exact (cfg1.win 0).cut_fill _ _ _) t d]
  unfold Dat.fetched; rw [blockOf1]; exact fill1_0 V c t d
theorem before1_1 (c : Dev nD) (t : Fin cfg1.N) (d) : (dat1 V c).before 1 t d = full1_1 V c t := by
  rw [(dat1 V c).before_in_eq_fetched 1 rfl (fun _ => rfl)
    (fun t t' _ => funext fun a => (noclip1_1 t a).trans (noclip1_1 t' a).symm)
    (fun t => by rw [after1_1, blockOf1]; exact (cfg1.win 1).cut_fill _ _ _) t d]
  unfold Dat.fetched; rw [blockOf1]; exact fill1_1 V c t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the operand windows are described on the part their transfers move (all of it). -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (full1_0 V c t) (full1_1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (full1_0 V c t); rw [Window.fill_cut]; iexact H0
  isplitl [H1]
  · iexists (full1_1 V c t); rw [Window.fill_cut]; iexact H1
  iexact H2

theorem body_obligation1 (c : Dev nD) : BodyObligationLoose (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The kernel program's run: @main is three stretches of host operations around two pipelined regions. The
  contents of every buffer the program never frees are followed from the launch through the five segments:
  a host stretch applies its operations to the contents; a region leaves every array of its windows at what
  its write-backs left there (the inputs as they were, each output at the fold of its blocks) and every
  other buffer alone. The run ends with every such buffer at the last contents, from which the frame (no
  argument array is ever written) and the result array's value are read.
-/
import proofs.«118269_j50740743635700_2_alg».proof.Proof.KI.R0
import proofs.«118269_j50740743635700_2_alg».proof.Proof.KI.R1
import proofs.«118269_j50740743635700_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the first host stretch (the transposed weights, the parameter rows): region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the two segment sums): region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch (the reshape and the transposition): the end. -/
abbrev W5 : Dev nD → Valuation τ sig (Elt F) := fun c => StableHlo.after hostOps2 (W4 m ρ c)

/-! ### The arguments end as launched: no host operation writes one, and a region either reads it through an input
    window or does not touch it -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the core's generator register at some state and its dues, none. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every kept buffer at the last contents. -/
abbrev TnH (c : Dev nD) : sProp 𝕄 := StableHlo.held (c : Thread nD τ) (Pipeline.ucRefs τ sig) (W5 m ρ c)

/-! ## The regions as segments -/

set_option backward.isDefEq.respectTransparency.types false in
def regH0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regH1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := body_obligation1 (U3 m ρ) c
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m ρ) () defs₀ 𝒱H LH lvH) :=
  [ .host (hsegH hostOps0 hostOps0_sub hostOps0_fresh (W0 m ρ)),
    .region (regH0 m ρ),
    .host (hsegH hostOps1 hostOps1_sub hostOps1_fresh (W2 m ρ)),
    .region (regH1 m ρ),
    .host (hsegH hostOps2 hostOps2_sub hostOps2_fresh (W4 m ρ)) ]

theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting,
    and every final state holds every kept buffer at the last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c)
        ⊢ iprop(TnH m ρ c ∗ ∃ W, owes (c : Thread nD τ) (0 : CellTallies nD τ sig Unit) W)
      iintro ⟨Hh, -, HO⟩
      isplitl [Hh]; · iexact Hh
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      unfold TnH StableHlo.held
      iintro ⟨Hh, HSI⟩
      imodintro
      iapply (pointsTo_read_all (Pipeline.ucRefs τ sig) (fun b => (((c : Thread nD τ)).1, b)) (W5 m ρ c) s')
      isplitl [Hh] <;> iassumption)
    (hQ := fun s h c => h c)

/-- The frame, at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩) (run_all m ρ)

/-- The run read at the result array and the arguments. -/
theorem run_value : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v26 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩) (run_all m ρ)

end Cert.KernelIdeal.Hand

end
-- ==== Proof.Spec.lean ====
/- The per-point closed forms of the pillar encoder, over plain functions of extended reals: the grid cell of
   a coordinate, the cell's centre, the ten augmented features, the two batch-normalised layers, the clip, and
   the pillar's segment number. Both programs are compared with these. -/
import Idealize.ShloMosaic.PureOps.Ideal
import Idealize.ShloMosaic.Lib.ValueIdx

noncomputable section

open scoped BigOperators

namespace Cert.Spec

open Idealize.ShloMosaic Idealize.ShloMosaic.ValueIdx

abbrev S2x120000x4 : Shape := ⟨3, ![2, 120000, 4]⟩
abbrev S64x10 : Shape := ⟨2, ![64, 10]⟩
abbrev S64 : Shape := ⟨1, ![64]⟩
abbrev S256x64 : Shape := ⟨2, ![256, 64]⟩
abbrev S256 : Shape := ⟨1, ![256]⟩

/-! ## The constants, as the values of their f32 words (never evaluated) -/

/-- The grid's origin on either axis, the f32 nearest −51.2. -/
abbrev cOrigin : EReal := Ideal.ofBits .f32 0xC24CCCCD#32
/-- The cell's side, the f32 nearest 0.2. -/
abbrev cCell : EReal := Ideal.ofBits .f32 0x3E4CCCCD#32
/-- Half the cell's side, the f32 nearest 0.1. -/
abbrev cHalf : EReal := Ideal.ofBits .f32 0x3DCCCCCD#32
/-- The batch normalisation's epsilon, the f32 nearest 0.001. -/
abbrev cEps : EReal := Ideal.ofBits .f32 0x3A83126F#32
/-- The f32 zero. -/
abbrev cZero : EReal := Ideal.ofBits .f32 0x00000000#32
/-- The clip's lower bound −100. -/
abbrev cLo : EReal := Ideal.ofBits .f32 0xC2C80000#32
/-- The clip's upper bound 100. -/
abbrev cHi : EReal := Ideal.ofBits .f32 0x42C80000#32

/-! ## One point -/

/-- The grid cell of a coordinate: `(x − origin) / side` truncated toward zero to a 32-bit integer. -/
def cell (x : EReal) : BitVec 32 := Ideal.fptosi 32 (Ideal.div (x - cOrigin) cCell)

/-- The centre of cell `g` along one axis: `g · side + origin + side/2`. -/
def centre (g : BitVec 32) : EReal := ((g.toInt : ℝ) : EReal) * cCell + cOrigin + cHalf

/-- Both cells lie in the 512 × 512 grid (signed comparisons), as one bit. -/
def inGrid (gx gy : BitVec 32) : BitVec 1 :=
  ((IntOp.cmpi .sge gx 0#32 &&& IntOp.cmpi .slt gx 512#32) &&& IntOp.cmpi .sge gy 0#32) &&& IntOp.cmpi .slt gy 512#32

/-- The ten augmented features of a point `p = (x, y, z, i)`:
    `x, y, z, i, x − cx, y − cy, 0, cx, cy, 0` with `(cx, cy)` the centre of the point's cell. -/
def augRow (p : Fin 4 → EReal) : Fin 10 → EReal :=
  ![p 0, p 1, p 2, p 3, p 0 - centre (cell (p 0)), p 1 - centre (cell (p 1)), cZero,
    centre (cell (p 0)), centre (cell (p 1)), cZero]

/-- Batch normalisation with running statistics: `(x − m) · rsqrt(v + ε) · g + β`. -/
def bn (x m v g be : EReal) : EReal := (x - m) * Ideal.rsqrt (v + cEps) * g + be

/-- The hidden layer at unit `h`: `relu (bn (aug · W1ᵀ + b1))`, the weights given TRANSPOSED
    (`W1T k h` = weight of feature `k` into unit `h`). -/
def hidRow (p : Fin 4 → EReal) (W1T : Fin 10 → Fin 64 → EReal) (b1 g1 be1 m1 v1 : Fin 64 → EReal) (h : Fin 64) : EReal :=
  max (bn ((∑ k : Fin 10, augRow p k * W1T k h) + b1 h) (m1 h) (v1 h) (g1 h) (be1 h)) cZero

/-- The output layer at channel `c`: `clip (relu (bn (hid · W2ᵀ + b2))) (−100) 100`, the weights given
    TRANSPOSED (`W2T h c` = weight of unit `h` into channel `c`). -/
def featRow (p : Fin 4 → EReal) (W1T : Fin 10 → Fin 64 → EReal) (b1 g1 be1 m1 v1 : Fin 64 → EReal)
    (W2T : Fin 64 → Fin 256 → EReal) (b2 g2 be2 m2 v2 : Fin 256 → EReal) (c : Fin 256) : EReal :=
  min cHi (max cLo (max (bn ((∑ h : Fin 64, hidRow p W1T b1 g1 be1 m1 v1 h * W2T h c) + b2 c)
    (m2 c) (v2 c) (g2 c) (be2 c)) cZero))

/-- The segment number of a point of batch word `i0`: its cell's row-major number `gy · 512 + gx` when the
    cell is in the grid and the spare number `262144` otherwise, plus `i0 · 262145` (32-bit, wrapping). -/
def segRow (i0 : BitVec 32) (p : Fin 4 → EReal) : BitVec 32 :=
  Scalar.select (inGrid (cell (p 0)) (cell (p 1))) (cell (p 1) * 512#32 + cell (p 0)) 262144#32 + i0 * 262145#32

/-! ## The whole arrays: `feat` and `seg` are the row forms at the point's row and the transposed weights -/

/-- The encoder's feature `c` of point `n` of batch `b`. -/
def feat (p : S2x120000x4.Idx → EReal) (W1 : S64x10.Idx → EReal) (b1 g1 be1 m1 v1 : S64.Idx → EReal)
    (W2 : S256x64.Idx → EReal) (b2 g2 be2 m2 v2 : S256.Idx → EReal) (b : Fin 2) (n : Fin 120000) (c : Fin 256) : EReal :=
  featRow (fun k => p (ix3 b n k)) (fun k h => W1 (ix2 h k))
    (fun h => b1 (ix1 h)) (fun h => g1 (ix1 h)) (fun h => be1 (ix1 h)) (fun h => m1 (ix1 h)) (fun h => v1 (ix1 h))
    (fun h c => W2 (ix2 c h))
    (fun c => b2 (ix1 c)) (fun c => g2 (ix1 c)) (fun c => be2 (ix1 c)) (fun c => m2 (ix1 c)) (fun c => v2 (ix1 c)) c

/-- The segment number of point `n` of batch `b`. -/
def seg (p : S2x120000x4.Idx → EReal) (b : Fin 2) (n : Fin 120000) : BitVec 32 :=
  segRow (BitVec.ofNat 32 b.val) (fun k => p (ix3 b n k))

end Cert.Spec

end
-- ==== Proof.KI.Value0.lean ====
/-
  What region 0 leaves in its two result arrays, index by index. Block t = (b, q) of the grid holds points
  6000·q … 6000·q + 5999 of batch entry b; the twelve parameter windows are the whole parameter arrays at every
  point. The body's two stores are functions of ONE row of the point block each, so the arrays end holding, at
  (b, n, ·), the row functions of point (b, n): the closed forms of the specification.
-/
import proofs.«118269_j50740743635700_2_alg».proof.Proof.KI.R0
import proofs.«118269_j50740743635700_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the point block and the two result blocks move together, block
    (b, q) at point t = (b, q); the last axis is never cut. -/
theorem idx0 : ∀ t : Fin cfg0.N,
    win0_0.index t (0 : Fin 3) = win0_13.index t (0 : Fin 3) ∧ win0_0.index t (1 : Fin 3) = win0_13.index t (1 : Fin 3)
    ∧ win0_0.index t (2 : Fin 3) = 0 ∧ win0_13.index t (2 : Fin 3) = 0
    ∧ win0_14.index t (0 : Fin 3) = win0_13.index t (0 : Fin 3) ∧ win0_14.index t (1 : Fin 3) = win0_13.index t (1 : Fin 3)
    ∧ win0_14.index t (2 : Fin 3) = 0
    ∧ win0_13.index t (0 : Fin 3) = (grid0.coords t 0).val ∧ win0_13.index t (0 : Fin 3) ≤ 1 ∧ win0_13.index t (1 : Fin 3) ≤ 19 :=
  (by decide +kernel : ∀ t : Fin grid0.N, _)

/-- Every block of the result arrays is some point's. -/
theorem idx_onto0 : ∀ (q0 : Fin 2) (q1 : Fin 20), ∃ t : Fin cfg0.N, win0_13.index t = ![q0.val, q1.val, 0] ∧ win0_14.index t = ![q0.val, q1.val, 0] :=
  (by decide +kernel : ∀ (q0 : Fin 2) (q1 : Fin 20), ∃ t : Fin grid0.N, win0_13.index t = ![q0.val, q1.val, 0] ∧ win0_14.index t = ![q0.val, q1.val, 0])

/-- Parameter window 1 is its whole array at every point. -/
theorem idxc0_1 : ∀ t : Fin cfg0.N, win0_1.index t (0 : Fin 2) = 0 ∧ win0_1.index t (1 : Fin 2) = 0 :=
  (by decide +kernel : ∀ t : Fin grid0.N, _)
theorem iblk0_1_eq (c : Dev nD) (t : Fin cfg0.N) : iblk0 V c 1 t = V c main_v0 := by
  funext y
  show V c main_v0 (((cfg0.win 1).blk t).view.emb y) = V c main_v0 y
  refine congrArg _ (funext fun a => Fin.ext ?_)
  match a with
  | ⟨0, _⟩ => show win0_1.index t (0 : Fin 2) * 10 + 1 * (y 0).val = (y 0).val; rw [(idxc0_1 t).1]; omega
  | ⟨1, _⟩ => show win0_1.index t (1 : Fin 2) * 64 + 1 * (y 1).val = (y 1).val; rw [(idxc0_1 t).2]; omega
/-- Parameter window 2 is its whole array at every point. -/
theorem idxc0_2 : ∀ t : Fin cfg0.N, win0_2.index t (0 : Fin 2) = 0 ∧ win0_2.index t (1 : Fin 2) = 0 :=
  (by decide +kernel : ∀ t : Fin grid0.N, _)
theorem iblk0_2_eq (c : Dev nD) (t : Fin cfg0.N) : iblk0 V c 2 t = V c main_v2 := by
  funext y
  show V c main_v2 (((cfg0.win 2).blk t).view.emb y) = V c main_v2 y
  refine congrArg _ (funext fun a => Fin.ext ?_)
  match a with
  | ⟨0, _⟩ => show win0_2.index t (0 : Fin 2) * 1 + 1 * (y 0).val = (y 0).val; rw [(idxc0_2 t).1]; omega
  | ⟨1, _⟩ => show win0_2.index t (1 : Fin 2) * 64 + 1 * (y 1).val = (y 1).val; rw [(idxc0_2 t).2]; omega
/-- Parameter window 3 is its whole array at every point. -/
theorem idxc0_3 : ∀ t : Fin cfg0.N, win0_3.index t (0 : Fin 2) = 0 ∧ win0_3.index t (1 : Fin 2) = 0 :=
  (by decide +kernel : ∀ t : Fin grid0.N, _)
theorem iblk0_3_eq (c : Dev nD) (t : Fin cfg0.N) : iblk0 V c 3 t = V c main_v3 := by
  funext y
  show V c main_v3 (((cfg0.win 3).blk t).view.emb y) = V c main_v3 y
  refine congrArg _ (funext fun a => Fin.ext ?_)
  match a with
  | ⟨0, _⟩ => show win0_3.index t (0 : Fin 2) * 1 + 1 * (y 0).val = (y 0).val; rw [(idxc0_3 t).1]; omega
  | ⟨1, _⟩ => show win0_3.index t (1 : Fin 2) * 64 + 1 * (y 1).val = (y 1).val; rw [(idxc0_3 t).2]; omega
/-- Parameter window 4 is its whole array at every point. -/
theorem idxc0_4 : ∀ t : Fin cfg0.N, win0_4.index t (0 : Fin 2) = 0 ∧ win0_4.index t (1 : Fin 2) = 0 :=
  (by decide +kernel : ∀ t : Fin grid0.N, _)
theorem iblk0_4_eq (c : Dev nD) (t : Fin cfg0.N) : iblk0 V c 4 t = V c main_v4 := by
  funext y
  show V c main_v4 (((cfg0.win 4).blk t).view.emb y) = V c main_v4 y
  refine congrArg _ (funext fun a => Fin.ext ?_)
  match a with
  | ⟨0, _⟩ => show win0_4.index t (0 : Fin 2) * 1 + 1 * (y 0).val = (y 0).val; rw [(idxc0_4 t).1]; omega
  | ⟨1, _⟩ => show win0_4.index t (1 : Fin 2) * 64 + 1 * (y 1).val = (y 1).val; rw [(idxc0_4 t).2]; omega
/-- Parameter window 5 is its whole array at every point. -/
theorem idxc0_5 : ∀ t : Fin cfg0.N, win0_5.index t (0 : Fin 2) = 0 ∧ win0_5.index t (1 : Fin 2) = 0 :=
  (by decide +kernel : ∀ t : Fin grid0.N, _)
theorem iblk0_5_eq (c : Dev nD) (t : Fin cfg0.N) : iblk0 V c 5 t = V c main_v5 := by
  funext y
  show V c main_v5 (((cfg0.win 5).blk t).view.emb y) = V c main_v5 y
  refine congrArg _ (funext fun a => Fin.ext ?_)
  match a with
  | ⟨0, _⟩ => show win0_5.index t (0 : Fin 2) * 1 + 1 * (y 0).val = (y 0).val; rw [(idxc0_5 t).1]; omega
  | ⟨1, _⟩ => show win0_5.index t (1 : Fin 2) * 64 + 1 * (y 1).val = (y 1).val; rw [(idxc0_5 t).2]; omega
/-- Parameter window 6 is its whole array at every point. -/
theorem idxc0_6 : ∀ t : Fin cfg0.N, win0_6.index t (0 : Fin 2) = 0 ∧ win0_6.index t (1 : Fin 2) = 0 :=
  (by decide +kernel : ∀ t : Fin grid0.N, _)
theorem iblk0_6_eq (c : Dev nD) (t : Fin cfg0.N) : iblk0 V c 6 t = V c main_v6 := by
  funext y
  show V c main_v6 (((cfg0.win 6).blk t).view.emb y) = V c main_v6 y
  refine congrArg _ (funext fun a => Fin.ext ?_)
  match a with
  | ⟨0, _⟩ => show win0_6.index t (0 : Fin 2) * 1 + 1 * (y 0).val = (y 0).val; rw [(idxc0_6 t).1]; omega
  | ⟨1, _⟩ => show win0_6.index t (1 : Fin 2) * 64 + 1 * (y 1).val = (y 1).val; rw [(idxc0_6 t).2]; omega
/-- Parameter window 7 is its whole array at every point. -/
theorem idxc0_7 : ∀ t : Fin cfg0.N, win0_7.index t (0 : Fin 2) = 0 ∧ win0_7.index t (1 : Fin 2) = 0 :=
  (by decide +kernel : ∀ t : Fin grid0.N, _)
theorem iblk0_7_eq (c : Dev nD) (t : Fin cfg0.N) : iblk0 V c 7 t = V c main_v1 := by
  funext y
  show V c main_v1 (((cfg0.win 7).blk t).view.emb y) = V c main_v1 y
  refine congrArg _ (funext fun a => Fin.ext ?_)
  match a with
  | ⟨0, _⟩ => show win0_7.index t (0 : Fin 2) * 64 + 1 * (y 0).val = (y 0).val; rw [(idxc0_7 t).1]; omega
  | ⟨1, _⟩ => show win0_7.index t (1 : Fin 2) * 256 + 1 * (y 1).val = (y 1).val; rw [(idxc0_7 t).2]; omega
/-- Parameter window 8 is its whole array at every point. -/
theorem idxc0_8 : ∀ t : Fin cfg0.N, win0_8.index t (0 : Fin 2) = 0 ∧ win0_8.index t (1 : Fin 2) = 0 :=
  (by decide +kernel : ∀ t : Fin grid0.N, _)
theorem iblk0_8_eq (c : Dev nD) (t : Fin cfg0.N) : iblk0 V c 8 t = V c main_v7 := by
  funext y
  show V c main_v7 (((cfg0.win 8).blk t).view.emb y) = V c main_v7 y
  refine congrArg _ (funext fun a => Fin.ext ?_)
  match a with
  | ⟨0, _⟩ => show win0_8.index t (0 : Fin 2) * 1 + 1 * (y 0).val = (y 0).val; rw [(idxc0_8 t).1]; omega
  | ⟨1, _⟩ => show win0_8.index t (1 : Fin 2) * 256 + 1 * (y 1).val = (y 1).val; rw [(idxc0_8 t).2]; omega
/-- Parameter window 9 is its whole array at every point. -/
theorem idxc0_9 : ∀ t : Fin cfg0.N, win0_9.index t (0 : Fin 2) = 0 ∧ win0_9.index t (1 : Fin 2) = 0 :=
  (by decide +kernel : ∀ t : Fin grid0.N, _)
theorem iblk0_9_eq (c : Dev nD) (t : Fin cfg0.N) : iblk0 V c 9 t = V c main_v8 := by
  funext y
  show V c main_v8 (((cfg0.win 9).blk t).view.emb y) = V c main_v8 y
  refine congrArg _ (funext fun a => Fin.ext ?_)
  match a with
  | ⟨0, _⟩ => show win0_9.index t (0 : Fin 2) * 1 + 1 * (y 0).val = (y 0).val; rw [(idxc0_9 t).1]; omega
  | ⟨1, _⟩ => show win0_9.index t (1 : Fin 2) * 256 + 1 * (y 1).val = (y 1).val; rw [(idxc0_9 t).2]; omega
/-- Parameter window 10 is its whole array at every point. -/
theorem idxc0_10 : ∀ t : Fin cfg0.N, win0_10.index t (0 : Fin 2) = 0 ∧ win0_10.index t (1 : Fin 2) = 0 :=
  (by decide +kernel : ∀ t : Fin grid0.N, _)
theorem iblk0_10_eq (c : Dev nD) (t : Fin cfg0.N) : iblk0 V c 10 t = V c main_v9 := by
  funext y
  show V c main_v9 (((cfg0.win 10).blk t).view.emb y) = V c main_v9 y
  refine congrArg _ (funext fun a => Fin.ext ?_)
  match a with
  | ⟨0, _⟩ => show win0_10.index t (0 : Fin 2) * 1 + 1 * (y 0).val = (y 0).val; rw [(idxc0_10 t).1]; omega
  | ⟨1, _⟩ => show win0_10.index t (1 : Fin 2) * 256 + 1 * (y 1).val = (y 1).val; rw [(idxc0_10 t).2]; omega
/-- Parameter window 11 is its whole array at every point. -/
theorem idxc0_11 : ∀ t : Fin cfg0.N, win0_11.index t (0 : Fin 2) = 0 ∧ win0_11.index t (1 : Fin 2) = 0 :=
  (by decide +kernel : ∀ t : Fin grid0.N, _)
theorem iblk0_11_eq (c : Dev nD) (t : Fin cfg0.N) : iblk0 V c 11 t = V c main_v10 := by
  funext y
  show V c main_v10 (((cfg0.win 11).blk t).view.emb y) = V c main_v10 y
  refine congrArg _ (funext fun a => Fin.ext ?_)
  match a with
  | ⟨0, _⟩ => show win0_11.index t (0 : Fin 2) * 1 + 1 * (y 0).val = (y 0).val; rw [(idxc0_11 t).1]; omega
  | ⟨1, _⟩ => show win0_11.index t (1 : Fin 2) * 256 + 1 * (y 1).val = (y 1).val; rw [(idxc0_11 t).2]; omega
/-- Parameter window 12 is its whole array at every point. -/
theorem idxc0_12 : ∀ t : Fin cfg0.N, win0_12.index t (0 : Fin 2) = 0 ∧ win0_12.index t (1 : Fin 2) = 0 :=
  (by decide +kernel : ∀ t : Fin grid0.N, _)
theorem iblk0_12_eq (c : Dev nD) (t : Fin cfg0.N) : iblk0 V c 12 t = V c main_v11 := by
  funext y
  show V c main_v11 (((cfg0.win 12).blk t).view.emb y) = V c main_v11 y
  refine congrArg _ (funext fun a => Fin.ext ?_)
  match a with
  | ⟨0, _⟩ => show win0_12.index t (0 : Fin 2) * 1 + 1 * (y 0).val = (y 0).val; rw [(idxc0_12 t).1]; omega
  | ⟨1, _⟩ => show win0_12.index t (1 : Fin 2) * 256 + 1 * (y 1).val = (y 1).val; rw [(idxc0_12 t).2]; omega

/-! ## The two closed forms -/

/-- The features array: at (b, n, ch) the output layer's channel ch of point (b, n), over the arrays the region finds. -/
def featArr (c : Dev nD) : S2x120000x256.Idx → EReal := fun i =>
  Cert.Spec.featRow (fun k => V c main_arg0 (ix3 (i 0 : Fin 2) (i 1 : Fin 120000) k)) (fun k h => V c main_v0 (ix2 k h))
    (fun h => V c main_v2 (ix2 0 h)) (fun h => V c main_v3 (ix2 0 h)) (fun h => V c main_v4 (ix2 0 h)) (fun h => V c main_v5 (ix2 0 h)) (fun h => V c main_v6 (ix2 0 h))
    (fun h ch => V c main_v1 (ix2 h ch))
    (fun ch => V c main_v7 (ix2 0 ch)) (fun ch => V c main_v8 (ix2 0 ch)) (fun ch => V c main_v9 (ix2 0 ch)) (fun ch => V c main_v10 (ix2 0 ch)) (fun ch => V c main_v11 (ix2 0 ch)) (i 2 : Fin 256)

/-- The segment ids: at (b, n, 0) the segment number of point (b, n). -/
def segArr (c : Dev nD) : S2x120000x1.Idx → BitVec 32 := fun i =>
  Cert.Spec.segRow (BitVec.ofNat 32 (i 0).val) (fun k => V c main_arg0 (ix3 (i 0 : Fin 2) (i 1 : Fin 120000) k))

/-- The body's payloads read at a row are the specification's row functions of that row of the point block. -/
structure PayFacts : Prop where
  feat : ∀ (v0 : Vec Ideal S1x6000x4 .f32) (v44 : Vec Ideal S10x64 .f32) (v48 v52 v56 v63 v67 : Vec Ideal S1x64 .f32) (v74 : Vec Ideal S64x256 .f32) (v78 v82 v86 v93 v97 : Vec Ideal S1x256 .f32) (r : Fin 6000) (ch : Fin 256),
    k0_pay15 (k0_pay12 (k0_pay2 v0) (k0_pay8 v0) (k0_pay9 v0) (k0_pay10 v0) (k0_pay11 v0) v44 v48 v52 v56 v63 v67 v74) (k0_pay13 v78) v82 v86 v93 v97 (ix3 0 r ch)
      = Cert.Spec.featRow (fun k => v0 (ix3 0 r k)) (fun k h => v44 (ix2 k h)) (fun h => v48 (ix2 0 h)) (fun h => v63 (ix2 0 h)) (fun h => v67 (ix2 0 h)) (fun h => v52 (ix2 0 h)) (fun h => v56 (ix2 0 h)) (fun h c => v74 (ix2 h c)) (fun c => v78 (ix2 0 c)) (fun c => v93 (ix2 0 c)) (fun c => v97 (ix2 0 c)) (fun c => v82 (ix2 0 c)) (fun c => v86 (ix2 0 c)) ch
  seg : ∀ (i0 : BitVec 32) (v0 : Vec Ideal S1x6000x4 .f32) (r : Fin 6000),
    k0_pay1 (k0_pay14 i0 (k0_pay5 v0) (k0_pay6 v0) (k0_pay7 v0)) (ix3 0 r 0) = Cert.Spec.segRow i0 (fun k => v0 (ix3 0 r k))

theorem out0_13_apply (hp : PayFacts) (x0 : Vec Ideal S1x6000x4 .f32) (x1 : Vec Ideal S10x64 .f32) (x2 : Vec Ideal S1x64 .f32) (x3 : Vec Ideal S1x64 .f32) (x4 : Vec Ideal S1x64 .f32) (x5 : Vec Ideal S1x64 .f32) (x6 : Vec Ideal S1x64 .f32) (x7 : Vec Ideal S64x256 .f32) (x8 : Vec Ideal S1x256 .f32) (x9 : Vec Ideal S1x256 .f32) (x10 : Vec Ideal S1x256 .f32) (x11 : Vec Ideal S1x256 .f32) (x12 : Vec Ideal S1x256 .f32) (r : Fin 6000) (ch : Fin 256) :
    out0_13 x0 x1 x2 x3 x4 x5 x6 x7 x8 x9 x10 x11 x12 (ix3 0 r ch)
      = Cert.Spec.featRow (fun k => x0 (ix3 0 r k)) (fun k h => x1 (ix2 k h))
    (fun h => x2 (ix2 0 h)) (fun h => x3 (ix2 0 h)) (fun h => x4 (ix2 0 h)) (fun h => x5 (ix2 0 h)) (fun h => x6 (ix2 0 h))
    (fun h ch => x7 (ix2 h ch))
    (fun ch => x8 (ix2 0 ch)) (fun ch => x9 (ix2 0 ch)) (fun ch => x10 (ix2 0 ch)) (fun ch => x11 (ix2 0 ch)) (fun ch => x12 (ix2 0 ch)) ch := by
  unfold out0_13
  rw [View.canon_unit_zero hz3]
  simp only [View.ld_unit_zero (S := S1x6000x4) hz3, View.ld_unit_zero (S := S10x64) hz2, View.ld_unit_zero (S := S1x64) hz2, View.ld_unit_zero (S := S64x256) hz2, View.ld_unit_zero (S := S1x256) hz2]
  exact hp.feat x0 x1 x2 x5 x6 x3 x4 x7 x8 x11 x12 x9 x10 r ch

theorem out0_14_apply (hp : PayFacts) (i : grid0.Coords) (x0 : Vec Ideal S1x6000x4 .f32) (r : Fin 6000) :
    out0_14 i x0 (ix3 0 r 0) = Cert.Spec.segRow (BitVec.ofNat 32 (i 0).val) (fun k => x0 (ix3 0 r k)) := by
  unfold out0_14
  rw [View.canon_unit_zero hz3]
  simp only [View.ld_unit_zero (S := S1x6000x4) hz3]
  exact hp.seg _ x0 r

/-- A row of the point block at point t is the row of the array the block's position gives. -/
theorem iblk0_0_row (c : Dev nD) (t : Fin cfg0.N) (r : Fin 6000) (k : Fin 4) (y : S1x6000x256.Idx) (hy1 : (y 1).val = r.val) (hy0 : (y 0).val = 0) :
    iblk0 V c 0 t (ix3 0 r k) = V c main_arg0 (ix3 ((((cfg0.win 13).blk t).view.emb y) 0 : Fin 2) ((((cfg0.win 13).blk t).view.emb y) 1 : Fin 120000) k) := by
  obtain ⟨e0, e1, e2, e3, -⟩ := idx0 t
  show V c main_arg0 (((cfg0.win 0).blk t).view.emb (ix3 0 r k)) = _
  refine congrArg _ (funext fun a => Fin.ext ?_)
  match a with
  | ⟨0, _⟩ => show win0_0.index t (0 : Fin 3) * 1 + 1 * 0 = win0_13.index t (0 : Fin 3) * 1 + 1 * (y 0).val; rw [e0, hy0]
  | ⟨1, _⟩ => show win0_0.index t (1 : Fin 3) * 6000 + 1 * r.val = win0_13.index t (1 : Fin 3) * 6000 + 1 * (y 1).val; rw [e1, hy1]
  | ⟨2, _⟩ => show win0_0.index t (2 : Fin 3) * 4 + 1 * k.val = k.val; rw [e2]; omega

theorem flushed13_eq (hp : PayFacts) (c : Dev nD) (t : Fin cfg0.N) :
    (dat0 V c).flushed 13 t = ((cfg0.win 13).blk t).view.read (Elt Ideal) (featArr V c) := by
  show (cfg0.win 13).cut (grid0.coords t) ((dat0 V c).after 13 t) = _
  rw [after0_13, iblk0_1_eq, iblk0_2_eq, iblk0_3_eq, iblk0_4_eq, iblk0_5_eq, iblk0_6_eq, iblk0_7_eq, iblk0_8_eq, iblk0_9_eq, iblk0_10_eq, iblk0_11_eq, iblk0_12_eq]
  funext j
  obtain ⟨r, ch, rfl⟩ : ∃ (r : Fin 6000) (ch : Fin 256), j = (ix3 (0 : Fin 1) r ch : S1x6000x256.Idx) :=
    ⟨⟨(j 1).val, (j 1).isLt⟩, ⟨(j 2).val, (j 2).isLt⟩, funext fun a => Fin.ext (by
      match a with
      | ⟨0, _⟩ => exact Nat.lt_one_iff.mp (j 0).isLt
      | ⟨1, _⟩ => rfl
      | ⟨2, _⟩ => rfl)⟩
  show out0_13 (iblk0 V c 0 t) (V c main_v0) (V c main_v2) (V c main_v3) (V c main_v4) (V c main_v5) (V c main_v6) (V c main_v1) (V c main_v7) (V c main_v8) (V c main_v9) (V c main_v10) (V c main_v11) (ix3 0 r ch)
    = featArr V c (((cfg0.win 13).blk t).view.emb (ix3 (0 : Fin 1) r ch : S1x6000x256.Idx))
  rw [out0_13_apply hp]
  unfold featArr
  have hE2 : ((((cfg0.win 13).blk t).view.emb (ix3 (0 : Fin 1) r ch : S1x6000x256.Idx)) 2 : Fin 256) = ch :=
    Fin.ext (by show win0_13.index t (2 : Fin 3) * 256 + 1 * ch.val = ch.val; rw [(idx0 t).2.2.2.1]; omega)
  rw [hE2]
  refine congrArg (fun p => Cert.Spec.featRow p (fun k h => V c main_v0 (ix2 k h))
    (fun h => V c main_v2 (ix2 0 h)) (fun h => V c main_v3 (ix2 0 h)) (fun h => V c main_v4 (ix2 0 h)) (fun h => V c main_v5 (ix2 0 h)) (fun h => V c main_v6 (ix2 0 h))
    (fun h ch => V c main_v1 (ix2 h ch))
    (fun ch => V c main_v7 (ix2 0 ch)) (fun ch => V c main_v8 (ix2 0 ch)) (fun ch => V c main_v9 (ix2 0 ch)) (fun ch => V c main_v10 (ix2 0 ch)) (fun ch => V c main_v11 (ix2 0 ch)) ch) (funext fun k => ?_)
  exact iblk0_0_row V c t r k _ rfl rfl

theorem flushed14_eq (hp : PayFacts) (c : Dev nD) (t : Fin cfg0.N) :
    (dat0 V c).flushed 14 t = ((cfg0.win 14).blk t).view.read (Elt Ideal) (segArr V c) := by
  show (cfg0.win 14).cut (grid0.coords t) ((dat0 V c).after 14 t) = _
  rw [after0_14]
  funext j
  obtain ⟨r, rfl⟩ : ∃ (r : Fin 6000), j = (ix3 (0 : Fin 1) r (0 : Fin 1) : S1x6000x1.Idx) :=
    ⟨⟨(j 1).val, (j 1).isLt⟩, funext fun a => Fin.ext (by
      match a with
      | ⟨0, _⟩ => exact Nat.lt_one_iff.mp (j 0).isLt
      | ⟨1, _⟩ => rfl
      | ⟨2, _⟩ => exact Nat.lt_one_iff.mp (j 2).isLt)⟩
  show out0_14 (grid0.coords t) (iblk0 V c 0 t) (ix3 0 r 0)
    = segArr V c (((cfg0.win 14).blk t).view.emb (ix3 (0 : Fin 1) r (0 : Fin 1) : S1x6000x1.Idx))
  rw [out0_14_apply hp]
  unfold segArr
  obtain ⟨e0, e1, e2, e3, e4, e5, e6, e7, -⟩ := idx0 t
  have hE0 : ((((cfg0.win 14).blk t).view.emb (ix3 (0 : Fin 1) r (0 : Fin 1) : S1x6000x1.Idx)) 0).val = (grid0.coords t 0).val := by
    show win0_14.index t (0 : Fin 3) * 1 + 1 * 0 = _; rw [e4, e7]; omega
  rw [hE0]
  refine congrArg (fun p => Cert.Spec.segRow (BitVec.ofNat 32 (grid0.coords t 0).val) p) (funext fun k => ?_)
  show V c main_arg0 (((cfg0.win 0).blk t).view.emb (ix3 0 r k)) = _
  refine congrArg _ (funext fun a => Fin.ext ?_)
  match a with
  | ⟨0, _⟩ => show win0_0.index t (0 : Fin 3) * 1 + 1 * 0 = win0_14.index t (0 : Fin 3) * 1 + 1 * 0; rw [e0, e4]
  | ⟨1, _⟩ => show win0_0.index t (1 : Fin 3) * 6000 + 1 * r.val = win0_14.index t (1 : Fin 3) * 6000 + 1 * r.val; rw [e1, e5]
  | ⟨2, _⟩ => show win0_0.index t (2 : Fin 3) * 4 + 1 * k.val = k.val; rw [e2]; omega

/-! ## The blocks cover the arrays -/

theorem mem_blk13 (t : Fin cfg0.N) (i : S2x120000x256.Idx) :
    i ∈ ((cfg0.win 13).blk t).view.set ↔ ∀ a : Fin 3, win0_13.index t a * S1x6000x256.size a ≤ (i a).val ∧ (i a).val < win0_13.index t a * S1x6000x256.size a + S1x6000x256.size a := by
  show i ∈ ((View.whole main_v12_0).slice (win0_13.rect t)).set ↔ _
  rw [View.set_slice_whole, Rect.mem_set_unit]
  exact Iff.rfl
theorem mem_blk14 (t : Fin cfg0.N) (i : S2x120000x1.Idx) :
    i ∈ ((cfg0.win 14).blk t).view.set ↔ ∀ a : Fin 3, win0_14.index t a * S1x6000x1.size a ≤ (i a).val ∧ (i a).val < win0_14.index t a * S1x6000x1.size a + S1x6000x1.size a := by
  show i ∈ ((View.whole main_v12_1).slice (win0_14.rect t)).set ↔ _
  rw [View.set_slice_whole, Rect.mem_set_unit]
  exact Iff.rfl

theorem cover13 (i : S2x120000x256.Idx) : ∃ t : Fin cfg0.N, (cfg0.win 13).flush t = true ∧ i ∈ ((cfg0.win 13).blk t).view.set := by
  have hi0 : (i 0).val < 2 := (i 0).isLt
  have hi1 : (i 1).val < 120000 := (i 1).isLt
  have hi2 : (i 2).val < 256 := (i 2).isLt
  obtain ⟨t, ht, -⟩ := idx_onto0 ⟨(i 0).val, hi0⟩ ⟨(i 1).val / 6000, by omega⟩
  have q0 : win0_13.index t (0 : Fin 3) = (i 0).val := congrFun ht 0
  have q1 : win0_13.index t (1 : Fin 3) = (i 1).val / 6000 := congrFun ht 1
  have q2 : win0_13.index t (2 : Fin 3) = 0 := congrFun ht 2
  refine ⟨t, flush0_13 t, ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 6000 ≤ (i 1).val ∧ (i 1).val < win0_13.index t (1 : Fin 3) * 6000 + 6000; omega
  | ⟨2, _⟩ => show win0_13.index t (2 : Fin 3) * 256 ≤ (i 2).val ∧ (i 2).val < win0_13.index t (2 : Fin 3) * 256 + 256; omega

theorem cover14 (i : S2x120000x1.Idx) : ∃ t : Fin cfg0.N, (cfg0.win 14).flush t = true ∧ i ∈ ((cfg0.win 14).blk t).view.set := by
  have hi0 : (i 0).val < 2 := (i 0).isLt
  have hi1 : (i 1).val < 120000 := (i 1).isLt
  have hi2 : (i 2).val < 1 := (i 2).isLt
  obtain ⟨t, -, ht⟩ := idx_onto0 ⟨(i 0).val, hi0⟩ ⟨(i 1).val / 6000, by omega⟩
  have q0 : win0_14.index t (0 : Fin 3) = (i 0).val := congrFun ht 0
  have q1 : win0_14.index t (1 : Fin 3) = (i 1).val / 6000 := congrFun ht 1
  have q2 : win0_14.index t (2 : Fin 3) = 0 := congrFun ht 2
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 6000 ≤ (i 1).val ∧ (i 1).val < win0_14.index t (1 : Fin 3) * 6000 + 6000; omega
  | ⟨2, _⟩ => show win0_14.index t (2 : Fin 3) * 1 ≤ (i 2).val ∧ (i 2).val < win0_14.index t (2 : Fin 3) * 1 + 1; omega

/-- The two result arrays after the region. -/
theorem arr0_13 (hp : PayFacts) (c : Dev nD) : (dat0 V c).arrAt 13 cfg0.N = featArr V c :=
  (dat0 V c).arrAt_eq_of_cover 13 (featArr V c) (fun t _ => flushed13_eq V hp c t) cover13
theorem arr0_14 (hp : PayFacts) (c : Dev nD) : (dat0 V c).arrAt 14 cfg0.N = segArr V c :=
  (dat0 V c).arrAt_eq_of_cover 14 (segArr V c) (fun t _ => flushed14_eq V hp c t) cover14

end Cert.KernelIdeal.Hand

end
-- ==== Proof.KI.TailDef.lean ====
/-
  The kernel program's steps after the per-point network, as one function of the features and the segment ids:
  both are flattened to 240000 points, the features are summed and the points counted per segment
  (524290 = 2 × 262145 segments), the sums and counts are laid out per batch entry, each pillar row below 262144
  is divided by its count plus ε (the last row of each batch entry, the bin of the points outside the grid, is
  dropped), and the pillars are laid out as [2, 256, 512, 512].
-/
import proofs.«118269_j50740743635700_2_alg».proof.Proof.Gen.KernelIdeal
import Idealize.ShloMosaic.PureOps.Ideal
import Idealize.ShloMosaic.Lib.ValueIdx

noncomputable section

namespace Cert.KernelIdeal.Hand

open Cert.KernelIdeal Cert.KernelIdeal.Facts₀ Cert.KernelIdeal.Facts Idealize.ShloMosaic Idealize.ShloMosaic.ValueIdx

/-- A row number of the result array as a row number of the operand arrays (which have one more row). -/
def up (n : Fin 262144) : Fin 262145 := ⟨n.val, by omega⟩

/-- The normalised pillars: at (b, p, ch) the sum divided by the count plus ε. -/
def pillarOf (s : S2x262145x256.Idx → EReal) (cn : S2x262145x1.Idx → EReal) : S2x262144x256.Idx → EReal := fun i =>
  Ideal.div (s (ix3 (i 0 : Fin 2) (up (i 1)) (i 2 : Fin 256)))
    (cn (ix3 (i 0 : Fin 2) (up (i 1)) (0 : Fin 1)) + Ideal.ofBits .f32 0x358637BD#32)

/-- The flattened segment ids as a column of scatter indices. -/
def flatSegK (seg3 : (⟨S2x120000x1, .i32⟩ : BufTy).Contents (Elt Ideal)) : (⟨S240000x1, .i32⟩ : BufTy).Contents (Elt Ideal) :=
  broadcastInDim S240000x1 ![0] bcast_S240000_S240000x1_0 (shapeCast S240000 seg3 shapeCasts_S2x120000x1_S240000)

/-- The per-segment sums, per batch entry. -/
def sumsK (feat : (⟨S2x120000x256, .f32⟩ : BufTy).Contents (Elt Ideal)) (seg3 : (⟨S2x120000x1, .i32⟩ : BufTy).Contents (Elt Ideal)) :
    (⟨S2x262145x256, .f32⟩ : BufTy).Contents (Elt Ideal) :=
  shapeCast S2x262145x256
    (Host.scatterAdd (F := Ideal) scatter_S524290x256_S240000x1_S240000x256_1_0_0_1
      (broadcastInDim S524290x256 ![] bcast_S_S524290x256 (constant (F := Ideal) S_ .f32 0x00000000#32))
      (flatSegK seg3) (shapeCast S240000x256 feat shapeCasts_S2x120000x256_S240000x256))
    shapeCasts_S524290x256_S2x262145x256

/-- The per-segment counts, per batch entry. -/
def cntK (seg3 : (⟨S2x120000x1, .i32⟩ : BufTy).Contents (Elt Ideal)) : (⟨S2x262145x1, .f32⟩ : BufTy).Contents (Elt Ideal) :=
  shapeCast S2x262145x1
    (Host.scatterAdd (F := Ideal) scatter_S524290_S240000x1_S240000_n_0_0_1
      (broadcastInDim S524290 ![] bcast_S_S524290 (constant (F := Ideal) S_ .f32 0x00000000#32))
      (flatSegK seg3) (broadcastInDim S240000 ![] bcast_S_S240000 (constant (F := Ideal) S_ .f32 0x3F800000#32)))
    shapeCasts_S524290_S2x262145x1

/-- The last layout steps: [2, 262144, 256] as [2, 512, 512, 256], channels moved in front of the grid. -/
def layoutK (pil : (⟨S2x262144x256, .f32⟩ : BufTy).Contents (Elt Ideal)) : (⟨S2x256x512x512, .f32⟩ : BufTy).Contents (Elt Ideal) :=
  transpose S2x256x512x512 [0, 3, 1, 2] (shapeCast S2x512x512x256 pil shapeCasts_S2x262144x256_S2x512x512x256)
    transposes_S2x512x512x256_S2x256x512x512_0_3_1_2

/-- The result from the features and the segment ids. -/
def tailK (feat : (⟨S2x120000x256, .f32⟩ : BufTy).Contents (Elt Ideal)) (seg3 : (⟨S2x120000x1, .i32⟩ : BufTy).Contents (Elt Ideal)) :
    (⟨S2x256x512x512, .f32⟩ : BufTy).Contents (Elt Ideal) :=
  layoutK (pillarOf (sumsK feat seg3) (cntK seg3))

end Cert.KernelIdeal.Hand

end
-- ==== Proof.KI.Value1.lean ====
/-
  What region 1 leaves in its result array, index by index. Block t = (b, q) of the grid holds rows
  4096·q … 4096·q + 4095 of batch entry b of all three arrays; the body's one store divides each row of the
  sums block by that row's count plus ε. So the result array ends holding, at (b, p, ch),
  sums (b, p, ch) / (counts (b, p, 0) + ε) for every p below 262144: the operand arrays' last row (the
  bin of the points outside the grid) is never read.
-/
import proofs.«118269_j50740743635700_2_alg».proof.Proof.KI.R1
import proofs.«118269_j50740743635700_2_alg».proof.Proof.KI.TailDef
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (V : (c : Dev nD) → (b : Ref sig .tc) → Buf (Elt Ideal) ((c : Thread nD τ).loc b))

theorem hz3' : (![0, 0, 0] : Fin 3 → Nat) = fun _ => 0 := funext fun a => by fin_cases a <;> rfl

/-- The printed index maps, decided over the grid: the three blocks move together, block (b, q) at point t = (b, q). -/
theorem idx1 : ∀ t : Fin cfg1.N,
    win1_0.index t (0 : Fin 3) = win1_2.index t (0 : Fin 3) ∧ win1_0.index t (1 : Fin 3) = win1_2.index t (1 : Fin 3) ∧ win1_0.index t (2 : Fin 3) = 0
    ∧ win1_1.index t (0 : Fin 3) = win1_2.index t (0 : Fin 3) ∧ win1_1.index t (1 : Fin 3) = win1_2.index t (1 : Fin 3) ∧ win1_1.index t (2 : Fin 3) = 0
    ∧ win1_2.index t (2 : Fin 3) = 0 ∧ win1_2.index t (0 : Fin 3) ≤ 1 ∧ win1_2.index t (1 : Fin 3) ≤ 63 :=
  (by decide +kernel : ∀ t : Fin grid1.N, _)

theorem idx_onto1 : ∀ (q0 : Fin 2) (q1 : Fin 64), ∃ t : Fin cfg1.N, win1_2.index t = ![q0.val, q1.val, 0] :=
  (by decide +kernel : ∀ (q0 : Fin 2) (q1 : Fin 64), ∃ t : Fin grid1.N, win1_2.index t = ![q0.val, q1.val, 0])

/-- The normalised pillars over the two operand arrays as the region finds them. -/
def pillarArr (c : Dev nD) : S2x262144x256.Idx → EReal := pillarOf (V c main_v22) (V c main_v23)

/-- The body's payload read at (row, channel). -/
def NormFact : Prop :=
  ∀ (s : Vec Ideal S1x4096x256 .f32) (cn : Vec Ideal S1x4096x1 .f32) (r : Fin 4096) (ch : Fin 256),
    k1_pay1 s cn (ix3 0 r ch) = Ideal.div (s (ix3 0 r ch)) (cn (ix3 0 r 0) + Ideal.ofBits .f32 0x358637BD#32)

theorem out1_2_apply (hn : NormFact) (x0 : Vec Ideal S1x4096x256 .f32) (x1 : Vec Ideal S1x4096x1 .f32) (r : Fin 4096) (ch : Fin 256) :
    out1_2 x0 x1 (ix3 0 r ch) = Ideal.div (x0 (ix3 0 r ch)) (x1 (ix3 0 r 0) + Ideal.ofBits .f32 0x358637BD#32) := by
  unfold out1_2
  rw [View.canon_unit_zero hz3']
  simp only [View.ld_unit_zero (S := S1x4096x256) hz3', View.ld_unit_zero (S := S1x4096x1) hz3']
  exact hn x0 x1 r ch

/-- The sums block at point t, at (0, r, ch): the sums array at the block's position. -/
theorem full1_0_apply (c : Dev nD) (t : Fin cfg1.N) (r : Fin 4096) (ch : Fin 256) (i : S2x262145x256.Idx)
    (h0 : (i 0).val = win1_0.index t (0 : Fin 3)) (h1 : (i 1).val = win1_0.index t (1 : Fin 3) * 4096 + r.val) (h2 : (i 2).val = ch.val) :
    full1_0 V c t (ix3 0 r ch) = V c main_v22 i := by
  unfold full1_0 Window.fill
  rw [dif_pos (moved1_0 t _)]
  show V c main_v22 (((cfg1.win 0).blk t).view.emb _) = V c main_v22 i
  refine congrArg _ (funext fun a => Fin.ext ?_)
  match a with
  | ⟨0, _⟩ => show win1_0.index t (0 : Fin 3) * 1 + 1 * 0 = (i 0).val; rw [h0]; omega
  | ⟨1, _⟩ => show win1_0.index t (1 : Fin 3) * 4096 + 1 * r.val = (i 1).val; rw [h1]; omega
  | ⟨2, _⟩ => show win1_0.index t (2 : Fin 3) * 256 + 1 * ch.val = (i 2).val; rw [h2, (idx1 t).2.2.1]; omega

theorem full1_1_apply (c : Dev nD) (t : Fin cfg1.N) (r : Fin 4096) (i : S2x262145x1.Idx)
    (h0 : (i 0).val = win1_1.index t (0 : Fin 3)) (h1 : (i 1).val = win1_1.index t (1 : Fin 3) * 4096 + r.val) (h2 : (i 2).val = 0) :
    full1_1 V c t (ix3 0 r 0) = V c main_v23 i := by
  unfold full1_1 Window.fill
  rw [dif_pos (moved1_1 t _)]
  show V c main_v23 (((cfg1.win 1).blk t).view.emb _) = V c main_v23 i
  refine congrArg _ (funext fun a => Fin.ext ?_)
  match a with
  | ⟨0, _⟩ => show win1_1.index t (0 : Fin 3) * 1 + 1 * 0 = (i 0).val; rw [h0]; omega
  | ⟨1, _⟩ => show win1_1.index t (1 : Fin 3) * 4096 + 1 * r.val = (i 1).val; rw [h1]; omega
  | ⟨2, _⟩ => show win1_1.index t (2 : Fin 3) * 1 + 1 * 0 = (i 2).val; rw [h2, (idx1 t).2.2.2.2.2.1]

theorem flushed1_2_eq (hn : NormFact) (c : Dev nD) (t : Fin cfg1.N) :
    (dat1 V c).flushed 2 t = ((cfg1.win 2).blk t).view.read (Elt Ideal) (pillarArr V c) := by
  show (cfg1.win 2).cut (grid1.coords t) ((dat1 V c).after 2 t) = _
  rw [after1_2]
  funext j
  obtain ⟨r, ch, rfl⟩ : ∃ (r : Fin 4096) (ch : Fin 256), j = (ix3 (0 : Fin 1) r ch : S1x4096x256.Idx) :=
    ⟨⟨(j 1).val, (j 1).isLt⟩, ⟨(j 2).val, (j 2).isLt⟩, funext fun a => Fin.ext (by
      match a with
      | ⟨0, _⟩ => exact Nat.lt_one_iff.mp (j 0).isLt
      | ⟨1, _⟩ => rfl
      | ⟨2, _⟩ => rfl)⟩
  show out1_2 (full1_0 V c t) (full1_1 V c t) (ix3 0 r ch)
    = pillarArr V c (((cfg1.win 2).blk t).view.emb (ix3 (0 : Fin 1) r ch : S1x4096x256.Idx))
  rw [out1_2_apply hn]
  unfold pillarArr pillarOf
  obtain ⟨e0, e1, e2, e3, e4, e5, e6, e7, e8⟩ := idx1 t
  have hr : r.val < 4096 := r.isLt
  have hc : ch.val < 256 := ch.isLt
  rw [full1_0_apply V c t r ch
        (ix3 ((((cfg1.win 2).blk t).view.emb (ix3 (0 : Fin 1) r ch : S1x4096x256.Idx)) 0 : Fin 2)
          (up ((((cfg1.win 2).blk t).view.emb (ix3 (0 : Fin 1) r ch : S1x4096x256.Idx)) 1))
          ((((cfg1.win 2).blk t).view.emb (ix3 (0 : Fin 1) r ch : S1x4096x256.Idx)) 2 : Fin 256))
        (by show win1_2.index t (0 : Fin 3) * 1 + 1 * 0 = win1_0.index t (0 : Fin 3); rw [e0]; omega)
        (by show win1_2.index t (1 : Fin 3) * 4096 + 1 * r.val = win1_0.index t (1 : Fin 3) * 4096 + r.val; rw [e1]; omega)
        (by show win1_2.index t (2 : Fin 3) * 256 + 1 * ch.val = ch.val; rw [e6]; omega),
      full1_1_apply V c t r
        (ix3 ((((cfg1.win 2).blk t).view.emb (ix3 (0 : Fin 1) r ch : S1x4096x256.Idx)) 0 : Fin 2)
          (up ((((cfg1.win 2).blk t).view.emb (ix3 (0 : Fin 1) r ch : S1x4096x256.Idx)) 1))
          (0 : Fin 1))
        (by show win1_2.index t (0 : Fin 3) * 1 + 1 * 0 = win1_1.index t (0 : Fin 3); rw [e3]; omega)
        (by show win1_2.index t (1 : Fin 3) * 4096 + 1 * r.val = win1_1.index t (1 : Fin 3) * 4096 + r.val; rw [e4]; omega)
        (by rfl)]

theorem mem_blk1_2 (t : Fin cfg1.N) (i : S2x262144x256.Idx) :
    i ∈ ((cfg1.win 2).blk t).view.set ↔ ∀ a : Fin 3, win1_2.index t a * S1x4096x256.size a ≤ (i a).val ∧ (i a).val < win1_2.index t a * S1x4096x256.size a + S1x4096x256.size a := by
  show i ∈ ((View.whole main_v24).slice (win1_2.rect t)).set ↔ _
  rw [View.set_slice_whole, Rect.mem_set_unit]
  exact Iff.rfl

theorem cover1_2' (i : S2x262144x256.Idx) : ∃ t : Fin cfg1.N, (cfg1.win 2).flush t = true ∧ i ∈ ((cfg1.win 2).blk t).view.set := by
  have hi0 : (i 0).val < 2 := (i 0).isLt
  have hi1 : (i 1).val < 262144 := (i 1).isLt
  have hi2 : (i 2).val < 256 := (i 2).isLt
  obtain ⟨t, ht⟩ := idx_onto1 ⟨(i 0).val, hi0⟩ ⟨(i 1).val / 4096, by omega⟩
  have q0 : win1_2.index t (0 : Fin 3) = (i 0).val := congrFun ht 0
  have q1 : win1_2.index t (1 : Fin 3) = (i 1).val / 4096 := congrFun ht 1
  have q2 : win1_2.index t (2 : Fin 3) = 0 := congrFun ht 2
  refine ⟨t, flush1_2 t, ?_⟩
  rw [mem_blk1_2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 256 ≤ (i 2).val ∧ (i 2).val < win1_2.index t (2 : Fin 3) * 256 + 256; omega

/-- The result array after the region. -/
theorem arr1_2 (hn : NormFact) (c : Dev nD) : (dat1 V c).arrAt 2 cfg1.N = pillarArr V c :=
  (dat1 V c).arrAt_eq_of_cover 2 (pillarArr V c) (fun t _ => flushed1_2_eq V hn c t) cover1_2'

end Cert.KernelIdeal.Hand

end
-- ==== Proof.KVLayout.lean ====
/- Layout and elementwise operations read at an index, in the forms the point kernel's body uses and the
   library does not state: a column broadcast over the lanes, a row of seven pieces joined along the lanes, and a
   few elementwise operations at the extended reals. -/
import Idealize.ShloMosaic.Lib.ValueLayout
import Idealize.ShloMosaic.Lib.Pipeline.Value

noncomputable section

namespace Cert.KernelIdeal.KVLayout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Off the joined axis a piece is read at the index's own row. -/
private theorem row_ok {n m : ℕ} (r : Fin n) (k : Fin 10) (j : Fin m) (b : Fin 2) (hb : b ≠ 1) :
    ((ix2 r j : (⟨2, ![n, m]⟩ : Shape).Idx) b).val = ((ix2 r k : (⟨2, ![n, 10]⟩ : Shape).Idx) b).val := by
  match b with
  | ⟨0, _⟩ => rfl
  | ⟨1, _⟩ => exact absurd rfl hb

/-- Seven pieces, the first four columns wide and the others one. -/
abbrev pieces7 {n : ℕ} (x0 : (⟨2, ![n, 4]⟩ : Shape).Idx → α) (x1 x2 x3 x4 x5 x6 : (⟨2, ![n, 1]⟩ : Shape).Idx → α) :
    List ((s : Shape) × (s.Idx → α)) :=
  [⟨⟨2, ![n, 4]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩]

/-- Seven pieces of widths `4, 1, 1, 1, 1, 1, 1` joined along the lanes, read at `(r, k)`: the first piece's four
    columns, then each single column in turn. -/
theorem concat7_apply {n : ℕ} (x0 : (⟨2, ![n, 4]⟩ : Shape).Idx → α) (x1 x2 x3 x4 x5 x6 : (⟨2, ![n, 1]⟩ : Shape).Idx → α)
    (h : Shape.Concatenates [⟨2, ![n, 4]⟩, ⟨2, ![n, 1]⟩, ⟨2, ![n, 1]⟩, ⟨2, ![n, 1]⟩, ⟨2, ![n, 1]⟩, ⟨2, ![n, 1]⟩, ⟨2, ![n, 1]⟩]
      ⟨2, ![n, 10]⟩ 1)
    (r : Fin n) (k : Fin 10) :
    concatenate ⟨2, ![n, 10]⟩ 1 [⟨⟨2, ![n, 4]⟩, x0⟩, ⟨⟨2, ![n, 1]⟩, x1⟩, ⟨⟨2, ![n, 1]⟩, x2⟩, ⟨⟨2, ![n, 1]⟩, x3⟩, ⟨⟨2, ![n, 1]⟩, x4⟩,
      ⟨⟨2, ![n, 1]⟩, x5⟩, ⟨⟨2, ![n, 1]⟩, x6⟩] h (ix2 r k)
      = (![x0 (ix2 r 0), x0 (ix2 r 1), x0 (ix2 r 2), x0 (ix2 r 3), x1 (ix2 r 0), x2 (ix2 r 0), x3 (ix2 r 0), x4 (ix2 r 0),
          x5 (ix2 r 0), x6 (ix2 r 0)] : Fin 10 → α) k := by
  fin_cases k
  · exact concatenate_apply_piece (t := ⟨2, ![n, 10]⟩) 1 (pieces7 x0 x1 x2 x3 x4 x5 x6) h _ 0 (by show (_ : ℕ) < 7; omega) _ x0 rfl rfl 0 rfl (ix2 r 0) (fun b hb => row_ok r _ _ b hb) rfl
  · exact concatenate_apply_piece (t := ⟨2, ![n, 10]⟩) 1 (pieces7 x0 x1 x2 x3 x4 x5 x6) h _ 0 (by show (_ : ℕ) < 7; omega) _ x0 rfl rfl 0 rfl (ix2 r 1) (fun b hb => row_ok r _ _ b hb) rfl
  · exact concatenate_apply_piece (t := ⟨2, ![n, 10]⟩) 1 (pieces7 x0 x1 x2 x3 x4 x5 x6) h _ 0 (by show (_ : ℕ) < 7; omega) _ x0 rfl rfl 0 rfl (ix2 r 2) (fun b hb => row_ok r _ _ b hb) rfl
  · exact concatenate_apply_piece (t := ⟨2, ![n, 10]⟩) 1 (pieces7 x0 x1 x2 x3 x4 x5 x6) h _ 0 (by show (_ : ℕ) < 7; omega) _ x0 rfl rfl 0 rfl (ix2 r 3) (fun b hb => row_ok r _ _ b hb) rfl
  · exact concatenate_apply_piece (t := ⟨2, ![n, 10]⟩) 1 (pieces7 x0 x1 x2 x3 x4 x5 x6) h _ 1 (by show (_ : ℕ) < 7; omega) _ x1 rfl rfl 4 rfl (ix2 r 0) (fun b hb => row_ok r _ _ b hb) rfl
  · exact concatenate_apply_piece (t := ⟨2, ![n, 10]⟩) 1 (pieces7 x0 x1 x2 x3 x4 x5 x6) h _ 2 (by show (_ : ℕ) < 7; omega) _ x2 rfl rfl 5 rfl (ix2 r 0) (fun b hb => row_ok r _ _ b hb) rfl
  · exact concatenate_apply_piece (t := ⟨2, ![n, 10]⟩) 1 (pieces7 x0 x1 x2 x3 x4 x5 x6) h _ 3 (by show (_ : ℕ) < 7; omega) _ x3 rfl rfl 6 rfl (ix2 r 0) (fun b hb => row_ok r _ _ b hb) rfl
  · exact concatenate_apply_piece (t := ⟨2, ![n, 10]⟩) 1 (pieces7 x0 x1 x2 x3 x4 x5 x6) h _ 4 (by show (_ : ℕ) < 7; omega) _ x4 rfl rfl 7 rfl (ix2 r 0) (fun b hb => row_ok r _ _ b hb) rfl
  · exact concatenate_apply_piece (t := ⟨2, ![n, 10]⟩) 1 (pieces7 x0 x1 x2 x3 x4 x5 x6) h _ 5 (by show (_ : ℕ) < 7; omega) _ x5 rfl rfl 8 rfl (ix2 r 0) (fun b hb => row_ok r _ _ b hb) rfl
  · exact concatenate_apply_piece (t := ⟨2, ![n, 10]⟩) 1 (pieces7 x0 x1 x2 x3 x4 x5 x6) h _ 6 (by show (_ : ℕ) < 7; omega) _ x6 rfl rfl 9 rfl (ix2 r 0) (fun b hb => row_ok r _ _ b hb) rfl

/-! ## Elementwise operations at an index (definitional) -/

section
variable {s : Shape} {φ : FTy} {w : ℕ}

/-- A reciprocal square root at an index is the element's. -/
theorem rsqrt_apply (a : FVec Ideal s φ) (i : s.Idx) : rsqrt a i = Ideal.rsqrt (a i) := rfl
/-- A float-to-signed-integer conversion at an index converts the element. -/
theorem fptosi_apply (a : FVec Ideal s φ) (i : s.Idx) : fptosi w a i = Ideal.fptosi w (a i) := rfl
/-- A signed-integer-to-float conversion at an index is the integer's value. -/
theorem sitofp_apply' (a : IVec s w) (i : s.Idx) : (sitofp φ a : FVec Ideal s φ) i = (((a i).toInt : ℝ) : EReal) := rfl
/-- An integer sum at an index. -/
theorem addi_apply (a b : IVec s w) (i : s.Idx) : addi a b i = a i + b i := rfl
/-- An integer product at an index. -/
theorem muli_apply (a b : IVec s w) (i : s.Idx) : muli a b i = a i * b i := rfl
/-- A bitwise and at an index. -/
theorem andi_apply (a b : IVec s w) (i : s.Idx) : andi a b i = a i &&& b i := rfl
/-- An integer comparison at an index compares the elements. -/
theorem cmpi_apply (p : CmpIPredicate) (a b : IVec s w) (i : s.Idx) : cmpi p a b i = IntOp.cmpi p (a i) (b i) := rfl

end

end Cert.KernelIdeal.KVLayout

end
-- ==== Proof.KVPoint.lean ====
/- The point kernel's per-point values: a point's two coordinates read from the block, their grid cells, the
   in-grid bit, the cell centres, the offsets from the centres, the pillar's segment number; and the normalisation
   kernel's quotient. Each generated payload is read at one row of its block. -/
import proofs.«118269_j50740743635700_2_alg».proof.Proof.Gen.KernelIdeal.Skeleton
import proofs.«118269_j50740743635700_2_alg».proof.Proof.Spec
import proofs.«118269_j50740743635700_2_alg».proof.Proof.KVLayout

noncomputable section

namespace Cert.KernelIdeal.KValue

open Idealize.ShloMosaic Idealize.ShloMosaic.ValueIdx Cert.KernelIdeal Cert.KernelIdeal.Gen Cert.KernelIdeal.KVLayout

/-- The block without its unit axis, at `(r, j)`, is the block at `(0, r, j)`. -/
theorem pay2_apply (v0 : Vec Ideal S1x6000x4 .f32) (r : Fin 6000) (j : Fin 4) :
    k0_pay2 v0 (ix2 r j) = v0 (ix3 0 r j) := by
  unfold k0_pay2
  exact shapeCast_1ab_ab_apply v0 _ r j

/-- The first column of the block: the points' `x`. -/
theorem pay3_apply (v0 : Vec Ideal S1x6000x4 .f32) (r : Fin 6000) :
    k0_pay3 v0 (ix2 r 0) = v0 (ix3 0 r 0) := by
  unfold k0_pay3
  refine (slice2_axis1_apply 0 (k0_pay2 v0) _ r (0 : Fin 1) (0 : Fin 4) rfl).trans ?_
  exact pay2_apply v0 r 0

/-- The second column of the block: the points' `y`. -/
theorem pay4_apply (v0 : Vec Ideal S1x6000x4 .f32) (r : Fin 6000) :
    k0_pay4 v0 (ix2 r 0) = v0 (ix3 0 r 1) := by
  unfold k0_pay4
  refine (slice2_axis1_apply 1 (k0_pay2 v0) _ r (0 : Fin 1) (1 : Fin 4) rfl).trans ?_
  exact pay2_apply v0 r 1

/-- The cell of `x`. -/
theorem pay5_apply (v0 : Vec Ideal S1x6000x4 .f32) (r : Fin 6000) :
    k0_pay5 v0 (ix2 r 0) = Spec.cell (v0 (ix3 0 r 0)) := by
  unfold k0_pay5
  show Ideal.fptosi 32 (Ideal.div (k0_pay3 v0 (ix2 r 0) - Spec.cOrigin) Spec.cCell) = _
  rw [pay3_apply]; rfl

/-- The cell of `y`. -/
theorem pay6_apply (v0 : Vec Ideal S1x6000x4 .f32) (r : Fin 6000) :
    k0_pay6 v0 (ix2 r 0) = Spec.cell (v0 (ix3 0 r 1)) := by
  unfold k0_pay6
  show Ideal.fptosi 32 (Ideal.div (k0_pay4 v0 (ix2 r 0) - Spec.cOrigin) Spec.cCell) = _
  rw [pay4_apply]; rfl

/-- The in-grid bit of the point. -/
theorem pay7_apply (v0 : Vec Ideal S1x6000x4 .f32) (r : Fin 6000) :
    k0_pay7 v0 (ix2 r 0) = Spec.inGrid (Spec.cell (v0 (ix3 0 r 0))) (Spec.cell (v0 (ix3 0 r 1))) := by
  unfold k0_pay7
  show ((IntOp.cmpi .sge (k0_pay5 v0 (ix2 r 0)) 0#32 &&& IntOp.cmpi .slt (k0_pay5 v0 (ix2 r 0)) 512#32)
    &&& IntOp.cmpi .sge (k0_pay6 v0 (ix2 r 0)) 0#32) &&& IntOp.cmpi .slt (k0_pay6 v0 (ix2 r 0)) 512#32 = _
  rw [pay5_apply, pay6_apply]; rfl

/-- The centre of the point's cell along `x`. -/
theorem pay8_apply (v0 : Vec Ideal S1x6000x4 .f32) (r : Fin 6000) :
    k0_pay8 v0 (ix2 r 0) = Spec.centre (Spec.cell (v0 (ix3 0 r 0))) := by
  unfold k0_pay8
  show (((k0_pay5 v0 (ix2 r 0)).toInt : ℝ) : EReal) * Spec.cCell + Spec.cOrigin + Spec.cHalf = _
  rw [pay5_apply]; rfl

/-- The centre of the point's cell along `y`. -/
theorem pay9_apply (v0 : Vec Ideal S1x6000x4 .f32) (r : Fin 6000) :
    k0_pay9 v0 (ix2 r 0) = Spec.centre (Spec.cell (v0 (ix3 0 r 1))) := by
  unfold k0_pay9
  show (((k0_pay6 v0 (ix2 r 0)).toInt : ℝ) : EReal) * Spec.cCell + Spec.cOrigin + Spec.cHalf = _
  rw [pay6_apply]; rfl

/-- The point's offset from its cell's centre along `x`. -/
theorem pay10_apply (v0 : Vec Ideal S1x6000x4 .f32) (r : Fin 6000) :
    k0_pay10 v0 (ix2 r 0) = v0 (ix3 0 r 0) - Spec.centre (Spec.cell (v0 (ix3 0 r 0))) := by
  unfold k0_pay10
  show k0_pay3 v0 (ix2 r 0) - k0_pay8 v0 (ix2 r 0) = _
  rw [pay3_apply, pay8_apply]

/-- The point's offset from its cell's centre along `y`. -/
theorem pay11_apply (v0 : Vec Ideal S1x6000x4 .f32) (r : Fin 6000) :
    k0_pay11 v0 (ix2 r 0) = v0 (ix3 0 r 1) - Spec.centre (Spec.cell (v0 (ix3 0 r 1))) := by
  unfold k0_pay11
  show k0_pay4 v0 (ix2 r 0) - k0_pay9 v0 (ix2 r 0) = _
  rw [pay4_apply, pay9_apply]

/-- THE SEGMENT NUMBER the point kernel stores for row `r` of its block, `i0` the batch coordinate's word. -/
theorem pay_seg (i0 : BitVec 32) (v0 : Vec Ideal S1x6000x4 .f32) (r : Fin 6000) :
    k0_pay1 (k0_pay14 i0 (k0_pay5 v0) (k0_pay6 v0) (k0_pay7 v0)) (ix3 0 r 0)
      = Spec.segRow i0 (fun k => v0 (ix3 0 r k)) := by
  unfold k0_pay1
  refine (shapeCast_ab_1ab_apply _ _ 0 r 0).trans ?_
  unfold k0_pay14
  show Scalar.select (k0_pay7 v0 (ix2 r 0)) (k0_pay6 v0 (ix2 r 0) * 512#32 + k0_pay5 v0 (ix2 r 0)) 262144#32
    + i0 * 262145#32 = _
  rw [pay5_apply, pay6_apply, pay7_apply]; rfl

/-- THE QUOTIENT the normalisation kernel stores at row `r`, channel `c` of its block: the sum over the count plus
    the f32 nearest 1e-6. -/
theorem pay_norm (s : Vec Ideal S1x4096x256 .f32) (cn : Vec Ideal S1x4096x1 .f32) (r : Fin 4096) (c : Fin 256) :
    k1_pay1 s cn (ix3 0 r c)
      = Ideal.div (s (ix3 0 r c)) (cn (ix3 0 r 0) + Ideal.ofBits .f32 0x358637BD#32) := by
  unfold k1_pay1
  refine (shapeCast_ab_1ab_apply _ _ 0 r c).trans ?_
  refine (divf_apply _ _ _).trans ?_
  rw [shapeCast_1ab_ab_apply, broadcastTo_a1_ab_apply]
  refine congrArg (Ideal.div _) ?_
  refine (addf_apply _ _ _).trans ?_
  rw [shapeCast_1ab_ab_apply]; rfl

end Cert.KernelIdeal.KValue

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.KVHid.lean ====
/- The point kernel's two matrix products read at an entry: the hidden layer's units and the output layer's
   pre-activations, as sums over the augmented features and over the hidden units. -/
import proofs.«118269_j50740743635700_2_alg».proof.Proof.Gen.KernelIdeal.Skeleton
import proofs.«118269_j50740743635700_2_alg».proof.Proof.Spec
import proofs.«118269_j50740743635700_2_alg».proof.Proof.KVLayout
import proofs.«118269_j50740743635700_2_alg».proof.Proof.LibPlainDot

noncomputable section

open scoped BigOperators

namespace Cert.KernelIdeal.KValue

open Idealize.ShloMosaic Idealize.ShloMosaic.ValueIdx Cert.KernelIdeal Cert.KernelIdeal.Gen Cert.KernelIdeal.KVLayout

/-- The ten augmented features of row `r`, from the block's pieces. -/
def augOf (v1 : FVec Ideal S6000x4 .f32) (v31 v38 v39 v40 : FVec Ideal S6000x1 .f32) (r : Fin 6000) : Fin 10 → EReal :=
  ![v1 (ix2 r 0), v1 (ix2 r 1), v1 (ix2 r 2), v1 (ix2 r 3), v39 (ix2 r 0), v40 (ix2 r 0), Spec.cZero,
    v31 (ix2 r 0), v38 (ix2 r 0), Spec.cZero]

/-- THE OUTPUT LAYER'S PRODUCT at `(r, c)`: the sum over the hidden units of the unit's value — the rectified
    batch normalisation of the augmented row's product with the first weights plus the bias — times the second
    weights' entry. -/
theorem pay12_apply (v1 : FVec Ideal S6000x4 .f32) (v31 v38 v39 v40 : FVec Ideal S6000x1 .f32) (v44 : Vec Ideal S10x64 .f32)
    (v48 v52 v56 v63 v67 : Vec Ideal S1x64 .f32) (v74 : Vec Ideal S64x256 .f32) (r : Fin 6000) (c : Fin 256) :
    k0_pay12 v1 v31 v38 v39 v40 v44 v48 v52 v56 v63 v67 v74 (ix2 r c)
      = ∑ h : Fin 64, max (Spec.bn ((∑ k : Fin 10, augOf v1 v31 v38 v39 v40 r k * v44 (ix2 k h)) + v48 (ix2 0 h))
          (v52 (ix2 0 h)) (v56 (ix2 0 h)) (v63 (ix2 0 h)) (v67 (ix2 0 h))) Spec.cZero * v74 (ix2 h c) := by
  unfold k0_pay12
  refine (LibPlainDot.matmul_zero_apply _ ⟨rfl, rfl, rfl, rfl, rfl, rfl⟩ none _ _ r c).trans ?_
  refine Finset.sum_congr rfl fun h _ => ?_
  refine congrArg₂ (· * ·) ?_ ?_
  · simp only [matmul, truncf_apply, maximumf_apply, addf_apply, mulf_apply, subf_apply, rsqrt_apply, broadcast_apply,
      broadcastTo_1b_ab_apply, shapeCast_self,
      LibPlainDot.matmul_zero_apply dot_S6000x10_S10x64_S6000x64_1_0_0_1_n_n ⟨rfl, rfl, rfl, rfl, rfl, rfl⟩,
      concat7_apply]
    rfl
  · show shapeCast S64x256 v74 shapeCasts_S64x256_S64x256 (ix2 h c) = v74 (ix2 h c)
    exact congrFun (shapeCast_self v74 _) _

end Cert.KernelIdeal.KValue

end
-- ==== Proof.KValue.lean ====
/- The values the two kernels' bodies store, read at one entry of a block: the point kernel's feature row is
   the specification's feature row of the block's point and the loaded (transposed) weights, its segment number is
   the specification's, and the normalisation kernel stores the quotient. -/
import proofs.«118269_j50740743635700_2_alg».proof.Proof.Gen.KernelIdeal.Skeleton
import proofs.«118269_j50740743635700_2_alg».proof.Proof.Spec
import proofs.«118269_j50740743635700_2_alg».proof.Proof.KVLayout
import proofs.«118269_j50740743635700_2_alg».proof.Proof.KVPoint
import proofs.«118269_j50740743635700_2_alg».proof.Proof.KVHid

noncomputable section

open scoped BigOperators

namespace Cert.KernelIdeal.KValue

open Idealize.ShloMosaic Idealize.ShloMosaic.ValueIdx Cert.KernelIdeal Cert.KernelIdeal.Gen Cert.KernelIdeal.KVLayout

/-- The output layer after its product, at `(0, r, c)`: bias, batch normalisation, rectification and the clip. -/
theorem pay15_apply (v77 : FVec Ideal S6000x256 .f32) (v79 : FVec Ideal S1x256 .f32) (v82 v86 v93 v97 : Vec Ideal S1x256 .f32)
    (r : Fin 6000) (c : Fin 256) :
    k0_pay15 v77 v79 v82 v86 v93 v97 (ix3 0 r c)
      = min Spec.cHi (max Spec.cLo (max (Spec.bn (v77 (ix2 r c) + v79 (ix2 0 c)) (v82 (ix2 0 c)) (v86 (ix2 0 c))
          (v93 (ix2 0 c)) (v97 (ix2 0 c))) Spec.cZero)) := by
  unfold k0_pay15
  refine (shapeCast_ab_1ab_apply _ _ 0 r c).trans ?_
  simp only [minimumf_apply, maximumf_apply, addf_apply, mulf_apply, subf_apply, rsqrt_apply, broadcast_apply,
    broadcastTo_1b_ab_apply, shapeCast_self]
  rfl

/-- The augmented row the kernel builds from its block is the specification's, of the block's point. -/
theorem augOf_eq (v0 : Vec Ideal S1x6000x4 .f32) (r : Fin 6000) :
    augOf (k0_pay2 v0) (k0_pay8 v0) (k0_pay9 v0) (k0_pay10 v0) (k0_pay11 v0) r = Spec.augRow (fun k => v0 (ix3 0 r k)) := by
  unfold augOf Spec.augRow
  rw [pay2_apply, pay2_apply, pay2_apply, pay2_apply, pay8_apply, pay9_apply, pay10_apply, pay11_apply]

/-- THE FEATURE the point kernel stores at row `r`, channel `ch` of its block. -/
theorem pay_feat (v0 : Vec Ideal S1x6000x4 .f32) (v44 : Vec Ideal S10x64 .f32) (v48 v52 v56 v63 v67 : Vec Ideal S1x64 .f32)
    (v74 : Vec Ideal S64x256 .f32) (v78 v82 v86 v93 v97 : Vec Ideal S1x256 .f32) (r : Fin 6000) (ch : Fin 256) :
    k0_pay15 (k0_pay12 (k0_pay2 v0) (k0_pay8 v0) (k0_pay9 v0) (k0_pay10 v0) (k0_pay11 v0) v44 v48 v52 v56 v63 v67 v74)
        (k0_pay13 v78) v82 v86 v93 v97 (ix3 0 r ch)
      = Cert.Spec.featRow (fun k => v0 (ix3 0 r k)) (fun k h => v44 (ix2 k h)) (fun h => v48 (ix2 0 h))
          (fun h => v63 (ix2 0 h)) (fun h => v67 (ix2 0 h)) (fun h => v52 (ix2 0 h)) (fun h => v56 (ix2 0 h))
          (fun h c => v74 (ix2 h c)) (fun c => v78 (ix2 0 c)) (fun c => v93 (ix2 0 c)) (fun c => v97 (ix2 0 c))
          (fun c => v82 (ix2 0 c)) (fun c => v86 (ix2 0 c)) ch := by
  rw [pay15_apply, pay12_apply, augOf_eq]
  have h13 : k0_pay13 v78 (ix2 0 ch) = v78 (ix2 0 ch) := by
    unfold k0_pay13
    exact congrFun (shapeCast_self v78 _) _
  rw [h13]
  rfl

end Cert.KernelIdeal.KValue

end
-- ==== Proof.KI.Result.lean ====
/-
  The kernel program's result as a function of its arguments, at the extended reals: the run's last contents at
  the result array are read back through the five segments — the last layout steps of the second region's
  array, which is the normalised pillars of the sums and counts the second host stretch computes from the first
  region's two arrays, which are the per-point closed forms of the arrays the first host stretch prepares
  (the weights transposed, the parameter vectors as rows).
-/
import proofs.«118269_j50740743635700_2_alg».proof.Proof.KI.Run
import proofs.«118269_j50740743635700_2_alg».proof.Proof.KI.Value0
import proofs.«118269_j50740743635700_2_alg».proof.Proof.KI.Value1
import proofs.«118269_j50740743635700_2_alg».proof.Proof.KValue
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

open Idealize.ShloMosaic.StableHlo

variable (m : (ℓ : Loc nD τ sig) → Buf (Elt Ideal) ℓ) (ρ : Dev nD → PrngReg)

theorem payFacts : PayFacts := ⟨Cert.KernelIdeal.KValue.pay_feat, Cert.KernelIdeal.KValue.pay_seg⟩
theorem normFact : NormFact := Cert.KernelIdeal.KValue.pay_norm

/-! ## Region 0's arrays, the second host stretch, region 1's array, the last host stretch -/

theorem W2_feat (c : Dev nD) : W2 m ρ c (Proc.devRef .tc main_v12_0) = featArr (U1 m ρ) c :=
  (W2_arr m ρ c 13).trans (arr0_13 (U1 m ρ) payFacts c)
theorem W2_seg (c : Dev nD) : W2 m ρ c (Proc.devRef .tc main_v12_1) = segArr (U1 m ρ) c :=
  (W2_arr m ρ c 14).trans (arr0_14 (U1 m ρ) payFacts c)

theorem W3_sums (c : Dev nD) : W3 m ρ c (Proc.devRef .tc main_v22) = sumsK (W2 m ρ c (Proc.devRef .tc main_v12_0)) (W2 m ρ c (Proc.devRef .tc main_v12_1)) := by
  show StableHlo.after hostOps1 (W2 m ρ c) (Proc.devRef .tc main_v22) = _
  after_results
  rfl
theorem W3_cnt (c : Dev nD) : W3 m ρ c (Proc.devRef .tc main_v23) = cntK (W2 m ρ c (Proc.devRef .tc main_v12_1)) := by
  show StableHlo.after hostOps1 (W2 m ρ c) (Proc.devRef .tc main_v23) = _
  after_results
  rfl

theorem W4_pil (c : Dev nD) : W4 m ρ c (Proc.devRef .tc main_v24) = pillarOf (W3 m ρ c (Proc.devRef .tc main_v22)) (W3 m ρ c (Proc.devRef .tc main_v23)) :=
  (W4_arr m ρ c 2).trans (arr1_2 (U3 m ρ) normFact c)

theorem W5_out (c : Dev nD) : W5 m ρ c (Proc.devRef .tc main_v26) = layoutK (W4 m ρ c (Proc.devRef .tc main_v24)) := by
  show StableHlo.after hostOps2 (W4 m ρ c) (Proc.devRef .tc main_v26) = _
  after_results
  rfl

/-- The result array after the run. -/
theorem kernel_value (c : Dev nD) : W5 m ρ c (Proc.devRef .tc main_v26) = tailK (featArr (U1 m ρ) c) (segArr (U1 m ρ) c) := by
  rw [W5_out, W4_pil, W3_sums, W3_cnt, W2_feat, W2_seg]
  rfl

/-! ## What the first host stretch prepares -/

theorem U1_arg0 (c : Dev nD) : U1 m ρ c main_arg0 = m ((c : Thread nD τ).loc main_arg0) :=
  StableHlo.after_of_writes_sub hostOps0 _ hostOps0_writes (by decide)
theorem U1_v0 (c : Dev nD) : U1 m ρ c main_v0 = transpose S10x64 [1, 0] (m ((c : Thread nD τ).loc main_arg1)) Facts₀.transposes_S64x10_S10x64_1_0 := by
  show StableHlo.after hostOps0 (W0 m ρ c) (Proc.devRef .tc main_v0) = _
  after_results
theorem U1_v1 (c : Dev nD) : U1 m ρ c main_v1 = transpose S64x256 [1, 0] (m ((c : Thread nD τ).loc main_arg7)) Facts₀.transposes_S256x64_S64x256_1_0 := by
  show StableHlo.after hostOps0 (W0 m ρ c) (Proc.devRef .tc main_v1) = _
  after_results
theorem U1_v2 (c : Dev nD) : U1 m ρ c main_v2 = shapeCast S1x64 (m ((c : Thread nD τ).loc main_arg2)) Facts₀.shapeCasts_S64_S1x64 := by
  show StableHlo.after hostOps0 (W0 m ρ c) (Proc.devRef .tc main_v2) = _
  after_results
  rfl
theorem U1_v3 (c : Dev nD) : U1 m ρ c main_v3 = shapeCast S1x64 (m ((c : Thread nD τ).loc main_arg3)) Facts₀.shapeCasts_S64_S1x64 := by
  show StableHlo.after hostOps0 (W0 m ρ c) (Proc.devRef .tc main_v3) = _
  after_results
  rfl
theorem U1_v4 (c : Dev nD) : U1 m ρ c main_v4 = shapeCast S1x64 (m ((c : Thread nD τ).loc main_arg4)) Facts₀.shapeCasts_S64_S1x64 := by
  show StableHlo.after hostOps0 (W0 m ρ c) (Proc.devRef .tc main_v4) = _
  after_results
  rfl
theorem U1_v5 (c : Dev nD) : U1 m ρ c main_v5 = shapeCast S1x64 (m ((c : Thread nD τ).loc main_arg5)) Facts₀.shapeCasts_S64_S1x64 := by
  show StableHlo.after hostOps0 (W0 m ρ c) (Proc.devRef .tc main_v5) = _
  after_results
  rfl
theorem U1_v6 (c : Dev nD) : U1 m ρ c main_v6 = shapeCast S1x64 (m ((c : Thread nD τ).loc main_arg6)) Facts₀.shapeCasts_S64_S1x64 := by
  show StableHlo.after hostOps0 (W0 m ρ c) (Proc.devRef .tc main_v6) = _
  after_results
  rfl
theorem U1_v7 (c : Dev nD) : U1 m ρ c main_v7 = shapeCast S1x256 (m ((c : Thread nD τ).loc main_arg8)) Facts₀.shapeCasts_S256_S1x256 := by
  show StableHlo.after hostOps0 (W0 m ρ c) (Proc.devRef .tc main_v7) = _
  after_results
  rfl
theorem U1_v8 (c : Dev nD) : U1 m ρ c main_v8 = shapeCast S1x256 (m ((c : Thread nD τ).loc main_arg9)) Facts₀.shapeCasts_S256_S1x256 := by
  show StableHlo.after hostOps0 (W0 m ρ c) (Proc.devRef .tc main_v8) = _
  after_results
  rfl
theorem U1_v9 (c : Dev nD) : U1 m ρ c main_v9 = shapeCast S1x256 (m ((c : Thread nD τ).loc main_arg10)) Facts₀.shapeCasts_S256_S1x256 := by
  show StableHlo.after hostOps0 (W0 m ρ c) (Proc.devRef .tc main_v9) = _
  after_results
  rfl
theorem U1_v10 (c : Dev nD) : U1 m ρ c main_v10 = shapeCast S1x256 (m ((c : Thread nD τ).loc main_arg11)) Facts₀.shapeCasts_S256_S1x256 := by
  show StableHlo.after hostOps0 (W0 m ρ c) (Proc.devRef .tc main_v10) = _
  after_results
  rfl
theorem U1_v11 (c : Dev nD) : U1 m ρ c main_v11 = shapeCast S1x256 (m ((c : Thread nD τ).loc main_arg12)) Facts₀.shapeCasts_S256_S1x256 := by
  show StableHlo.after hostOps0 (W0 m ρ c) (Proc.devRef .tc main_v11) = _
  after_results
  rfl

/-- The features array is the specification's, of the arguments. -/
theorem featArr_spec (c : Dev nD) (b : Fin 2) (n : Fin 120000) (ch : Fin 256) :
    featArr (U1 m ρ) c (ix3 b n ch)
      = Cert.Spec.feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b n ch := by
  unfold featArr Cert.Spec.feat
  rw [U1_arg0, U1_v0, U1_v1, U1_v2, U1_v3, U1_v4, U1_v5, U1_v6, U1_v7, U1_v8, U1_v9, U1_v10, U1_v11]
  have hW1 : ∀ (k : Fin 10) (h : Fin 64), transpose S10x64 [1, 0] (m ((c : Thread nD τ).loc main_arg1)) Facts₀.transposes_S64x10_S10x64_1_0 (ix2 k h)
      = (m ((c : Thread nD τ).loc main_arg1) : S64x10.Idx → EReal) (ix2 h k) := fun k h => transpose_ix2_apply _ _ k h
  have hW2 : ∀ (h : Fin 64) (q : Fin 256), transpose S64x256 [1, 0] (m ((c : Thread nD τ).loc main_arg7)) Facts₀.transposes_S256x64_S64x256_1_0 (ix2 h q)
      = (m ((c : Thread nD τ).loc main_arg7) : S256x64.Idx → EReal) (ix2 q h) := fun h q => transpose_ix2_apply _ _ h q
  have hb1 : ∀ (x : S64.Idx → EReal) (h : Fin 64), shapeCast S1x64 x Facts₀.shapeCasts_S64_S1x64 (ix2 0 h) = x (ix1 h) :=
    fun x h => shapeCast_a_1a_apply x _ 0 h
  have hb2 : ∀ (x : S256.Idx → EReal) (q : Fin 256), shapeCast S1x256 x Facts₀.shapeCasts_S256_S1x256 (ix2 0 q) = x (ix1 q) :=
    fun x q => shapeCast_a_1a_apply x _ 0 q
  simp only [hW1, hW2, hb1, hb2]

/-- The segment ids are the specification's. -/
theorem segArr_spec (c : Dev nD) (b : Fin 2) (n : Fin 120000) :
    segArr (U1 m ρ) c (ix3 b n 0) = Cert.Spec.seg (m ((c : Thread nD τ).loc main_arg0)) b n := by
  unfold segArr Cert.Spec.seg
  rw [U1_arg0]

end Cert.KernelIdeal.Hand

end
-- ==== Proof.RefDefs.lean ====
/- The reference function's value as pure terms of its thirteen argument arrays: each definition below is a
   composition of the operations the reference program lists, in the program's order. `featR` is the clipped
   per-point feature array, `segR` the per-point segment number, `tailR` the scatter-mean, crop and transpose
   that follow them. -/
import proofs.«118269_j50740743635700_2_alg».proof.Proof.Gen.ReferenceIdeal

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Column 0 of the points (the x coordinate), as a [2,120000] array. -/
def xR (p : (⟨S2x120000x4, .f32⟩ : BufTy).Contents (Elt F)) : (⟨S2x120000, .f32⟩ : BufTy).Contents (Elt F) :=
  shapeCast S2x120000 (extractStridedSlice S2x120000x1 ![0, 0, 0] p slices_S2x120000x4_S2x120000x1_0_0_0) shapeCasts_S2x120000x1_S2x120000

/-- Column 1 of the points (the y coordinate). -/
def yR (p : (⟨S2x120000x4, .f32⟩ : BufTy).Contents (Elt F)) : (⟨S2x120000, .f32⟩ : BufTy).Contents (Elt F) :=
  shapeCast S2x120000 (extractStridedSlice S2x120000x1 ![0, 0, 1] p slices_S2x120000x4_S2x120000x1_0_0_1) shapeCasts_S2x120000x1_S2x120000

/-- A float constant at every point. -/
def splat2 (b : BitVec 32) : (⟨S2x120000, .f32⟩ : BufTy).Contents (Elt F) :=
  broadcastInDim S2x120000 ![] bcast_S_S2x120000 (constant (F := F) S_ .f32 b)

/-- An integer constant at every point. -/
def splat2i (b : BitVec 32) : IVec S2x120000 32 :=
  broadcastInDim S2x120000 ![] bcast_S_S2x120000 (constantI S_ 32 b)

/-- Rounding toward zero: the ceiling of a negative entry, the floor of any other. -/
def truncR (q : (⟨S2x120000, .f32⟩ : BufTy).Contents (Elt F)) : (⟨S2x120000, .f32⟩ : BufTy).Contents (Elt F) :=
  select (cmpf .olt q (splat2 0x00000000#32)) (Host.ceil q) (Host.floor q)

/-- The grid cell of a coordinate: (x − origin) / cell size, rounded toward zero, as an integer. -/
def cellR (x : (⟨S2x120000, .f32⟩ : BufTy).Contents (Elt F)) : IVec S2x120000 32 :=
  fptosi 32 (truncR (Host.divf (subf x (splat2 0xC24CCCCD#32)) (splat2 0x3E4CCCCD#32)))

/-- Both cells inside the 512 × 512 grid. -/
def maskR (gx gy : IVec S2x120000 32) : IVec S2x120000 1 :=
  andi (andi (andi (cmpi .sge gx (splat2i 0#32)) (cmpi .slt gx (splat2i 512#32))) (cmpi .sge gy (splat2i 0#32)))
    (cmpi .slt gy (splat2i 512#32))

/-- The centre of a cell: cell · size + origin + half a cell. -/
def ctrR (g : IVec S2x120000 32) : (⟨S2x120000, .f32⟩ : BufTy).Contents (Elt F) :=
  addf (addf (mulf (sitofp .f32 g) (splat2 0x3E4CCCCD#32)) (splat2 0xC24CCCCD#32)) (splat2 0x3DCCCCCD#32)

/-- A [2,120000] array as a [2,120000,1] column. -/
def colR (v : (⟨S2x120000, .f32⟩ : BufTy).Contents (Elt F)) : (⟨S2x120000x1, .f32⟩ : BufTy).Contents (Elt F) :=
  broadcastInDim S2x120000x1 ![0, 1] bcast_S2x120000_S2x120000x1_0_1 v

/-- Six columns side by side. -/
def aug6 (c0 c1 c2 c3 c4 c5 : (⟨S2x120000x1, .f32⟩ : BufTy).Contents (Elt F)) : (⟨S2x120000x6, .f32⟩ : BufTy).Contents (Elt F) :=
  concatenate S2x120000x6 2 [⟨S2x120000x1, c0⟩, ⟨S2x120000x1, c1⟩, ⟨S2x120000x1, c2⟩, ⟨S2x120000x1, c3⟩, ⟨S2x120000x1, c4⟩, ⟨S2x120000x1, c5⟩] concatenates_S2x120000x1_S2x120000x1_S2x120000x1_S2x120000x1_S2x120000x1_S2x120000x1_S2x120000x6_d2

/-- The four point features followed by six more. -/
def aug10 (p : (⟨S2x120000x4, .f32⟩ : BufTy).Contents (Elt F)) (a : (⟨S2x120000x6, .f32⟩ : BufTy).Contents (Elt F)) : (⟨S2x120000x10, .f32⟩ : BufTy).Contents (Elt F) :=
  concatenate S2x120000x10 2 [⟨S2x120000x4, p⟩, ⟨S2x120000x6, a⟩] concatenates_S2x120000x4_S2x120000x6_S2x120000x10_d2

/-- The ten augmented features of every point. -/
def augR (p : (⟨S2x120000x4, .f32⟩ : BufTy).Contents (Elt F)) : (⟨S2x120000x10, .f32⟩ : BufTy).Contents (Elt F) :=
  aug10 p (aug6 (colR (subf (xR p) (ctrR (cellR (xR p))))) (colR (subf (yR p) (ctrR (cellR (yR p))))) (colR (splat2 0x00000000#32))
    (colR (ctrR (cellR (xR p)))) (colR (ctrR (cellR (yR p)))) (colR (splat2 0x00000000#32)))

/-- A length-64 vector along the last axis of a [2,120000,64] array. -/
def row64 (v : (⟨S64, .f32⟩ : BufTy).Contents (Elt F)) : (⟨S2x120000x64, .f32⟩ : BufTy).Contents (Elt F) :=
  broadcastInDim S2x120000x64 ![0, 1, 2] bcast_S1x1x64_S2x120000x64_0_1_2 (broadcastInDim S1x1x64 ![2] bcast_S64_S1x1x64_2 v)

/-- A length-256 vector along the last axis of a [2,120000,256] array. -/
def row256 (v : (⟨S256, .f32⟩ : BufTy).Contents (Elt F)) : (⟨S2x120000x256, .f32⟩ : BufTy).Contents (Elt F) :=
  broadcastInDim S2x120000x256 ![0, 1, 2] bcast_S1x1x256_S2x120000x256_0_1_2 (broadcastInDim S1x1x256 ![2] bcast_S256_S1x1x256_2 v)

/-- The first layer: linear map, bias, batch normalisation at the running statistics, rectifier. -/
def hidR (a : (⟨S2x120000x10, .f32⟩ : BufTy).Contents (Elt F)) (W1 : (⟨S64x10, .f32⟩ : BufTy).Contents (Elt F)) (b1 g1 be1 m1 v1 : (⟨S64, .f32⟩ : BufTy).Contents (Elt F)) : (⟨S2x120000x64, .f32⟩ : BufTy).Contents (Elt F) :=
  maximumf
    (addf (mulf (mulf (subf (addf (Host.dotGeneral dot_S2x120000x10_S64x10_S2x120000x64_2_1_01_0_n_n none a W1) (row64 b1)) (row64 m1))
      (row64 (Host.rsqrt (addf v1 (broadcastInDim S64 ![] bcast_S_S64 (constant (F := F) S_ .f32 0x3A83126F#32)))))) (row64 g1)) (row64 be1))
    (broadcastInDim S2x120000x64 ![] bcast_S_S2x120000x64 (constant (F := F) S_ .f32 0x00000000#32))

/-- The second layer, then the clip to [−100, 100]. -/
def outR (h : (⟨S2x120000x64, .f32⟩ : BufTy).Contents (Elt F)) (W2 : (⟨S256x64, .f32⟩ : BufTy).Contents (Elt F)) (b2 g2 be2 m2 v2 : (⟨S256, .f32⟩ : BufTy).Contents (Elt F)) : (⟨S2x120000x256, .f32⟩ : BufTy).Contents (Elt F) :=
  minimumf (broadcastInDim S2x120000x256 ![] bcast_S_S2x120000x256 (constant (F := F) S_ .f32 0x42C80000#32))
    (maximumf (broadcastInDim S2x120000x256 ![] bcast_S_S2x120000x256 (constant (F := F) S_ .f32 0xC2C80000#32))
      (maximumf
        (addf (mulf (mulf (subf (addf (Host.dotGeneral dot_S2x120000x64_S256x64_S2x120000x256_2_1_01_0_n_n none h W2) (row256 b2)) (row256 m2))
          (row256 (Host.rsqrt (addf v2 (broadcastInDim S256 ![] bcast_S_S256 (constant (F := F) S_ .f32 0x3A83126F#32)))))) (row256 g2)) (row256 be2))
        (broadcastInDim S2x120000x256 ![] bcast_S_S2x120000x256 (constant (F := F) S_ .f32 0x00000000#32))))

/-- The clipped 256 features of every point. -/
def featR (p : (⟨S2x120000x4, .f32⟩ : BufTy).Contents (Elt F)) (W1 : (⟨S64x10, .f32⟩ : BufTy).Contents (Elt F)) (b1 g1 be1 m1 v1 : (⟨S64, .f32⟩ : BufTy).Contents (Elt F))
    (W2 : (⟨S256x64, .f32⟩ : BufTy).Contents (Elt F)) (b2 g2 be2 m2 v2 : (⟨S256, .f32⟩ : BufTy).Contents (Elt F)) : (⟨S2x120000x256, .f32⟩ : BufTy).Contents (Elt F) :=
  outR (hidR (augR p) W1 b1 g1 be1 m1 v1) W2 b2 g2 be2 m2 v2

/-- The pillar of a point within its batch entry: row · 512 + column inside the grid, the extra bin 262144 outside. -/
def idxR (mask : IVec S2x120000 1) (gy gx : IVec S2x120000 32) : IVec S2x120000 32 :=
  select mask (addi (muli gy (splat2i 512#32)) gx) (splat2i 262144#32)

/-- The batch entry's number as a [2,1] column. -/
def iotaColR : IVec S2x1 32 :=
  broadcastInDim S2x1 ![0] bcast_S2_S2x1_0 (iotaInDim S2 32 0)

/-- The segment: the pillar plus the batch entry's offset, 262145 bins each. -/
def segOf (idx : IVec S2x120000 32) (io : IVec S2x1 32) : IVec S2x120000 32 :=
  addi idx (broadcastInDim S2x120000 ![0, 1] bcast_S2x1_S2x120000_0_1 (muli io (broadcastInDim S2x1 ![] bcast_S_S2x1 (constantI S_ 32 262145#32))))

/-- The segment number of every point. -/
def segR (p : (⟨S2x120000x4, .f32⟩ : BufTy).Contents (Elt F)) : IVec S2x120000 32 :=
  segOf (idxR (maskR (cellR (xR p)) (cellR (yR p))) (cellR (yR p)) (cellR (xR p))) iotaColR

/-- The segment numbers flattened to 240000 points, as a column of scatter indices. -/
def flatSegR (seg : IVec S2x120000 32) : IVec S240000x1 32 :=
  broadcastInDim S240000x1 ![0] bcast_S240000_S240000x1_0 (shapeCast S240000 seg shapeCasts_S2x120000_S240000)

/-- The per-segment sums of the features. -/
def sumsR (feat : (⟨S2x120000x256, .f32⟩ : BufTy).Contents (Elt F)) (seg : IVec S2x120000 32) : (⟨S524290x256, .f32⟩ : BufTy).Contents (Elt F) :=
  Host.scatterAdd scatter_S524290x256_S240000x1_S240000x256_1_0_0_1
    (broadcastInDim S524290x256 ![] bcast_S_S524290x256 (constant (F := F) S_ .f32 0x00000000#32))
    (flatSegR seg) (shapeCast S240000x256 feat shapeCasts_S2x120000x256_S240000x256)

/-- The per-segment counts. -/
def cntR (seg : IVec S2x120000 32) : (⟨S524290, .f32⟩ : BufTy).Contents (Elt F) :=
  Host.scatterAdd scatter_S524290_S240000x1_S240000_n_0_0_1
    (broadcastInDim S524290 ![] bcast_S_S524290 (constant (F := F) S_ .f32 0x00000000#32))
    (flatSegR seg) (broadcastInDim S240000 ![] bcast_S_S240000 (constant (F := F) S_ .f32 0x3F800000#32))

/-- The per-segment means: sums over counts plus a small constant. -/
def meanR (feat : (⟨S2x120000x256, .f32⟩ : BufTy).Contents (Elt F)) (seg : IVec S2x120000 32) : (⟨S524290x256, .f32⟩ : BufTy).Contents (Elt F) :=
  Host.divf (sumsR feat seg)
    (broadcastInDim S524290x256 ![0, 1] bcast_S524290x1_S524290x256_0_1
      (addf (broadcastInDim S524290x1 ![0] bcast_S524290_S524290x1_0 (cntR seg))
        (broadcastInDim S524290x1 ![] bcast_S_S524290x1 (constant (F := F) S_ .f32 0x358637BD#32))))

/-- The result from the features and segments: the means, the extra bin of each batch entry dropped, laid out as
    [2,256,512,512]. -/
def tailR (feat : (⟨S2x120000x256, .f32⟩ : BufTy).Contents (Elt F)) (seg : IVec S2x120000 32) : (⟨S2x256x512x512, .f32⟩ : BufTy).Contents (Elt F) :=
  transpose S2x256x512x512 [0, 3, 1, 2]
    (shapeCast S2x512x512x256
      (extractStridedSlice S2x262144x256 ![0, 0, 0] (shapeCast S2x262145x256 (meanR feat seg) shapeCasts_S524290x256_S2x262145x256)
        slices_S2x262145x256_S2x262144x256_0_0_0)
      shapeCasts_S2x262144x256_S2x512x512x256)
    transposes_S2x512x512x256_S2x256x512x512_0_3_1_2

end Cert.ReferenceIdeal.RefRun

end
-- ==== Proof.RefOps.lean ====
/- The reference program's @main as lists of its 168 operations, in order, the outlined functions' operations listed
   at their call sites over the calls' buffer records; that @main is the straight line of those operations; and what
   every buffer holds after the run, as the fold of the operations over the launch contents. -/
import proofs.«118269_j50740743635700_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Operations 1 … 17 of @main. -/
abbrev wA : List (HloOp τ sig (Elt F)) :=
  [ unary main_arg0 main_v0 ((extractStridedSlice S2x120000x1 ![0, 0, 0] · slices_S2x120000x4_S2x120000x1_0_0_0) : (⟨S2x120000x4, .f32⟩ : BufTy).Contents (Elt F) → (⟨S2x120000x1, .f32⟩ : BufTy).Contents (Elt F)),
    reshape main_v0 main_v1 rfl shapeCasts_S2x120000x1_S2x120000,
    unary main_arg0 main_v2 ((extractStridedSlice S2x120000x1 ![0, 0, 1] · slices_S2x120000x4_S2x120000x1_0_0_1) : (⟨S2x120000x4, .f32⟩ : BufTy).Contents (Elt F) → (⟨S2x120000x1, .f32⟩ : BufTy).Contents (Elt F)),
    reshape main_v2 main_v3 rfl shapeCasts_S2x120000x1_S2x120000,
    nullary main_cst (constant S_ .f32 0xC24CCCCD#32),
    unary main_cst main_v4 (broadcastInDim S2x120000 ![] bcast_S_S2x120000 : (⟨S_, .f32⟩ : BufTy).Contents (Elt F) → (⟨S2x120000, .f32⟩ : BufTy).Contents (Elt F)),
    binary main_v1 main_v4 main_v5 (subf : (⟨S2x120000, .f32⟩ : BufTy).Contents (Elt F) → (⟨S2x120000, .f32⟩ : BufTy).Contents (Elt F) → (⟨S2x120000, .f32⟩ : BufTy).Contents (Elt F)),
    nullary main_cst_0 (constant S_ .f32 0x3E4CCCCD#32),
    unary main_cst_0 main_v6 (broadcastInDim S2x120000 ![] bcast_S_S2x120000 : (⟨S_, .f32⟩ : BufTy).Contents (Elt F) → (⟨S2x120000, .f32⟩ : BufTy).Contents (Elt F)),
    binary main_v5 main_v6 main_v7 (Host.divf : (⟨S2x120000, .f32⟩ : BufTy).Contents (Elt F) → (⟨S2x120000, .f32⟩ : BufTy).Contents (Elt F) → (⟨S2x120000, .f32⟩ : BufTy).Contents (Elt F)),
    TRef.nullary main_call0.cst (constant S_ .f32 0x00000000#32),
    TRef.unary main_call0.cst main_call0.v0 (broadcastInDim S2x120000 ![] bcast_S_S2x120000),
    TRef.binary (.of main_v7 : StableHlo.TRef sig ⟨S2x120000, .f32⟩) main_call0.v0 main_call0.v1 (cmpf .olt),
    TRef.unary (.of main_v7 : StableHlo.TRef sig ⟨S2x120000, .f32⟩) main_call0.v2 Host.ceil,
    TRef.unary (.of main_v7 : StableHlo.TRef sig ⟨S2x120000, .f32⟩) main_call0.v3 Host.floor,
    TRef.ternary main_call0.v1 main_call0.v2 main_call0.v3 main_call0.call0.v0 select,
    unary main_v8 main_v9 (fptosi 32 : (⟨S2x120000, .f32⟩ : BufTy).Contents (Elt F) → (⟨S2x120000, .i32⟩ : BufTy).Contents (Elt F)) ]

/-- The buffers those operations write. -/
abbrev wA_W : List (Ref sig .tc) := [main_v0, main_v1, main_v2, main_v3, main_cst, main_v4, main_v5, main_cst_0, main_v6, main_v7, main_call0_cst, main_call0_v0, main_call0_v1, main_call0_v2, main_call0_v3, main_v8, main_v9]

theorem wA_sub : (wA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., ternary_bufs_sub .., unary_bufs_sub ..⟩

/-- Operations 18 … 30 of @main. -/
abbrev wB : List (HloOp τ sig (Elt F)) :=
  [ nullary main_cst_1 (constant S_ .f32 0xC24CCCCD#32),
    unary main_cst_1 main_v10 (broadcastInDim S2x120000 ![] bcast_S_S2x120000 : (⟨S_, .f32⟩ : BufTy).Contents (Elt F) → (⟨S2x120000, .f32⟩ : BufTy).Contents (Elt F)),
    binary main_v3 main_v10 main_v11 (subf : (⟨S2x120000, .f32⟩ : BufTy).Contents (Elt F) → (⟨S2x120000, .f32⟩ : BufTy).Contents (Elt F) → (⟨S2x120000, .f32⟩ : BufTy).Contents (Elt F)),
    nullary main_cst_2 (constant S_ .f32 0x3E4CCCCD#32),
    unary main_cst_2 main_v12 (broadcastInDim S2x120000 ![] bcast_S_S2x120000 : (⟨S_, .f32⟩ : BufTy).Contents (Elt F) → (⟨S2x120000, .f32⟩ : BufTy).Contents (Elt F)),
    binary main_v11 main_v12 main_v13 (Host.divf : (⟨S2x120000, .f32⟩ : BufTy).Contents (Elt F) → (⟨S2x120000, .f32⟩ : BufTy).Contents (Elt F) → (⟨S2x120000, .f32⟩ : BufTy).Contents (Elt F)),
    TRef.nullary main_call1.cst (constant S_ .f32 0x00000000#32),
    TRef.unary main_call1.cst main_call1.v0 (broadcastInDim S2x120000 ![] bcast_S_S2x120000),
    TRef.binary (.of main_v13 : StableHlo.TRef sig ⟨S2x120000, .f32⟩) main_call1.v0 main_call1.v1 (cmpf .olt),
    TRef.unary (.of main_v13 : StableHlo.TRef sig ⟨S2x120000, .f32⟩) main_call1.v2 Host.ceil,
    TRef.unary (.of main_v13 : StableHlo.TRef sig ⟨S2x120000, .f32⟩) main_call1.v3 Host.floor,
    TRef.ternary main_call1.v1 main_call1.v2 main_call1.v3 main_call1.call0.v0 select,
    unary main_v14 main_v15 (fptosi 32 : (⟨S2x120000, .f32⟩ : BufTy).Contents (Elt F) → (⟨S2x120000, .i32⟩ : BufTy).Contents (Elt F)) ]

/-- The buffers those operations write. -/
abbrev wB_W : List (Ref sig .tc) := [main_cst_1, main_v10, main_v11, main_cst_2, main_v12, main_v13, main_call1_cst, main_call1_v0, main_call1_v1, main_call1_v2, main_call1_v3, main_v14, main_v15]

theorem wB_sub : (wB : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., unary_bufs_sub .., unary_bufs_sub .., ternary_bufs_sub .., unary_bufs_sub ..⟩

/-- Operations 31 … 45 of @main. -/
abbrev wC : List (HloOp τ sig (Elt F)) :=
  [ nullary main_c (constantI S_ 32 0#32),
    unary main_c main_v16 (broadcastInDim S2x120000 ![] bcast_S_S2x120000 : (⟨S_, .i32⟩ : BufTy).Contents (Elt F) → (⟨S2x120000, .i32⟩ : BufTy).Contents (Elt F)),
    binary main_v9 main_v16 main_v17 (cmpi .sge : (⟨S2x120000, .i32⟩ : BufTy).Contents (Elt F) → (⟨S2x120000, .i32⟩ : BufTy).Contents (Elt F) → (⟨S2x120000, .i1⟩ : BufTy).Contents (Elt F)),
    nullary main_c_3 (constantI S_ 32 512#32),
    unary main_c_3 main_v18 (broadcastInDim S2x120000 ![] bcast_S_S2x120000 : (⟨S_, .i32⟩ : BufTy).Contents (Elt F) → (⟨S2x120000, .i32⟩ : BufTy).Contents (Elt F)),
    binary main_v9 main_v18 main_v19 (cmpi .slt : (⟨S2x120000, .i32⟩ : BufTy).Contents (Elt F) → (⟨S2x120000, .i32⟩ : BufTy).Contents (Elt F) → (⟨S2x120000, .i1⟩ : BufTy).Contents (Elt F)),
    binary main_v17 main_v19 main_v20 (andi : (⟨S2x120000, .i1⟩ : BufTy).Contents (Elt F) → (⟨S2x120000, .i1⟩ : BufTy).Contents (Elt F) → (⟨S2x120000, .i1⟩ : BufTy).Contents (Elt F)),
    nullary main_c_4 (constantI S_ 32 0#32),
    unary main_c_4 main_v21 (broadcastInDim S2x120000 ![] bcast_S_S2x120000 : (⟨S_, .i32⟩ : BufTy).Contents (Elt F) → (⟨S2x120000, .i32⟩ : BufTy).Contents (Elt F)),
    binary main_v15 main_v21 main_v22 (cmpi .sge : (⟨S2x120000, .i32⟩ : BufTy).Contents (Elt F) → (⟨S2x120000, .i32⟩ : BufTy).Contents (Elt F) → (⟨S2x120000, .i1⟩ : BufTy).Contents (Elt F)),
    binary main_v20 main_v22 main_v23 (andi : (⟨S2x120000, .i1⟩ : BufTy).Contents (Elt F) → (⟨S2x120000, .i1⟩ : BufTy).Contents (Elt F) → (⟨S2x120000, .i1⟩ : BufTy).Contents (Elt F)),
    nullary main_c_5 (constantI S_ 32 512#32),
    unary main_c_5 main_v24 (broadcastInDim S2x120000 ![] bcast_S_S2x120000 : (⟨S_, .i32⟩ : BufTy).Contents (Elt F) → (⟨S2x120000, .i32⟩ : BufTy).Contents (Elt F)),
    binary main_v15 main_v24 main_v25 (cmpi .slt : (⟨S2x120000, .i32⟩ : BufTy).Contents (Elt F) → (⟨S2x120000, .i32⟩ : BufTy).Contents (Elt F) → (⟨S2x120000, .i1⟩ : BufTy).Contents (Elt F)),
    binary main_v23 main_v25 main_v26 (andi : (⟨S2x120000, .i1⟩ : BufTy).Contents (Elt F) → (⟨S2x120000, .i1⟩ : BufTy).Contents (Elt F) → (⟨S2x120000, .i1⟩ : BufTy).Contents (Elt F)) ]

/-- The buffers those operations write. -/
abbrev wC_W : List (Ref sig .tc) := [main_c, main_v16, main_v17, main_c_3, main_v18, main_v19, main_v20, main_c_4, main_v21, main_v22, main_v23, main_c_5, main_v24, main_v25, main_v26]

theorem wC_sub : (wC : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩

/-- Operations 46 … 70 of @main. -/
abbrev wD : List (HloOp τ sig (Elt F)) :=
  [ unary main_v9 main_v27 (sitofp .f32 : (⟨S2x120000, .i32⟩ : BufTy).Contents (Elt F) → (⟨S2x120000, .f32⟩ : BufTy).Contents (Elt F)),
    nullary main_cst_6 (constant S_ .f32 0x3E4CCCCD#32),
    unary main_cst_6 main_v28 (broadcastInDim S2x120000 ![] bcast_S_S2x120000 : (⟨S_, .f32⟩ : BufTy).Contents (Elt F) → (⟨S2x120000, .f32⟩ : BufTy).Contents (Elt F)),
    binary main_v27 main_v28 main_v29 (mulf : (⟨S2x120000, .f32⟩ : BufTy).Contents (Elt F) → (⟨S2x120000, .f32⟩ : BufTy).Contents (Elt F) → (⟨S2x120000, .f32⟩ : BufTy).Contents (Elt F)),
    nullary main_cst_7 (constant S_ .f32 0xC24CCCCD#32),
    unary main_cst_7 main_v30 (broadcastInDim S2x120000 ![] bcast_S_S2x120000 : (⟨S_, .f32⟩ : BufTy).Contents (Elt F) → (⟨S2x120000, .f32⟩ : BufTy).Contents (Elt F)),
    binary main_v29 main_v30 main_v31 (addf : (⟨S2x120000, .f32⟩ : BufTy).Contents (Elt F) → (⟨S2x120000, .f32⟩ : BufTy).Contents (Elt F) → (⟨S2x120000, .f32⟩ : BufTy).Contents (Elt F)),
    nullary main_cst_8 (constant S_ .f32 0x3DCCCCCD#32),
    unary main_cst_8 main_v32 (broadcastInDim S2x120000 ![] bcast_S_S2x120000 : (⟨S_, .f32⟩ : BufTy).Contents (Elt F) → (⟨S2x120000, .f32⟩ : BufTy).Contents (Elt F)),
    binary main_v31 main_v32 main_v33 (addf : (⟨S2x120000, .f32⟩ : BufTy).Contents (Elt F) → (⟨S2x120000, .f32⟩ : BufTy).Contents (Elt F) → (⟨S2x120000, .f32⟩ : BufTy).Contents (Elt F)),
    unary main_v15 main_v34 (sitofp .f32 : (⟨S2x120000, .i32⟩ : BufTy).Contents (Elt F) → (⟨S2x120000, .f32⟩ : BufTy).Contents (Elt F)),
    nullary main_cst_9 (constant S_ .f32 0x3E4CCCCD#32),
    unary main_cst_9 main_v35 (broadcastInDim S2x120000 ![] bcast_S_S2x120000 : (⟨S_, .f32⟩ : BufTy).Contents (Elt F) → (⟨S2x120000, .f32⟩ : BufTy).Contents (Elt F)),
    binary main_v34 main_v35 main_v36 (mulf : (⟨S2x120000, .f32⟩ : BufTy).Contents (Elt F) → (⟨S2x120000, .f32⟩ : BufTy).Contents (Elt F) → (⟨S2x120000, .f32⟩ : BufTy).Contents (Elt F)),
    nullary main_cst_10 (constant S_ .f32 0xC24CCCCD#32),
    unary main_cst_10 main_v37 (broadcastInDim S2x120000 ![] bcast_S_S2x120000 : (⟨S_, .f32⟩ : BufTy).Contents (Elt F) → (⟨S2x120000, .f32⟩ : BufTy).Contents (Elt F)),
    binary main_v36 main_v37 main_v38 (addf : (⟨S2x120000, .f32⟩ : BufTy).Contents (Elt F) → (⟨S2x120000, .f32⟩ : BufTy).Contents (Elt F) → (⟨S2x120000, .f32⟩ : BufTy).Contents (Elt F)),
    nullary main_cst_11 (constant S_ .f32 0x3DCCCCCD#32),
    unary main_cst_11 main_v39 (broadcastInDim S2x120000 ![] bcast_S_S2x120000 : (⟨S_, .f32⟩ : BufTy).Contents (Elt F) → (⟨S2x120000, .f32⟩ : BufTy).Contents (Elt F)),
    binary main_v38 main_v39 main_v40 (addf : (⟨S2x120000, .f32⟩ : BufTy).Contents (Elt F) → (⟨S2x120000, .f32⟩ : BufTy).Contents (Elt F) → (⟨S2x120000, .f32⟩ : BufTy).Contents (Elt F)),
    nullary main_cst_12 (constant S_ .f32 0x00000000#32),
    unary main_cst_12 main_v41 (broadcastInDim S2x120000 ![] bcast_S_S2x120000 : (⟨S_, .f32⟩ : BufTy).Contents (Elt F) → (⟨S2x120000, .f32⟩ : BufTy).Contents (Elt F)),
    binary main_v1 main_v33 main_v42 (subf : (⟨S2x120000, .f32⟩ : BufTy).Contents (Elt F) → (⟨S2x120000, .f32⟩ : BufTy).Contents (Elt F) → (⟨S2x120000, .f32⟩ : BufTy).Contents (Elt F)),
    binary main_v3 main_v40 main_v43 (subf : (⟨S2x120000, .f32⟩ : BufTy).Contents (Elt F) → (⟨S2x120000, .f32⟩ : BufTy).Contents (Elt F) → (⟨S2x120000, .f32⟩ : BufTy).Contents (Elt F)),
    unary main_v42 main_v44 (broadcastInDim S2x120000x1 ![0, 1] bcast_S2x120000_S2x120000x1_0_1 : (⟨S2x120000, .f32⟩ : BufTy).Contents (Elt F) → (⟨S2x120000x1, .f32⟩ : BufTy).Contents (Elt F)) ]

/-- The buffers those operations write. -/
abbrev wD_W : List (Ref sig .tc) := [main_v27, main_cst_6, main_v28, main_v29, main_cst_7, main_v30, main_v31, main_cst_8, main_v32, main_v33, main_v34, main_cst_9, main_v35, main_v36, main_cst_10, main_v37, main_v38, main_cst_11, main_v39, main_v40, main_cst_12, main_v41, main_v42, main_v43, main_v44]

theorem wD_sub : (wD : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub ..⟩

/-- Operations 71 … 75 of @main. -/
abbrev wE : List (HloOp τ sig (Elt F)) :=
  [ unary main_v43 main_v45 (broadcastInDim S2x120000x1 ![0, 1] bcast_S2x120000_S2x120000x1_0_1 : (⟨S2x120000, .f32⟩ : BufTy).Contents (Elt F) → (⟨S2x120000x1, .f32⟩ : BufTy).Contents (Elt F)),
    unary main_v41 main_v46 (broadcastInDim S2x120000x1 ![0, 1] bcast_S2x120000_S2x120000x1_0_1 : (⟨S2x120000, .f32⟩ : BufTy).Contents (Elt F) → (⟨S2x120000x1, .f32⟩ : BufTy).Contents (Elt F)),
    unary main_v33 main_v47 (broadcastInDim S2x120000x1 ![0, 1] bcast_S2x120000_S2x120000x1_0_1 : (⟨S2x120000, .f32⟩ : BufTy).Contents (Elt F) → (⟨S2x120000x1, .f32⟩ : BufTy).Contents (Elt F)),
    unary main_v40 main_v48 (broadcastInDim S2x120000x1 ![0, 1] bcast_S2x120000_S2x120000x1_0_1 : (⟨S2x120000, .f32⟩ : BufTy).Contents (Elt F) → (⟨S2x120000x1, .f32⟩ : BufTy).Contents (Elt F)),
    unary main_v41 main_v49 (broadcastInDim S2x120000x1 ![0, 1] bcast_S2x120000_S2x120000x1_0_1 : (⟨S2x120000, .f32⟩ : BufTy).Contents (Elt F) → (⟨S2x120000x1, .f32⟩ : BufTy).Contents (Elt F)) ]

/-- The buffers those operations write. -/
abbrev wE_W : List (Ref sig .tc) := [main_v45, main_v46, main_v47, main_v48, main_v49]

theorem wE_sub : (wE : List (HloOp τ sig (Elt F))).Forall fun op => op.bufs ⊆ tcRefs τ sig :=
  ⟨unary_bufs_sub .., unary_bufs_sub .., unary_bufs_sub .., unary_bufs_sub .., unary_bufs_sub ..⟩

/-- Operations 76 … 77 of @main. -/
abbrev wE2 : List (HloOp τ sig (Elt F)) :=
  [ nary ![main_v44, main_v45, main_v46, main_v47, main_v48, main_v49] main_v50 (fun u => concatenate S2x120000x6 2 [⟨S2x120000x1, u 0⟩, ⟨S2x120000x1, u 1⟩, ⟨S2x120000x1, u 2⟩, ⟨S2x120000x1, u 3⟩, ⟨S2x120000x1, u 4⟩, ⟨S2x120000x1, u 5⟩] concatenates_S2x120000x1_S2x120000x1_S2x120000x1_S2x120000x1_S2x120000x1_S2x120000x1_S2x120000x6_d2),
    binary main_arg0 main_v50 main_v51 ((fun a b => concatenate S2x120000x10 2 [⟨S2x120000x4, a⟩, ⟨S2x120000x6, b⟩] concatenates_S2x120000x4_S2x120000x6_S2x120000x10_d2) : (⟨S2x120000x4, .f32⟩ : BufTy).Contents (Elt F) → (⟨S2x120000x6, .f32⟩ : BufTy).Contents (Elt F) → (⟨S2x120000x10, .f32⟩ : BufTy).Contents (Elt F)) ]

/-- The buffers those operations write. -/
abbrev wE2_W : List (Ref sig .tc) := [main_v50, main_v51]

theorem wE2_sub : (wE2 : List (HloOp τ sig (Elt F))).Forall fun op => op.bufs ⊆ tcRefs τ sig :=
  ⟨nary_bufs_sub .., binary_bufs_sub ..⟩

/-- Operations 78 … 100 of @main. -/
abbrev wF : List (HloOp τ sig (Elt F)) :=
  [ binary main_v51 main_arg1 main_v52 ((fun l r => Host.dotGeneral dot_S2x120000x10_S64x10_S2x120000x64_2_1_01_0_n_n none l r) : (⟨S2x120000x10, .f32⟩ : BufTy).Contents (Elt F) → (⟨S64x10, .f32⟩ : BufTy).Contents (Elt F) → (⟨S2x120000x64, .f32⟩ : BufTy).Contents (Elt F)),
    unary main_arg2 main_v53 (broadcastInDim S1x1x64 ![2] bcast_S64_S1x1x64_2 : (⟨S64, .f32⟩ : BufTy).Contents (Elt F) → (⟨S1x1x64, .f32⟩ : BufTy).Contents (Elt F)),
    unary main_v53 main_v54 (broadcastInDim S2x120000x64 ![0, 1, 2] bcast_S1x1x64_S2x120000x64_0_1_2 : (⟨S1x1x64, .f32⟩ : BufTy).Contents (Elt F) → (⟨S2x120000x64, .f32⟩ : BufTy).Contents (Elt F)),
    binary main_v52 main_v54 main_v55 (addf : (⟨S2x120000x64, .f32⟩ : BufTy).Contents (Elt F) → (⟨S2x120000x64, .f32⟩ : BufTy).Contents (Elt F) → (⟨S2x120000x64, .f32⟩ : BufTy).Contents (Elt F)),
    unary main_arg5 main_v56 (broadcastInDim S1x1x64 ![2] bcast_S64_S1x1x64_2 : (⟨S64, .f32⟩ : BufTy).Contents (Elt F) → (⟨S1x1x64, .f32⟩ : BufTy).Contents (Elt F)),
    unary main_v56 main_v57 (broadcastInDim S2x120000x64 ![0, 1, 2] bcast_S1x1x64_S2x120000x64_0_1_2 : (⟨S1x1x64, .f32⟩ : BufTy).Contents (Elt F) → (⟨S2x120000x64, .f32⟩ : BufTy).Contents (Elt F)),
    binary main_v55 main_v57 main_v58 (subf : (⟨S2x120000x64, .f32⟩ : BufTy).Contents (Elt F) → (⟨S2x120000x64, .f32⟩ : BufTy).Contents (Elt F) → (⟨S2x120000x64, .f32⟩ : BufTy).Contents (Elt F)),
    nullary main_cst_13 (constant S_ .f32 0x3A83126F#32),
    unary main_cst_13 main_v59 (broadcastInDim S64 ![] bcast_S_S64 : (⟨S_, .f32⟩ : BufTy).Contents (Elt F) → (⟨S64, .f32⟩ : BufTy).Contents (Elt F)),
    binary main_arg6 main_v59 main_v60 (addf : (⟨S64, .f32⟩ : BufTy).Contents (Elt F) → (⟨S64, .f32⟩ : BufTy).Contents (Elt F) → (⟨S64, .f32⟩ : BufTy).Contents (Elt F)),
    unary main_v60 main_v61 (Host.rsqrt : (⟨S64, .f32⟩ : BufTy).Contents (Elt F) → (⟨S64, .f32⟩ : BufTy).Contents (Elt F)),
    unary main_v61 main_v62 (broadcastInDim S1x1x64 ![2] bcast_S64_S1x1x64_2 : (⟨S64, .f32⟩ : BufTy).Contents (Elt F) → (⟨S1x1x64, .f32⟩ : BufTy).Contents (Elt F)),
    unary main_v62 main_v63 (broadcastInDim S2x120000x64 ![0, 1, 2] bcast_S1x1x64_S2x120000x64_0_1_2 : (⟨S1x1x64, .f32⟩ : BufTy).Contents (Elt F) → (⟨S2x120000x64, .f32⟩ : BufTy).Contents (Elt F)),
    binary main_v58 main_v63 main_v64 (mulf : (⟨S2x120000x64, .f32⟩ : BufTy).Contents (Elt F) → (⟨S2x120000x64, .f32⟩ : BufTy).Contents (Elt F) → (⟨S2x120000x64, .f32⟩ : BufTy).Contents (Elt F)),
    unary main_arg3 main_v65 (broadcastInDim S1x1x64 ![2] bcast_S64_S1x1x64_2 : (⟨S64, .f32⟩ : BufTy).Contents (Elt F) → (⟨S1x1x64, .f32⟩ : BufTy).Contents (Elt F)),
    unary main_v65 main_v66 (broadcastInDim S2x120000x64 ![0, 1, 2] bcast_S1x1x64_S2x120000x64_0_1_2 : (⟨S1x1x64, .f32⟩ : BufTy).Contents (Elt F) → (⟨S2x120000x64, .f32⟩ : BufTy).Contents (Elt F)),
    binary main_v64 main_v66 main_v67 (mulf : (⟨S2x120000x64, .f32⟩ : BufTy).Contents (Elt F) → (⟨S2x120000x64, .f32⟩ : BufTy).Contents (Elt F) → (⟨S2x120000x64, .f32⟩ : BufTy).Contents (Elt F)),
    unary main_arg4 main_v68 (broadcastInDim S1x1x64 ![2] bcast_S64_S1x1x64_2 : (⟨S64, .f32⟩ : BufTy).Contents (Elt F) → (⟨S1x1x64, .f32⟩ : BufTy).Contents (Elt F)),
    unary main_v68 main_v69 (broadcastInDim S2x120000x64 ![0, 1, 2] bcast_S1x1x64_S2x120000x64_0_1_2 : (⟨S1x1x64, .f32⟩ : BufTy).Contents (Elt F) → (⟨S2x120000x64, .f32⟩ : BufTy).Contents (Elt F)),
    binary main_v67 main_v69 main_v70 (addf : (⟨S2x120000x64, .f32⟩ : BufTy).Contents (Elt F) → (⟨S2x120000x64, .f32⟩ : BufTy).Contents (Elt F) → (⟨S2x120000x64, .f32⟩ : BufTy).Contents (Elt F)),
    TRef.nullary main_call2.cst (constant S_ .f32 0x00000000#32),
    TRef.unary main_call2.cst main_call2.v0 (broadcastInDim S2x120000x64 ![] bcast_S_S2x120000x64),
    TRef.binary (.of main_v70 : StableHlo.TRef sig ⟨S2x120000x64, .f32⟩) main_call2.v0 main_call2.v1 maximumf ]

/-- The buffers those operations write. -/
abbrev wF_W : List (Ref sig .tc) := [main_v52, main_v53, main_v54, main_v55, main_v56, main_v57, main_v58, main_cst_13, main_v59, main_v60, main_v61, main_v62, main_v63, main_v64, main_v65, main_v66, main_v67, main_v68, main_v69, main_v70, main_call2_cst, main_call2_v0, main_v71]

theorem wF_sub : (wF : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Operations 101 … 131 of @main. -/
abbrev wG : List (HloOp τ sig (Elt F)) :=
  [ binary main_v71 main_arg7 main_v72 ((fun l r => Host.dotGeneral dot_S2x120000x64_S256x64_S2x120000x256_2_1_01_0_n_n none l r) : (⟨S2x120000x64, .f32⟩ : BufTy).Contents (Elt F) → (⟨S256x64, .f32⟩ : BufTy).Contents (Elt F) → (⟨S2x120000x256, .f32⟩ : BufTy).Contents (Elt F)),
    unary main_arg8 main_v73 (broadcastInDim S1x1x256 ![2] bcast_S256_S1x1x256_2 : (⟨S256, .f32⟩ : BufTy).Contents (Elt F) → (⟨S1x1x256, .f32⟩ : BufTy).Contents (Elt F)),
    unary main_v73 main_v74 (broadcastInDim S2x120000x256 ![0, 1, 2] bcast_S1x1x256_S2x120000x256_0_1_2 : (⟨S1x1x256, .f32⟩ : BufTy).Contents (Elt F) → (⟨S2x120000x256, .f32⟩ : BufTy).Contents (Elt F)),
    binary main_v72 main_v74 main_v75 (addf : (⟨S2x120000x256, .f32⟩ : BufTy).Contents (Elt F) → (⟨S2x120000x256, .f32⟩ : BufTy).Contents (Elt F) → (⟨S2x120000x256, .f32⟩ : BufTy).Contents (Elt F)),
    unary main_arg11 main_v76 (broadcastInDim S1x1x256 ![2] bcast_S256_S1x1x256_2 : (⟨S256, .f32⟩ : BufTy).Contents (Elt F) → (⟨S1x1x256, .f32⟩ : BufTy).Contents (Elt F)),
    unary main_v76 main_v77 (broadcastInDim S2x120000x256 ![0, 1, 2] bcast_S1x1x256_S2x120000x256_0_1_2 : (⟨S1x1x256, .f32⟩ : BufTy).Contents (Elt F) → (⟨S2x120000x256, .f32⟩ : BufTy).Contents (Elt F)),
    binary main_v75 main_v77 main_v78 (subf : (⟨S2x120000x256, .f32⟩ : BufTy).Contents (Elt F) → (⟨S2x120000x256, .f32⟩ : BufTy).Contents (Elt F) → (⟨S2x120000x256, .f32⟩ : BufTy).Contents (Elt F)),
    nullary main_cst_14 (constant S_ .f32 0x3A83126F#32),
    unary main_cst_14 main_v79 (broadcastInDim S256 ![] bcast_S_S256 : (⟨S_, .f32⟩ : BufTy).Contents (Elt F) → (⟨S256, .f32⟩ : BufTy).Contents (Elt F)),
    binary main_arg12 main_v79 main_v80 (addf : (⟨S256, .f32⟩ : BufTy).Contents (Elt F) → (⟨S256, .f32⟩ : BufTy).Contents (Elt F) → (⟨S256, .f32⟩ : BufTy).Contents (Elt F)),
    unary main_v80 main_v81 (Host.rsqrt : (⟨S256, .f32⟩ : BufTy).Contents (Elt F) → (⟨S256, .f32⟩ : BufTy).Contents (Elt F)),
    unary main_v81 main_v82 (broadcastInDim S1x1x256 ![2] bcast_S256_S1x1x256_2 : (⟨S256, .f32⟩ : BufTy).Contents (Elt F) → (⟨S1x1x256, .f32⟩ : BufTy).Contents (Elt F)),
    unary main_v82 main_v83 (broadcastInDim S2x120000x256 ![0, 1, 2] bcast_S1x1x256_S2x120000x256_0_1_2 : (⟨S1x1x256, .f32⟩ : BufTy).Contents (Elt F) → (⟨S2x120000x256, .f32⟩ : BufTy).Contents (Elt F)),
    binary main_v78 main_v83 main_v84 (mulf : (⟨S2x120000x256, .f32⟩ : BufTy).Contents (Elt F) → (⟨S2x120000x256, .f32⟩ : BufTy).Contents (Elt F) → (⟨S2x120000x256, .f32⟩ : BufTy).Contents (Elt F)),
    unary main_arg9 main_v85 (broadcastInDim S1x1x256 ![2] bcast_S256_S1x1x256_2 : (⟨S256, .f32⟩ : BufTy).Contents (Elt F) → (⟨S1x1x256, .f32⟩ : BufTy).Contents (Elt F)),
    unary main_v85 main_v86 (broadcastInDim S2x120000x256 ![0, 1, 2] bcast_S1x1x256_S2x120000x256_0_1_2 : (⟨S1x1x256, .f32⟩ : BufTy).Contents (Elt F) → (⟨S2x120000x256, .f32⟩ : BufTy).Contents (Elt F)),
    binary main_v84 main_v86 main_v87 (mulf : (⟨S2x120000x256, .f32⟩ : BufTy).Contents (Elt F) → (⟨S2x120000x256, .f32⟩ : BufTy).Contents (Elt F) → (⟨S2x120000x256, .f32⟩ : BufTy).Contents (Elt F)),
    unary main_arg10 main_v88 (broadcastInDim S1x1x256 ![2] bcast_S256_S1x1x256_2 : (⟨S256, .f32⟩ : BufTy).Contents (Elt F) → (⟨S1x1x256, .f32⟩ : BufTy).Contents (Elt F)),
    unary main_v88 main_v89 (broadcastInDim S2x120000x256 ![0, 1, 2] bcast_S1x1x256_S2x120000x256_0_1_2 : (⟨S1x1x256, .f32⟩ : BufTy).Contents (Elt F) → (⟨S2x120000x256, .f32⟩ : BufTy).Contents (Elt F)),
    binary main_v87 main_v89 main_v90 (addf : (⟨S2x120000x256, .f32⟩ : BufTy).Contents (Elt F) → (⟨S2x120000x256, .f32⟩ : BufTy).Contents (Elt F) → (⟨S2x120000x256, .f32⟩ : BufTy).Contents (Elt F)),
    TRef.nullary main_call3.cst (constant S_ .f32 0x00000000#32),
    TRef.unary main_call3.cst main_call3.v0 (broadcastInDim S2x120000x256 ![] bcast_S_S2x120000x256),
    TRef.binary (.of main_v90 : StableHlo.TRef sig ⟨S2x120000x256, .f32⟩) main_call3.v0 main_call3.v1 maximumf,
    nullary main_cst_15 (constant S_ .f32 0xC2C80000#32),
    nullary main_cst_16 (constant S_ .f32 0x42C80000#32),
    TRef.unary (.of main_cst_15 : StableHlo.TRef sig ⟨S_, .f32⟩) main_call4.v0 id,
    TRef.unary main_call4.v0 main_call4.v1 (broadcastInDim S2x120000x256 ![] bcast_S_S2x120000x256),
    TRef.binary main_call4.v1 (.of main_v91 : StableHlo.TRef sig ⟨S2x120000x256, .f32⟩) main_call4.v2 maximumf,
    TRef.unary (.of main_cst_16 : StableHlo.TRef sig ⟨S_, .f32⟩) main_call4.v3 id,
    TRef.unary main_call4.v3 main_call4.v4 (broadcastInDim S2x120000x256 ![] bcast_S_S2x120000x256),
    TRef.binary main_call4.v4 main_call4.v2 main_call4.v5 minimumf ]

/-- The buffers those operations write. -/
abbrev wG_W : List (Ref sig .tc) := [main_v72, main_v73, main_v74, main_v75, main_v76, main_v77, main_v78, main_cst_14, main_v79, main_v80, main_v81, main_v82, main_v83, main_v84, main_v85, main_v86, main_v87, main_v88, main_v89, main_v90, main_call3_cst, main_call3_v0, main_v91, main_cst_15, main_cst_16, main_call4_v0, main_call4_v1, main_call4_v2, main_call4_v3, main_call4_v4, main_v92]

theorem wG_sub : (wG : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

/-- Operations 132 … 141 of @main. -/
abbrev wH : List (HloOp τ sig (Elt F)) :=
  [ nullary main_c_17 (constantI S_ 32 512#32),
    unary main_c_17 main_v93 (broadcastInDim S2x120000 ![] bcast_S_S2x120000 : (⟨S_, .i32⟩ : BufTy).Contents (Elt F) → (⟨S2x120000, .i32⟩ : BufTy).Contents (Elt F)),
    binary main_v15 main_v93 main_v94 (muli : (⟨S2x120000, .i32⟩ : BufTy).Contents (Elt F) → (⟨S2x120000, .i32⟩ : BufTy).Contents (Elt F) → (⟨S2x120000, .i32⟩ : BufTy).Contents (Elt F)),
    binary main_v94 main_v9 main_v95 (addi : (⟨S2x120000, .i32⟩ : BufTy).Contents (Elt F) → (⟨S2x120000, .i32⟩ : BufTy).Contents (Elt F) → (⟨S2x120000, .i32⟩ : BufTy).Contents (Elt F)),
    nullary main_c_18 (constantI S_ 32 262144#32),
    TRef.unary (.of main_c_18 : StableHlo.TRef sig ⟨S_, .i32⟩) main_call5.v0 id,
    TRef.unary main_call5.v0 main_call5.v1 (broadcastInDim S2x120000 ![] bcast_S_S2x120000),
    TRef.ternary (.of main_v26 : StableHlo.TRef sig ⟨S2x120000, .i1⟩) (.of main_v95 : StableHlo.TRef sig ⟨S2x120000, .i32⟩) main_call5.v1 main_call5.v2 select,
    nullary main_v97 (iotaInDim S2 32 0),
    unary main_v97 main_v98 (broadcastInDim S2x1 ![0] bcast_S2_S2x1_0 : (⟨S2, .i32⟩ : BufTy).Contents (Elt F) → (⟨S2x1, .i32⟩ : BufTy).Contents (Elt F)) ]

/-- The buffers those operations write. -/
abbrev wH_W : List (Ref sig .tc) := [main_c_17, main_v93, main_v94, main_v95, main_c_18, main_call5_v0, main_call5_v1, main_v96, main_v97, main_v98]

theorem wH_sub : (wH : List (HloOp τ sig (Elt F))).Forall fun op => op.bufs ⊆ tcRefs τ sig :=
  ⟨nullary_bufs_sub .., unary_bufs_sub .., binary_bufs_sub .., binary_bufs_sub .., nullary_bufs_sub .., unary_bufs_sub .., unary_bufs_sub .., ternary_bufs_sub .., nullary_bufs_sub .., unary_bufs_sub ..⟩

/-- Operations 142 … 146 of @main. -/
abbrev wI : List (HloOp τ sig (Elt F)) :=
  [ nullary main_c_19 (constantI S_ 32 262145#32),
    unary main_c_19 main_v99 (broadcastInDim S2x1 ![] bcast_S_S2x1 : (⟨S_, .i32⟩ : BufTy).Contents (Elt F) → (⟨S2x1, .i32⟩ : BufTy).Contents (Elt F)),
    binary main_v98 main_v99 main_v100 (muli : (⟨S2x1, .i32⟩ : BufTy).Contents (Elt F) → (⟨S2x1, .i32⟩ : BufTy).Contents (Elt F) → (⟨S2x1, .i32⟩ : BufTy).Contents (Elt F)),
    unary main_v100 main_v101 (broadcastInDim S2x120000 ![0, 1] bcast_S2x1_S2x120000_0_1 : (⟨S2x1, .i32⟩ : BufTy).Contents (Elt F) → (⟨S2x120000, .i32⟩ : BufTy).Contents (Elt F)),
    binary main_v96 main_v101 main_v102 (addi : (⟨S2x120000, .i32⟩ : BufTy).Contents (Elt F) → (⟨S2x120000, .i32⟩ : BufTy).Contents (Elt F) → (⟨S2x120000, .i32⟩ : BufTy).Contents (Elt F)) ]

/-- The buffers those operations write. -/
abbrev wI_W : List (Ref sig .tc) := [main_c_19, main_v99, main_v100, main_v101, main_v102]

theorem wI_sub : (wI : List (HloOp τ sig (Elt F))).Forall fun op => op.bufs ⊆ tcRefs τ sig :=
  ⟨nullary_bufs_sub .., unary_bufs_sub .., binary_bufs_sub .., unary_bufs_sub .., binary_bufs_sub ..⟩

/-- Operations 147 … 168 of @main. -/
abbrev wJ : List (HloOp τ sig (Elt F)) :=
  [ reshape main_v102 main_v103 rfl shapeCasts_S2x120000_S240000,
    reshape main_v92 main_v104 rfl shapeCasts_S2x120000x256_S240000x256,
    nullary main_cst_20 (constant S_ .f32 0x00000000#32),
    unary main_cst_20 main_v105 (broadcastInDim S524290x256 ![] bcast_S_S524290x256 : (⟨S_, .f32⟩ : BufTy).Contents (Elt F) → (⟨S524290x256, .f32⟩ : BufTy).Contents (Elt F)),
    unary main_v103 main_v106 (broadcastInDim S240000x1 ![0] bcast_S240000_S240000x1_0 : (⟨S240000, .i32⟩ : BufTy).Contents (Elt F) → (⟨S240000x1, .i32⟩ : BufTy).Contents (Elt F)),
    ternary main_v105 main_v106 main_v104 main_v107 ((fun x i u => Host.scatterAdd scatter_S524290x256_S240000x1_S240000x256_1_0_0_1 x i u) : (⟨S524290x256, .f32⟩ : BufTy).Contents (Elt F) → (⟨S240000x1, .i32⟩ : BufTy).Contents (Elt F) → (⟨S240000x256, .f32⟩ : BufTy).Contents (Elt F) → (⟨S524290x256, .f32⟩ : BufTy).Contents (Elt F)),
    nullary main_cst_21 (constant S_ .f32 0x3F800000#32),
    unary main_cst_21 main_v108 (broadcastInDim S240000 ![] bcast_S_S240000 : (⟨S_, .f32⟩ : BufTy).Contents (Elt F) → (⟨S240000, .f32⟩ : BufTy).Contents (Elt F)),
    nullary main_cst_22 (constant S_ .f32 0x00000000#32),
    unary main_cst_22 main_v109 (broadcastInDim S524290 ![] bcast_S_S524290 : (⟨S_, .f32⟩ : BufTy).Contents (Elt F) → (⟨S524290, .f32⟩ : BufTy).Contents (Elt F)),
    unary main_v103 main_v110 (broadcastInDim S240000x1 ![0] bcast_S240000_S240000x1_0 : (⟨S240000, .i32⟩ : BufTy).Contents (Elt F) → (⟨S240000x1, .i32⟩ : BufTy).Contents (Elt F)),
    ternary main_v109 main_v110 main_v108 main_v111 ((fun x i u => Host.scatterAdd scatter_S524290_S240000x1_S240000_n_0_0_1 x i u) : (⟨S524290, .f32⟩ : BufTy).Contents (Elt F) → (⟨S240000x1, .i32⟩ : BufTy).Contents (Elt F) → (⟨S240000, .f32⟩ : BufTy).Contents (Elt F) → (⟨S524290, .f32⟩ : BufTy).Contents (Elt F)),
    unary main_v111 main_v112 (broadcastInDim S524290x1 ![0] bcast_S524290_S524290x1_0 : (⟨S524290, .f32⟩ : BufTy).Contents (Elt F) → (⟨S524290x1, .f32⟩ : BufTy).Contents (Elt F)),
    nullary main_cst_23 (constant S_ .f32 0x358637BD#32),
    unary main_cst_23 main_v113 (broadcastInDim S524290x1 ![] bcast_S_S524290x1 : (⟨S_, .f32⟩ : BufTy).Contents (Elt F) → (⟨S524290x1, .f32⟩ : BufTy).Contents (Elt F)),
    binary main_v112 main_v113 main_v114 (addf : (⟨S524290x1, .f32⟩ : BufTy).Contents (Elt F) → (⟨S524290x1, .f32⟩ : BufTy).Contents (Elt F) → (⟨S524290x1, .f32⟩ : BufTy).Contents (Elt F)),
    unary main_v114 main_v115 (broadcastInDim S524290x256 ![0, 1] bcast_S524290x1_S524290x256_0_1 : (⟨S524290x1, .f32⟩ : BufTy).Contents (Elt F) → (⟨S524290x256, .f32⟩ : BufTy).Contents (Elt F)),
    binary main_v107 main_v115 main_v116 (Host.divf : (⟨S524290x256, .f32⟩ : BufTy).Contents (Elt F) → (⟨S524290x256, .f32⟩ : BufTy).Contents (Elt F) → (⟨S524290x256, .f32⟩ : BufTy).Contents (Elt F)),
    reshape main_v116 main_v117 rfl shapeCasts_S524290x256_S2x262145x256,
    unary main_v117 main_v118 ((extractStridedSlice S2x262144x256 ![0, 0, 0] · slices_S2x262145x256_S2x262144x256_0_0_0) : (⟨S2x262145x256, .f32⟩ : BufTy).Contents (Elt F) → (⟨S2x262144x256, .f32⟩ : BufTy).Contents (Elt F)),
    reshape main_v118 main_v119 rfl shapeCasts_S2x262144x256_S2x512x512x256,
    unary main_v119 main_v120 ((transpose S2x256x512x512 [0, 3, 1, 2] · transposes_S2x512x512x256_S2x256x512x512_0_3_1_2) : (⟨S2x512x512x256, .f32⟩ : BufTy).Contents (Elt F) → (⟨S2x256x512x512, .f32⟩ : BufTy).Contents (Elt F)) ]

/-- The buffers those operations write. -/
abbrev wJ_W : List (Ref sig .tc) := [main_v103, main_v104, main_cst_20, main_v105, main_v106, main_v107, main_cst_21, main_v108, main_cst_22, main_v109, main_v110, main_v111, main_v112, main_cst_23, main_v113, main_v114, main_v115, main_v116, main_v117, main_v118, main_v119, main_v120]

theorem wJ_sub : (wJ : List (HloOp τ sig (Elt F))).Forall fun op => op.bufs ⊆ tcRefs τ sig :=
  ⟨reshape_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., unary_bufs_sub .., binary_bufs_sub .., reshape_bufs_sub .., unary_bufs_sub .., reshape_bufs_sub .., unary_bufs_sub ..⟩

/-- The operations of the three printed windows of @main. -/
abbrev ops0 : List (HloOp τ sig (Elt F)) := wA ++ (wB ++ (wC ++ wD))
abbrev ops1 : List (HloOp τ sig (Elt F)) := wE ++ (wE2 ++ (wF ++ (wG ++ wH)))
abbrev ops2 : List (HloOp τ sig (Elt F)) := wI ++ wJ
/-- @main's 168 operations, in order. -/
abbrev ops : List (HloOp τ sig (Elt F)) := ops0 ++ (ops1 ++ ops2)

set_option maxRecDepth 8192 in
set_option maxHeartbeats 4000000 in
theorem main_part0_eq (c : Dev nD) : main_part0 (F := F) c = seq ops0 := by
  simp only [main_part0, fn_trunc.body, fn_where.body, ops0, wA, wB, wC, wD, List.cons_append, List.nil_append, seq, bind_assoc, pure_bind]
  rfl

set_option maxRecDepth 8192 in
set_option maxHeartbeats 4000000 in
theorem main_part1_eq (c : Dev nD) : main_part1 (F := F) c = seq ops1 := by
  simp only [main_part1, fn_relu.body, fn_relu_0.body, fn_clip.body, fn_where_1.body, ops1, wE, wE2, wF, wG, wH, List.cons_append, List.nil_append, seq, bind_assoc, pure_bind]
  rfl

set_option maxRecDepth 8192 in
set_option maxHeartbeats 4000000 in
theorem main_part2_eq (c : Dev nD) : main_part2 (F := F) c = seq ops2 := by
  simp only [main_part2, ops2, wI, wJ, List.cons_append, List.nil_append, seq, bind_assoc, pure_bind]

/-- @main is the straight line of its operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h | h) | (h | h | h | h | h) | (h | h)
    exacts [List.forall_iff_forall_mem.mp wA_sub op h, List.forall_iff_forall_mem.mp wB_sub op h, List.forall_iff_forall_mem.mp wC_sub op h, List.forall_iff_forall_mem.mp wD_sub op h, List.forall_iff_forall_mem.mp wE_sub op h, List.forall_iff_forall_mem.mp wE2_sub op h, List.forall_iff_forall_mem.mp wF_sub op h, List.forall_iff_forall_mem.mp wG_sub op h, List.forall_iff_forall_mem.mp wH_sub op h, List.forall_iff_forall_mem.mp wI_sub op h, List.forall_iff_forall_mem.mp wJ_sub op h]

theorem ops_fresh : ∀ op ∈ (ops : List (HloOp τ sig (Elt F))), op.fresh = ∅ := by
  intro op h
  simp only [ops, ops0, ops1, ops2, List.mem_append] at h
  rcases h with (h | h | h | h) | (h | h | h | h | h) | (h | h) <;>
    ((repeat (cases h with | head => rfl | tail _ h => ?_)); exact nomatch h)

/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefWin1.lean ====
/- What each stretch of the reference program's operations leaves in the buffers later stretches read, as a term of
   what the stretch's own inputs held, from any contents. -/
import proofs.«118269_j50740743635700_2_alg».proof.Proof.RefDefs
import proofs.«118269_j50740743635700_2_alg».proof.Proof.RefOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Each operation of the window writes one of the window's listed buffers. -/
theorem wA_writes : (wA : List (HloOp τ sig (Elt F))).Forall fun op =>
    op.writes ⊆ (wA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wA_keep (W : Valuation τ sig (Elt F)) (r : Ref sig .tc) (h : r ∉ wA_W) :
    after wA W (Proc.devRef .tc r) = W (Proc.devRef .tc r) :=
  after_of_writes_sub wA _ wA_writes h

set_option maxHeartbeats 1700000 in
theorem wA_main_v1 (W : Valuation τ sig (Elt F)) :
    after wA W (no_index (Proc.devRef .tc main_v1)) = xR (W (Proc.devRef .tc main_arg0)) := by
  simp only [wA]
  after_results_simp <;> rfl

set_option maxHeartbeats 1700000 in
theorem wA_main_v3 (W : Valuation τ sig (Elt F)) :
    after wA W (no_index (Proc.devRef .tc main_v3)) = yR (W (Proc.devRef .tc main_arg0)) := by
  simp only [wA]
  after_results_simp <;> rfl

set_option maxHeartbeats 1700000 in
theorem wA_main_v9 (W : Valuation τ sig (Elt F)) :
    after wA W (no_index (Proc.devRef .tc main_v9)) = cellR (xR (W (Proc.devRef .tc main_arg0))) := by
  simp only [wA]
  after_results_simp <;> rfl

/-- Each operation of the window writes one of the window's listed buffers. -/
theorem wB_writes : (wB : List (HloOp τ sig (Elt F))).Forall fun op =>
    op.writes ⊆ (wB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wB_keep (W : Valuation τ sig (Elt F)) (r : Ref sig .tc) (h : r ∉ wB_W) :
    after wB W (Proc.devRef .tc r) = W (Proc.devRef .tc r) :=
  after_of_writes_sub wB _ wB_writes h

set_option maxHeartbeats 1300000 in
theorem wB_main_v15 (W : Valuation τ sig (Elt F)) :
    after wB W (no_index (Proc.devRef .tc main_v15)) = cellR (W (Proc.devRef .tc main_v3)) := by
  simp only [wB]
  after_results_simp <;> rfl

/-- Each operation of the window writes one of the window's listed buffers. -/
theorem wC_writes : (wC : List (HloOp τ sig (Elt F))).Forall fun op =>
    op.writes ⊆ (wC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wC_keep (W : Valuation τ sig (Elt F)) (r : Ref sig .tc) (h : r ∉ wC_W) :
    after wC W (Proc.devRef .tc r) = W (Proc.devRef .tc r) :=
  after_of_writes_sub wC _ wC_writes h

set_option maxHeartbeats 1500000 in
theorem wC_main_v26 (W : Valuation τ sig (Elt F)) :
    after wC W (no_index (Proc.devRef .tc main_v26)) = maskR (W (Proc.devRef .tc main_v9)) (W (Proc.devRef .tc main_v15)) := by
  simp only [wC]
  after_results_simp <;> rfl

/-- Each operation of the window writes one of the window's listed buffers. -/
theorem wD_writes : (wD : List (HloOp τ sig (Elt F))).Forall fun op =>
    op.writes ⊆ (wD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wD_keep (W : Valuation τ sig (Elt F)) (r : Ref sig .tc) (h : r ∉ wD_W) :
    after wD W (Proc.devRef .tc r) = W (Proc.devRef .tc r) :=
  after_of_writes_sub wD _ wD_writes h

set_option maxHeartbeats 2500000 in
theorem wD_main_v33 (W : Valuation τ sig (Elt F)) :
    after wD W (no_index (Proc.devRef .tc main_v33)) = ctrR (W (Proc.devRef .tc main_v9)) := by
  simp only [wD]
  after_results_simp <;> rfl

set_option maxHeartbeats 2500000 in
theorem wD_main_v40 (W : Valuation τ sig (Elt F)) :
    after wD W (no_index (Proc.devRef .tc main_v40)) = ctrR (W (Proc.devRef .tc main_v15)) := by
  simp only [wD]
  after_results_simp <;> rfl

set_option maxHeartbeats 2500000 in
theorem wD_main_v41 (W : Valuation τ sig (Elt F)) :
    after wD W (no_index (Proc.devRef .tc main_v41)) = splat2 (F := F) 0x00000000#32 := by
  simp only [wD]
  after_results_simp <;> rfl

set_option maxHeartbeats 2500000 in
theorem wD_main_v43 (W : Valuation τ sig (Elt F)) :
    after wD W (no_index (Proc.devRef .tc main_v43)) = subf (W (Proc.devRef .tc main_v3)) (ctrR (W (Proc.devRef .tc main_v15))) := by
  simp only [wD]
  after_results_simp <;> rfl

set_option maxHeartbeats 2500000 in
theorem wD_main_v44 (W : Valuation τ sig (Elt F)) :
    after wD W (no_index (Proc.devRef .tc main_v44)) = colR (subf (W (Proc.devRef .tc main_v1)) (ctrR (W (Proc.devRef .tc main_v9)))) := by
  simp only [wD]
  after_results_simp <;> rfl

end Cert.ReferenceIdeal.RefRun

end
-- ==== Proof.RefWin2.lean ====
/- What each stretch of the reference program's operations leaves in the buffers later stretches read, as a term of
   what the stretch's own inputs held, from any contents. -/
import proofs.«118269_j50740743635700_2_alg».proof.Proof.RefDefs
import proofs.«118269_j50740743635700_2_alg».proof.Proof.RefOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Each operation of the window writes one of the window's listed buffers. -/
theorem wE_writes : (wE : List (HloOp τ sig (Elt F))).Forall fun op =>
    op.writes ⊆ (wE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wE_keep (W : Valuation τ sig (Elt F)) (r : Ref sig .tc) (h : r ∉ wE_W) :
    after wE W (Proc.devRef .tc r) = W (Proc.devRef .tc r) :=
  after_of_writes_sub wE _ wE_writes h

set_option maxHeartbeats 500000 in
theorem wE_main_v45 (W : Valuation τ sig (Elt F)) :
    after wE W (no_index (Proc.devRef .tc main_v45)) = colR (W (Proc.devRef .tc main_v43)) := by
  simp only [wE]
  after_results_simp <;> rfl

set_option maxHeartbeats 500000 in
theorem wE_main_v46 (W : Valuation τ sig (Elt F)) :
    after wE W (no_index (Proc.devRef .tc main_v46)) = colR (W (Proc.devRef .tc main_v41)) := by
  simp only [wE]
  after_results_simp <;> rfl

set_option maxHeartbeats 500000 in
theorem wE_main_v47 (W : Valuation τ sig (Elt F)) :
    after wE W (no_index (Proc.devRef .tc main_v47)) = colR (W (Proc.devRef .tc main_v33)) := by
  simp only [wE]
  after_results_simp <;> rfl

set_option maxHeartbeats 500000 in
theorem wE_main_v48 (W : Valuation τ sig (Elt F)) :
    after wE W (no_index (Proc.devRef .tc main_v48)) = colR (W (Proc.devRef .tc main_v40)) := by
  simp only [wE]
  after_results_simp <;> rfl

set_option maxHeartbeats 500000 in
theorem wE_main_v49 (W : Valuation τ sig (Elt F)) :
    after wE W (no_index (Proc.devRef .tc main_v49)) = colR (W (Proc.devRef .tc main_v41)) := by
  simp only [wE]
  after_results_simp <;> rfl

/-- Each operation of the window writes one of the window's listed buffers. -/
theorem wE2_writes : (wE2 : List (HloOp τ sig (Elt F))).Forall fun op =>
    op.writes ⊆ (wE2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wE2_keep (W : Valuation τ sig (Elt F)) (r : Ref sig .tc) (h : r ∉ wE2_W) :
    after wE2 W (Proc.devRef .tc r) = W (Proc.devRef .tc r) :=
  after_of_writes_sub wE2 _ wE2_writes h

set_option maxHeartbeats 400000 in
theorem wE2_main_v51 (W : Valuation τ sig (Elt F)) :
    after wE2 W (no_index (Proc.devRef .tc main_v51)) = aug10 (W (Proc.devRef .tc main_arg0)) (aug6 (W (Proc.devRef .tc main_v44)) (W (Proc.devRef .tc main_v45)) (W (Proc.devRef .tc main_v46)) (W (Proc.devRef .tc main_v47)) (W (Proc.devRef .tc main_v48)) (W (Proc.devRef .tc main_v49))) := by
  simp only [wE2]
  after_results_simp <;> rfl

/-- Each operation of the window writes one of the window's listed buffers. -/
theorem wF_writes : (wF : List (HloOp τ sig (Elt F))).Forall fun op =>
    op.writes ⊆ (wF_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wF_keep (W : Valuation τ sig (Elt F)) (r : Ref sig .tc) (h : r ∉ wF_W) :
    after wF W (Proc.devRef .tc r) = W (Proc.devRef .tc r) :=
  after_of_writes_sub wF _ wF_writes h

set_option maxHeartbeats 2300000 in
theorem wF_main_v71 (W : Valuation τ sig (Elt F)) :
    after wF W (no_index (Proc.devRef .tc main_v71)) = hidR (W (Proc.devRef .tc main_v51)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [wF]
  after_results_simp <;> rfl

/-- Each operation of the window writes one of the window's listed buffers. -/
theorem wG_writes : (wG : List (HloOp τ sig (Elt F))).Forall fun op =>
    op.writes ⊆ (wG_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wG_keep (W : Valuation τ sig (Elt F)) (r : Ref sig .tc) (h : r ∉ wG_W) :
    after wG W (Proc.devRef .tc r) = W (Proc.devRef .tc r) :=
  after_of_writes_sub wG _ wG_writes h

set_option maxHeartbeats 3100000 in
theorem wG_main_v92 (W : Valuation τ sig (Elt F)) :
    after wG W (no_index (Proc.devRef .tc main_v92)) = outR (W (Proc.devRef .tc main_v71)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  simp only [wG]
  after_results_simp <;> rfl

/-- Each operation of the window writes one of the window's listed buffers. -/
theorem wH_writes : (wH : List (HloOp τ sig (Elt F))).Forall fun op =>
    op.writes ⊆ (wH_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wH_keep (W : Valuation τ sig (Elt F)) (r : Ref sig .tc) (h : r ∉ wH_W) :
    after wH W (Proc.devRef .tc r) = W (Proc.devRef .tc r) :=
  after_of_writes_sub wH _ wH_writes h

set_option maxHeartbeats 1000000 in
theorem wH_main_v96 (W : Valuation τ sig (Elt F)) :
    after wH W (no_index (Proc.devRef .tc main_v96)) = idxR (W (Proc.devRef .tc main_v26)) (W (Proc.devRef .tc main_v15)) (W (Proc.devRef .tc main_v9)) := by
  simp only [wH]
  after_results_simp <;> rfl

set_option maxHeartbeats 1000000 in
theorem wH_main_v98 (W : Valuation τ sig (Elt F)) :
    after wH W (no_index (Proc.devRef .tc main_v98)) = iotaColR := by
  simp only [wH]
  after_results_simp <;> rfl

end Cert.ReferenceIdeal.RefRun

end
-- ==== Proof.RefWin3.lean ====
/- What each stretch of the reference program's operations leaves in the buffers later stretches read, as a term of
   what the stretch's own inputs held, from any contents. -/
import proofs.«118269_j50740743635700_2_alg».proof.Proof.RefDefs
import proofs.«118269_j50740743635700_2_alg».proof.Proof.RefOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Each operation of the window writes one of the window's listed buffers. -/
theorem wI_writes : (wI : List (HloOp τ sig (Elt F))).Forall fun op =>
    op.writes ⊆ (wI_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wI_keep (W : Valuation τ sig (Elt F)) (r : Ref sig .tc) (h : r ∉ wI_W) :
    after wI W (Proc.devRef .tc r) = W (Proc.devRef .tc r) :=
  after_of_writes_sub wI _ wI_writes h

set_option maxHeartbeats 500000 in
theorem wI_main_v102 (W : Valuation τ sig (Elt F)) :
    after wI W (no_index (Proc.devRef .tc main_v102)) = segOf (W (Proc.devRef .tc main_v96)) (W (Proc.devRef .tc main_v98)) := by
  simp only [wI]
  after_results_simp <;> rfl

/-- Each operation of the window writes one of the window's listed buffers. -/
theorem wJ_writes : (wJ : List (HloOp τ sig (Elt F))).Forall fun op =>
    op.writes ⊆ (wJ_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem wJ_keep (W : Valuation τ sig (Elt F)) (r : Ref sig .tc) (h : r ∉ wJ_W) :
    after wJ W (Proc.devRef .tc r) = W (Proc.devRef .tc r) :=
  after_of_writes_sub wJ _ wJ_writes h

set_option maxHeartbeats 2200000 in
theorem wJ_main_v120 (W : Valuation τ sig (Elt F)) :
    after wJ W (no_index (Proc.devRef .tc main_v120)) = tailR (W (Proc.devRef .tc main_v92)) (W (Proc.devRef .tc main_v102)) := by
  simp only [wJ]
  after_results_simp <;> rfl

end Cert.ReferenceIdeal.RefRun

end
-- ==== Proof.RefVals.lean ====
/- The buffer contents after each stretch of the reference program's operations, from any launch contents: every
   buffer a later stretch reads, and the result, as a composed term of the thirteen arguments; the arguments unchanged. -/
import proofs.«118269_j50740743635700_2_alg».proof.Proof.RefWin1
import proofs.«118269_j50740743635700_2_alg».proof.Proof.RefWin2
import proofs.«118269_j50740743635700_2_alg».proof.Proof.RefWin3

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Two lists of operations run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents before the first operation. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl
theorem val0_main_arg7 (V0 : Valuation τ sig (Elt F)) : val0 V0 (no_index (Proc.devRef .tc main_arg7)) = (V0 (Proc.devRef .tc main_arg7)) := rfl
theorem val0_main_arg8 (V0 : Valuation τ sig (Elt F)) : val0 V0 (no_index (Proc.devRef .tc main_arg8)) = (V0 (Proc.devRef .tc main_arg8)) := rfl
theorem val0_main_arg9 (V0 : Valuation τ sig (Elt F)) : val0 V0 (no_index (Proc.devRef .tc main_arg9)) = (V0 (Proc.devRef .tc main_arg9)) := rfl
theorem val0_main_arg10 (V0 : Valuation τ sig (Elt F)) : val0 V0 (no_index (Proc.devRef .tc main_arg10)) = (V0 (Proc.devRef .tc main_arg10)) := rfl
theorem val0_main_arg11 (V0 : Valuation τ sig (Elt F)) : val0 V0 (no_index (Proc.devRef .tc main_arg11)) = (V0 (Proc.devRef .tc main_arg11)) := rfl
theorem val0_main_arg12 (V0 : Valuation τ sig (Elt F)) : val0 V0 (no_index (Proc.devRef .tc main_arg12)) = (V0 (Proc.devRef .tc main_arg12)) := rfl

/-- The contents after the first 1 stretch. -/
def val1 (V0 : Valuation τ sig (Elt F)) : Valuation τ sig (Elt F) := after wA (val0 V0)
theorem val1_main_arg0 (V0 : Valuation τ sig (Elt F)) : val1 V0 (no_index (Proc.devRef .tc main_arg0)) = (V0 (Proc.devRef .tc main_arg0)) :=
  (wA_keep (val0 V0) main_arg0 (by decide)).trans (val0_main_arg0 V0)
theorem val1_main_arg1 (V0 : Valuation τ sig (Elt F)) : val1 V0 (no_index (Proc.devRef .tc main_arg1)) = (V0 (Proc.devRef .tc main_arg1)) :=
  (wA_keep (val0 V0) main_arg1 (by decide)).trans (val0_main_arg1 V0)
theorem val1_main_arg2 (V0 : Valuation τ sig (Elt F)) : val1 V0 (no_index (Proc.devRef .tc main_arg2)) = (V0 (Proc.devRef .tc main_arg2)) :=
  (wA_keep (val0 V0) main_arg2 (by decide)).trans (val0_main_arg2 V0)
theorem val1_main_arg3 (V0 : Valuation τ sig (Elt F)) : val1 V0 (no_index (Proc.devRef .tc main_arg3)) = (V0 (Proc.devRef .tc main_arg3)) :=
  (wA_keep (val0 V0) main_arg3 (by decide)).trans (val0_main_arg3 V0)
theorem val1_main_arg4 (V0 : Valuation τ sig (Elt F)) : val1 V0 (no_index (Proc.devRef .tc main_arg4)) = (V0 (Proc.devRef .tc main_arg4)) :=
  (wA_keep (val0 V0) main_arg4 (by decide)).trans (val0_main_arg4 V0)
theorem val1_main_arg5 (V0 : Valuation τ sig (Elt F)) : val1 V0 (no_index (Proc.devRef .tc main_arg5)) = (V0 (Proc.devRef .tc main_arg5)) :=
  (wA_keep (val0 V0) main_arg5 (by decide)).trans (val0_main_arg5 V0)
theorem val1_main_arg6 (V0 : Valuation τ sig (Elt F)) : val1 V0 (no_index (Proc.devRef .tc main_arg6)) = (V0 (Proc.devRef .tc main_arg6)) :=
  (wA_keep (val0 V0) main_arg6 (by decide)).trans (val0_main_arg6 V0)
theorem val1_main_arg7 (V0 : Valuation τ sig (Elt F)) : val1 V0 (no_index (Proc.devRef .tc main_arg7)) = (V0 (Proc.devRef .tc main_arg7)) :=
  (wA_keep (val0 V0) main_arg7 (by decide)).trans (val0_main_arg7 V0)
theorem val1_main_arg8 (V0 : Valuation τ sig (Elt F)) : val1 V0 (no_index (Proc.devRef .tc main_arg8)) = (V0 (Proc.devRef .tc main_arg8)) :=
  (wA_keep (val0 V0) main_arg8 (by decide)).trans (val0_main_arg8 V0)
theorem val1_main_arg9 (V0 : Valuation τ sig (Elt F)) : val1 V0 (no_index (Proc.devRef .tc main_arg9)) = (V0 (Proc.devRef .tc main_arg9)) :=
  (wA_keep (val0 V0) main_arg9 (by decide)).trans (val0_main_arg9 V0)
theorem val1_main_arg10 (V0 : Valuation τ sig (Elt F)) : val1 V0 (no_index (Proc.devRef .tc main_arg10)) = (V0 (Proc.devRef .tc main_arg10)) :=
  (wA_keep (val0 V0) main_arg10 (by decide)).trans (val0_main_arg10 V0)
theorem val1_main_arg11 (V0 : Valuation τ sig (Elt F)) : val1 V0 (no_index (Proc.devRef .tc main_arg11)) = (V0 (Proc.devRef .tc main_arg11)) :=
  (wA_keep (val0 V0) main_arg11 (by decide)).trans (val0_main_arg11 V0)
theorem val1_main_arg12 (V0 : Valuation τ sig (Elt F)) : val1 V0 (no_index (Proc.devRef .tc main_arg12)) = (V0 (Proc.devRef .tc main_arg12)) :=
  (wA_keep (val0 V0) main_arg12 (by decide)).trans (val0_main_arg12 V0)
theorem val1_main_v1 (V0 : Valuation τ sig (Elt F)) : val1 V0 (no_index (Proc.devRef .tc main_v1)) = xR (V0 (Proc.devRef .tc main_arg0)) :=
  (wA_main_v1 (val0 V0)).trans (by simp only [val0_main_arg0] <;> rfl)
theorem val1_main_v3 (V0 : Valuation τ sig (Elt F)) : val1 V0 (no_index (Proc.devRef .tc main_v3)) = yR (V0 (Proc.devRef .tc main_arg0)) :=
  (wA_main_v3 (val0 V0)).trans (by simp only [val0_main_arg0] <;> rfl)
theorem val1_main_v9 (V0 : Valuation τ sig (Elt F)) : val1 V0 (no_index (Proc.devRef .tc main_v9)) = cellR (xR (V0 (Proc.devRef .tc main_arg0))) :=
  (wA_main_v9 (val0 V0)).trans (by simp only [val0_main_arg0] <;> rfl)

/-- The contents after the first 2 stretches. -/
def val2 (V0 : Valuation τ sig (Elt F)) : Valuation τ sig (Elt F) := after wB (val1 V0)
theorem val2_main_arg0 (V0 : Valuation τ sig (Elt F)) : val2 V0 (no_index (Proc.devRef .tc main_arg0)) = (V0 (Proc.devRef .tc main_arg0)) :=
  (wB_keep (val1 V0) main_arg0 (by decide)).trans (val1_main_arg0 V0)
theorem val2_main_arg1 (V0 : Valuation τ sig (Elt F)) : val2 V0 (no_index (Proc.devRef .tc main_arg1)) = (V0 (Proc.devRef .tc main_arg1)) :=
  (wB_keep (val1 V0) main_arg1 (by decide)).trans (val1_main_arg1 V0)
theorem val2_main_arg2 (V0 : Valuation τ sig (Elt F)) : val2 V0 (no_index (Proc.devRef .tc main_arg2)) = (V0 (Proc.devRef .tc main_arg2)) :=
  (wB_keep (val1 V0) main_arg2 (by decide)).trans (val1_main_arg2 V0)
theorem val2_main_arg3 (V0 : Valuation τ sig (Elt F)) : val2 V0 (no_index (Proc.devRef .tc main_arg3)) = (V0 (Proc.devRef .tc main_arg3)) :=
  (wB_keep (val1 V0) main_arg3 (by decide)).trans (val1_main_arg3 V0)
theorem val2_main_arg4 (V0 : Valuation τ sig (Elt F)) : val2 V0 (no_index (Proc.devRef .tc main_arg4)) = (V0 (Proc.devRef .tc main_arg4)) :=
  (wB_keep (val1 V0) main_arg4 (by decide)).trans (val1_main_arg4 V0)
theorem val2_main_arg5 (V0 : Valuation τ sig (Elt F)) : val2 V0 (no_index (Proc.devRef .tc main_arg5)) = (V0 (Proc.devRef .tc main_arg5)) :=
  (wB_keep (val1 V0) main_arg5 (by decide)).trans (val1_main_arg5 V0)
theorem val2_main_arg6 (V0 : Valuation τ sig (Elt F)) : val2 V0 (no_index (Proc.devRef .tc main_arg6)) = (V0 (Proc.devRef .tc main_arg6)) :=
  (wB_keep (val1 V0) main_arg6 (by decide)).trans (val1_main_arg6 V0)
theorem val2_main_arg7 (V0 : Valuation τ sig (Elt F)) : val2 V0 (no_index (Proc.devRef .tc main_arg7)) = (V0 (Proc.devRef .tc main_arg7)) :=
  (wB_keep (val1 V0) main_arg7 (by decide)).trans (val1_main_arg7 V0)
theorem val2_main_arg8 (V0 : Valuation τ sig (Elt F)) : val2 V0 (no_index (Proc.devRef .tc main_arg8)) = (V0 (Proc.devRef .tc main_arg8)) :=
  (wB_keep (val1 V0) main_arg8 (by decide)).trans (val1_main_arg8 V0)
theorem val2_main_arg9 (V0 : Valuation τ sig (Elt F)) : val2 V0 (no_index (Proc.devRef .tc main_arg9)) = (V0 (Proc.devRef .tc main_arg9)) :=
  (wB_keep (val1 V0) main_arg9 (by decide)).trans (val1_main_arg9 V0)
theorem val2_main_arg10 (V0 : Valuation τ sig (Elt F)) : val2 V0 (no_index (Proc.devRef .tc main_arg10)) = (V0 (Proc.devRef .tc main_arg10)) :=
  (wB_keep (val1 V0) main_arg10 (by decide)).trans (val1_main_arg10 V0)
theorem val2_main_arg11 (V0 : Valuation τ sig (Elt F)) : val2 V0 (no_index (Proc.devRef .tc main_arg11)) = (V0 (Proc.devRef .tc main_arg11)) :=
  (wB_keep (val1 V0) main_arg11 (by decide)).trans (val1_main_arg11 V0)
theorem val2_main_arg12 (V0 : Valuation τ sig (Elt F)) : val2 V0 (no_index (Proc.devRef .tc main_arg12)) = (V0 (Proc.devRef .tc main_arg12)) :=
  (wB_keep (val1 V0) main_arg12 (by decide)).trans (val1_main_arg12 V0)
theorem val2_main_v1 (V0 : Valuation τ sig (Elt F)) : val2 V0 (no_index (Proc.devRef .tc main_v1)) = xR (V0 (Proc.devRef .tc main_arg0)) :=
  (wB_keep (val1 V0) main_v1 (by decide)).trans (val1_main_v1 V0)
theorem val2_main_v3 (V0 : Valuation τ sig (Elt F)) : val2 V0 (no_index (Proc.devRef .tc main_v3)) = yR (V0 (Proc.devRef .tc main_arg0)) :=
  (wB_keep (val1 V0) main_v3 (by decide)).trans (val1_main_v3 V0)
theorem val2_main_v9 (V0 : Valuation τ sig (Elt F)) : val2 V0 (no_index (Proc.devRef .tc main_v9)) = cellR (xR (V0 (Proc.devRef .tc main_arg0))) :=
  (wB_keep (val1 V0) main_v9 (by decide)).trans (val1_main_v9 V0)
theorem val2_main_v15 (V0 : Valuation τ sig (Elt F)) : val2 V0 (no_index (Proc.devRef .tc main_v15)) = cellR (yR (V0 (Proc.devRef .tc main_arg0))) :=
  (wB_main_v15 (val1 V0)).trans (by simp only [val1_main_v3] <;> rfl)

/-- The contents after the first 3 stretches. -/
def val3 (V0 : Valuation τ sig (Elt F)) : Valuation τ sig (Elt F) := after wC (val2 V0)
theorem val3_main_arg0 (V0 : Valuation τ sig (Elt F)) : val3 V0 (no_index (Proc.devRef .tc main_arg0)) = (V0 (Proc.devRef .tc main_arg0)) :=
  (wC_keep (val2 V0) main_arg0 (by decide)).trans (val2_main_arg0 V0)
theorem val3_main_arg1 (V0 : Valuation τ sig (Elt F)) : val3 V0 (no_index (Proc.devRef .tc main_arg1)) = (V0 (Proc.devRef .tc main_arg1)) :=
  (wC_keep (val2 V0) main_arg1 (by decide)).trans (val2_main_arg1 V0)
theorem val3_main_arg2 (V0 : Valuation τ sig (Elt F)) : val3 V0 (no_index (Proc.devRef .tc main_arg2)) = (V0 (Proc.devRef .tc main_arg2)) :=
  (wC_keep (val2 V0) main_arg2 (by decide)).trans (val2_main_arg2 V0)
theorem val3_main_arg3 (V0 : Valuation τ sig (Elt F)) : val3 V0 (no_index (Proc.devRef .tc main_arg3)) = (V0 (Proc.devRef .tc main_arg3)) :=
  (wC_keep (val2 V0) main_arg3 (by decide)).trans (val2_main_arg3 V0)
theorem val3_main_arg4 (V0 : Valuation τ sig (Elt F)) : val3 V0 (no_index (Proc.devRef .tc main_arg4)) = (V0 (Proc.devRef .tc main_arg4)) :=
  (wC_keep (val2 V0) main_arg4 (by decide)).trans (val2_main_arg4 V0)
theorem val3_main_arg5 (V0 : Valuation τ sig (Elt F)) : val3 V0 (no_index (Proc.devRef .tc main_arg5)) = (V0 (Proc.devRef .tc main_arg5)) :=
  (wC_keep (val2 V0) main_arg5 (by decide)).trans (val2_main_arg5 V0)
theorem val3_main_arg6 (V0 : Valuation τ sig (Elt F)) : val3 V0 (no_index (Proc.devRef .tc main_arg6)) = (V0 (Proc.devRef .tc main_arg6)) :=
  (wC_keep (val2 V0) main_arg6 (by decide)).trans (val2_main_arg6 V0)
theorem val3_main_arg7 (V0 : Valuation τ sig (Elt F)) : val3 V0 (no_index (Proc.devRef .tc main_arg7)) = (V0 (Proc.devRef .tc main_arg7)) :=
  (wC_keep (val2 V0) main_arg7 (by decide)).trans (val2_main_arg7 V0)
theorem val3_main_arg8 (V0 : Valuation τ sig (Elt F)) : val3 V0 (no_index (Proc.devRef .tc main_arg8)) = (V0 (Proc.devRef .tc main_arg8)) :=
  (wC_keep (val2 V0) main_arg8 (by decide)).trans (val2_main_arg8 V0)
theorem val3_main_arg9 (V0 : Valuation τ sig (Elt F)) : val3 V0 (no_index (Proc.devRef .tc main_arg9)) = (V0 (Proc.devRef .tc main_arg9)) :=
  (wC_keep (val2 V0) main_arg9 (by decide)).trans (val2_main_arg9 V0)
theorem val3_main_arg10 (V0 : Valuation τ sig (Elt F)) : val3 V0 (no_index (Proc.devRef .tc main_arg10)) = (V0 (Proc.devRef .tc main_arg10)) :=
  (wC_keep (val2 V0) main_arg10 (by decide)).trans (val2_main_arg10 V0)
theorem val3_main_arg11 (V0 : Valuation τ sig (Elt F)) : val3 V0 (no_index (Proc.devRef .tc main_arg11)) = (V0 (Proc.devRef .tc main_arg11)) :=
  (wC_keep (val2 V0) main_arg11 (by decide)).trans (val2_main_arg11 V0)
theorem val3_main_arg12 (V0 : Valuation τ sig (Elt F)) : val3 V0 (no_index (Proc.devRef .tc main_arg12)) = (V0 (Proc.devRef .tc main_arg12)) :=
  (wC_keep (val2 V0) main_arg12 (by decide)).trans (val2_main_arg12 V0)
theorem val3_main_v1 (V0 : Valuation τ sig (Elt F)) : val3 V0 (no_index (Proc.devRef .tc main_v1)) = xR (V0 (Proc.devRef .tc main_arg0)) :=
  (wC_keep (val2 V0) main_v1 (by decide)).trans (val2_main_v1 V0)
theorem val3_main_v3 (V0 : Valuation τ sig (Elt F)) : val3 V0 (no_index (Proc.devRef .tc main_v3)) = yR (V0 (Proc.devRef .tc main_arg0)) :=
  (wC_keep (val2 V0) main_v3 (by decide)).trans (val2_main_v3 V0)
theorem val3_main_v9 (V0 : Valuation τ sig (Elt F)) : val3 V0 (no_index (Proc.devRef .tc main_v9)) = cellR (xR (V0 (Proc.devRef .tc main_arg0))) :=
  (wC_keep (val2 V0) main_v9 (by decide)).trans (val2_main_v9 V0)
theorem val3_main_v15 (V0 : Valuation τ sig (Elt F)) : val3 V0 (no_index (Proc.devRef .tc main_v15)) = cellR (yR (V0 (Proc.devRef .tc main_arg0))) :=
  (wC_keep (val2 V0) main_v15 (by decide)).trans (val2_main_v15 V0)
theorem val3_main_v26 (V0 : Valuation τ sig (Elt F)) : val3 V0 (no_index (Proc.devRef .tc main_v26)) = maskR (cellR (xR (V0 (Proc.devRef .tc main_arg0)))) (cellR (yR (V0 (Proc.devRef .tc main_arg0)))) :=
  (wC_main_v26 (val2 V0)).trans (by simp only [val2_main_v9, val2_main_v15] <;> rfl)

/-- The contents after the first 4 stretches. -/
def val4 (V0 : Valuation τ sig (Elt F)) : Valuation τ sig (Elt F) := after wD (val3 V0)
theorem val4_main_arg0 (V0 : Valuation τ sig (Elt F)) : val4 V0 (no_index (Proc.devRef .tc main_arg0)) = (V0 (Proc.devRef .tc main_arg0)) :=
  (wD_keep (val3 V0) main_arg0 (by decide)).trans (val3_main_arg0 V0)
theorem val4_main_arg1 (V0 : Valuation τ sig (Elt F)) : val4 V0 (no_index (Proc.devRef .tc main_arg1)) = (V0 (Proc.devRef .tc main_arg1)) :=
  (wD_keep (val3 V0) main_arg1 (by decide)).trans (val3_main_arg1 V0)
theorem val4_main_arg2 (V0 : Valuation τ sig (Elt F)) : val4 V0 (no_index (Proc.devRef .tc main_arg2)) = (V0 (Proc.devRef .tc main_arg2)) :=
  (wD_keep (val3 V0) main_arg2 (by decide)).trans (val3_main_arg2 V0)
theorem val4_main_arg3 (V0 : Valuation τ sig (Elt F)) : val4 V0 (no_index (Proc.devRef .tc main_arg3)) = (V0 (Proc.devRef .tc main_arg3)) :=
  (wD_keep (val3 V0) main_arg3 (by decide)).trans (val3_main_arg3 V0)
theorem val4_main_arg4 (V0 : Valuation τ sig (Elt F)) : val4 V0 (no_index (Proc.devRef .tc main_arg4)) = (V0 (Proc.devRef .tc main_arg4)) :=
  (wD_keep (val3 V0) main_arg4 (by decide)).trans (val3_main_arg4 V0)
theorem val4_main_arg5 (V0 : Valuation τ sig (Elt F)) : val4 V0 (no_index (Proc.devRef .tc main_arg5)) = (V0 (Proc.devRef .tc main_arg5)) :=
  (wD_keep (val3 V0) main_arg5 (by decide)).trans (val3_main_arg5 V0)
theorem val4_main_arg6 (V0 : Valuation τ sig (Elt F)) : val4 V0 (no_index (Proc.devRef .tc main_arg6)) = (V0 (Proc.devRef .tc main_arg6)) :=
  (wD_keep (val3 V0) main_arg6 (by decide)).trans (val3_main_arg6 V0)
theorem val4_main_arg7 (V0 : Valuation τ sig (Elt F)) : val4 V0 (no_index (Proc.devRef .tc main_arg7)) = (V0 (Proc.devRef .tc main_arg7)) :=
  (wD_keep (val3 V0) main_arg7 (by decide)).trans (val3_main_arg7 V0)
theorem val4_main_arg8 (V0 : Valuation τ sig (Elt F)) : val4 V0 (no_index (Proc.devRef .tc main_arg8)) = (V0 (Proc.devRef .tc main_arg8)) :=
  (wD_keep (val3 V0) main_arg8 (by decide)).trans (val3_main_arg8 V0)
theorem val4_main_arg9 (V0 : Valuation τ sig (Elt F)) : val4 V0 (no_index (Proc.devRef .tc main_arg9)) = (V0 (Proc.devRef .tc main_arg9)) :=
  (wD_keep (val3 V0) main_arg9 (by decide)).trans (val3_main_arg9 V0)
theorem val4_main_arg10 (V0 : Valuation τ sig (Elt F)) : val4 V0 (no_index (Proc.devRef .tc main_arg10)) = (V0 (Proc.devRef .tc main_arg10)) :=
  (wD_keep (val3 V0) main_arg10 (by decide)).trans (val3_main_arg10 V0)
theorem val4_main_arg11 (V0 : Valuation τ sig (Elt F)) : val4 V0 (no_index (Proc.devRef .tc main_arg11)) = (V0 (Proc.devRef .tc main_arg11)) :=
  (wD_keep (val3 V0) main_arg11 (by decide)).trans (val3_main_arg11 V0)
theorem val4_main_arg12 (V0 : Valuation τ sig (Elt F)) : val4 V0 (no_index (Proc.devRef .tc main_arg12)) = (V0 (Proc.devRef .tc main_arg12)) :=
  (wD_keep (val3 V0) main_arg12 (by decide)).trans (val3_main_arg12 V0)
theorem val4_main_v9 (V0 : Valuation τ sig (Elt F)) : val4 V0 (no_index (Proc.devRef .tc main_v9)) = cellR (xR (V0 (Proc.devRef .tc main_arg0))) :=
  (wD_keep (val3 V0) main_v9 (by decide)).trans (val3_main_v9 V0)
theorem val4_main_v15 (V0 : Valuation τ sig (Elt F)) : val4 V0 (no_index (Proc.devRef .tc main_v15)) = cellR (yR (V0 (Proc.devRef .tc main_arg0))) :=
  (wD_keep (val3 V0) main_v15 (by decide)).trans (val3_main_v15 V0)
theorem val4_main_v26 (V0 : Valuation τ sig (Elt F)) : val4 V0 (no_index (Proc.devRef .tc main_v26)) = maskR (cellR (xR (V0 (Proc.devRef .tc main_arg0)))) (cellR (yR (V0 (Proc.devRef .tc main_arg0)))) :=
  (wD_keep (val3 V0) main_v26 (by decide)).trans (val3_main_v26 V0)
theorem val4_main_v33 (V0 : Valuation τ sig (Elt F)) : val4 V0 (no_index (Proc.devRef .tc main_v33)) = ctrR (cellR (xR (V0 (Proc.devRef .tc main_arg0)))) :=
  (wD_main_v33 (val3 V0)).trans (by simp only [val3_main_v9] <;> rfl)
theorem val4_main_v40 (V0 : Valuation τ sig (Elt F)) : val4 V0 (no_index (Proc.devRef .tc main_v40)) = ctrR (cellR (yR (V0 (Proc.devRef .tc main_arg0)))) :=
  (wD_main_v40 (val3 V0)).trans (by simp only [val3_main_v15] <;> rfl)
theorem val4_main_v41 (V0 : Valuation τ sig (Elt F)) : val4 V0 (no_index (Proc.devRef .tc main_v41)) = splat2 (F := F) 0x00000000#32 :=
  wD_main_v41 (val3 V0)
theorem val4_main_v43 (V0 : Valuation τ sig (Elt F)) : val4 V0 (no_index (Proc.devRef .tc main_v43)) = subf (yR (V0 (Proc.devRef .tc main_arg0))) (ctrR (cellR (yR (V0 (Proc.devRef .tc main_arg0))))) :=
  (wD_main_v43 (val3 V0)).trans (by simp only [val3_main_v3, val3_main_v15] <;> rfl)
theorem val4_main_v44 (V0 : Valuation τ sig (Elt F)) : val4 V0 (no_index (Proc.devRef .tc main_v44)) = colR (subf (xR (V0 (Proc.devRef .tc main_arg0))) (ctrR (cellR (xR (V0 (Proc.devRef .tc main_arg0)))))) :=
  (wD_main_v44 (val3 V0)).trans (by simp only [val3_main_v1, val3_main_v9] <;> rfl)

/-- The contents after the first 5 stretches. -/
def val5 (V0 : Valuation τ sig (Elt F)) : Valuation τ sig (Elt F) := after wE (val4 V0)
theorem val5_main_arg0 (V0 : Valuation τ sig (Elt F)) : val5 V0 (no_index (Proc.devRef .tc main_arg0)) = (V0 (Proc.devRef .tc main_arg0)) :=
  (wE_keep (val4 V0) main_arg0 (by decide)).trans (val4_main_arg0 V0)
theorem val5_main_arg1 (V0 : Valuation τ sig (Elt F)) : val5 V0 (no_index (Proc.devRef .tc main_arg1)) = (V0 (Proc.devRef .tc main_arg1)) :=
  (wE_keep (val4 V0) main_arg1 (by decide)).trans (val4_main_arg1 V0)
theorem val5_main_arg2 (V0 : Valuation τ sig (Elt F)) : val5 V0 (no_index (Proc.devRef .tc main_arg2)) = (V0 (Proc.devRef .tc main_arg2)) :=
  (wE_keep (val4 V0) main_arg2 (by decide)).trans (val4_main_arg2 V0)
theorem val5_main_arg3 (V0 : Valuation τ sig (Elt F)) : val5 V0 (no_index (Proc.devRef .tc main_arg3)) = (V0 (Proc.devRef .tc main_arg3)) :=
  (wE_keep (val4 V0) main_arg3 (by decide)).trans (val4_main_arg3 V0)
theorem val5_main_arg4 (V0 : Valuation τ sig (Elt F)) : val5 V0 (no_index (Proc.devRef .tc main_arg4)) = (V0 (Proc.devRef .tc main_arg4)) :=
  (wE_keep (val4 V0) main_arg4 (by decide)).trans (val4_main_arg4 V0)
theorem val5_main_arg5 (V0 : Valuation τ sig (Elt F)) : val5 V0 (no_index (Proc.devRef .tc main_arg5)) = (V0 (Proc.devRef .tc main_arg5)) :=
  (wE_keep (val4 V0) main_arg5 (by decide)).trans (val4_main_arg5 V0)
theorem val5_main_arg6 (V0 : Valuation τ sig (Elt F)) : val5 V0 (no_index (Proc.devRef .tc main_arg6)) = (V0 (Proc.devRef .tc main_arg6)) :=
  (wE_keep (val4 V0) main_arg6 (by decide)).trans (val4_main_arg6 V0)
theorem val5_main_arg7 (V0 : Valuation τ sig (Elt F)) : val5 V0 (no_index (Proc.devRef .tc main_arg7)) = (V0 (Proc.devRef .tc main_arg7)) :=
  (wE_keep (val4 V0) main_arg7 (by decide)).trans (val4_main_arg7 V0)
theorem val5_main_arg8 (V0 : Valuation τ sig (Elt F)) : val5 V0 (no_index (Proc.devRef .tc main_arg8)) = (V0 (Proc.devRef .tc main_arg8)) :=
  (wE_keep (val4 V0) main_arg8 (by decide)).trans (val4_main_arg8 V0)
theorem val5_main_arg9 (V0 : Valuation τ sig (Elt F)) : val5 V0 (no_index (Proc.devRef .tc main_arg9)) = (V0 (Proc.devRef .tc main_arg9)) :=
  (wE_keep (val4 V0) main_arg9 (by decide)).trans (val4_main_arg9 V0)
theorem val5_main_arg10 (V0 : Valuation τ sig (Elt F)) : val5 V0 (no_index (Proc.devRef .tc main_arg10)) = (V0 (Proc.devRef .tc main_arg10)) :=
  (wE_keep (val4 V0) main_arg10 (by decide)).trans (val4_main_arg10 V0)
theorem val5_main_arg11 (V0 : Valuation τ sig (Elt F)) : val5 V0 (no_index (Proc.devRef .tc main_arg11)) = (V0 (Proc.devRef .tc main_arg11)) :=
  (wE_keep (val4 V0) main_arg11 (by decide)).trans (val4_main_arg11 V0)
theorem val5_main_arg12 (V0 : Valuation τ sig (Elt F)) : val5 V0 (no_index (Proc.devRef .tc main_arg12)) = (V0 (Proc.devRef .tc main_arg12)) :=
  (wE_keep (val4 V0) main_arg12 (by decide)).trans (val4_main_arg12 V0)
theorem val5_main_v9 (V0 : Valuation τ sig (Elt F)) : val5 V0 (no_index (Proc.devRef .tc main_v9)) = cellR (xR (V0 (Proc.devRef .tc main_arg0))) :=
  (wE_keep (val4 V0) main_v9 (by decide)).trans (val4_main_v9 V0)
theorem val5_main_v15 (V0 : Valuation τ sig (Elt F)) : val5 V0 (no_index (Proc.devRef .tc main_v15)) = cellR (yR (V0 (Proc.devRef .tc main_arg0))) :=
  (wE_keep (val4 V0) main_v15 (by decide)).trans (val4_main_v15 V0)
theorem val5_main_v26 (V0 : Valuation τ sig (Elt F)) : val5 V0 (no_index (Proc.devRef .tc main_v26)) = maskR (cellR (xR (V0 (Proc.devRef .tc main_arg0)))) (cellR (yR (V0 (Proc.devRef .tc main_arg0)))) :=
  (wE_keep (val4 V0) main_v26 (by decide)).trans (val4_main_v26 V0)
theorem val5_main_v44 (V0 : Valuation τ sig (Elt F)) : val5 V0 (no_index (Proc.devRef .tc main_v44)) = colR (subf (xR (V0 (Proc.devRef .tc main_arg0))) (ctrR (cellR (xR (V0 (Proc.devRef .tc main_arg0)))))) :=
  (wE_keep (val4 V0) main_v44 (by decide)).trans (val4_main_v44 V0)
theorem val5_main_v45 (V0 : Valuation τ sig (Elt F)) : val5 V0 (no_index (Proc.devRef .tc main_v45)) = colR (subf (yR (V0 (Proc.devRef .tc main_arg0))) (ctrR (cellR (yR (V0 (Proc.devRef .tc main_arg0)))))) :=
  (wE_main_v45 (val4 V0)).trans (by simp only [val4_main_v43] <;> rfl)
theorem val5_main_v46 (V0 : Valuation τ sig (Elt F)) : val5 V0 (no_index (Proc.devRef .tc main_v46)) = colR (splat2 (F := F) 0x00000000#32) :=
  (wE_main_v46 (val4 V0)).trans (by simp only [val4_main_v41] <;> rfl)
theorem val5_main_v47 (V0 : Valuation τ sig (Elt F)) : val5 V0 (no_index (Proc.devRef .tc main_v47)) = colR (ctrR (cellR (xR (V0 (Proc.devRef .tc main_arg0))))) :=
  (wE_main_v47 (val4 V0)).trans (by simp only [val4_main_v33] <;> rfl)
theorem val5_main_v48 (V0 : Valuation τ sig (Elt F)) : val5 V0 (no_index (Proc.devRef .tc main_v48)) = colR (ctrR (cellR (yR (V0 (Proc.devRef .tc main_arg0))))) :=
  (wE_main_v48 (val4 V0)).trans (by simp only [val4_main_v40] <;> rfl)
theorem val5_main_v49 (V0 : Valuation τ sig (Elt F)) : val5 V0 (no_index (Proc.devRef .tc main_v49)) = colR (splat2 (F := F) 0x00000000#32) :=
  (wE_main_v49 (val4 V0)).trans (by simp only [val4_main_v41] <;> rfl)

/-- The contents after the first 6 stretches. -/
def val6 (V0 : Valuation τ sig (Elt F)) : Valuation τ sig (Elt F) := after wE2 (val5 V0)
theorem val6_main_arg0 (V0 : Valuation τ sig (Elt F)) : val6 V0 (no_index (Proc.devRef .tc main_arg0)) = (V0 (Proc.devRef .tc main_arg0)) :=
  (wE2_keep (val5 V0) main_arg0 (by decide)).trans (val5_main_arg0 V0)
theorem val6_main_arg1 (V0 : Valuation τ sig (Elt F)) : val6 V0 (no_index (Proc.devRef .tc main_arg1)) = (V0 (Proc.devRef .tc main_arg1)) :=
  (wE2_keep (val5 V0) main_arg1 (by decide)).trans (val5_main_arg1 V0)
theorem val6_main_arg2 (V0 : Valuation τ sig (Elt F)) : val6 V0 (no_index (Proc.devRef .tc main_arg2)) = (V0 (Proc.devRef .tc main_arg2)) :=
  (wE2_keep (val5 V0) main_arg2 (by decide)).trans (val5_main_arg2 V0)
theorem val6_main_arg3 (V0 : Valuation τ sig (Elt F)) : val6 V0 (no_index (Proc.devRef .tc main_arg3)) = (V0 (Proc.devRef .tc main_arg3)) :=
  (wE2_keep (val5 V0) main_arg3 (by decide)).trans (val5_main_arg3 V0)
theorem val6_main_arg4 (V0 : Valuation τ sig (Elt F)) : val6 V0 (no_index (Proc.devRef .tc main_arg4)) = (V0 (Proc.devRef .tc main_arg4)) :=
  (wE2_keep (val5 V0) main_arg4 (by decide)).trans (val5_main_arg4 V0)
theorem val6_main_arg5 (V0 : Valuation τ sig (Elt F)) : val6 V0 (no_index (Proc.devRef .tc main_arg5)) = (V0 (Proc.devRef .tc main_arg5)) :=
  (wE2_keep (val5 V0) main_arg5 (by decide)).trans (val5_main_arg5 V0)
theorem val6_main_arg6 (V0 : Valuation τ sig (Elt F)) : val6 V0 (no_index (Proc.devRef .tc main_arg6)) = (V0 (Proc.devRef .tc main_arg6)) :=
  (wE2_keep (val5 V0) main_arg6 (by decide)).trans (val5_main_arg6 V0)
theorem val6_main_arg7 (V0 : Valuation τ sig (Elt F)) : val6 V0 (no_index (Proc.devRef .tc main_arg7)) = (V0 (Proc.devRef .tc main_arg7)) :=
  (wE2_keep (val5 V0) main_arg7 (by decide)).trans (val5_main_arg7 V0)
theorem val6_main_arg8 (V0 : Valuation τ sig (Elt F)) : val6 V0 (no_index (Proc.devRef .tc main_arg8)) = (V0 (Proc.devRef .tc main_arg8)) :=
  (wE2_keep (val5 V0) main_arg8 (by decide)).trans (val5_main_arg8 V0)
theorem val6_main_arg9 (V0 : Valuation τ sig (Elt F)) : val6 V0 (no_index (Proc.devRef .tc main_arg9)) = (V0 (Proc.devRef .tc main_arg9)) :=
  (wE2_keep (val5 V0) main_arg9 (by decide)).trans (val5_main_arg9 V0)
theorem val6_main_arg10 (V0 : Valuation τ sig (Elt F)) : val6 V0 (no_index (Proc.devRef .tc main_arg10)) = (V0 (Proc.devRef .tc main_arg10)) :=
  (wE2_keep (val5 V0) main_arg10 (by decide)).trans (val5_main_arg10 V0)
theorem val6_main_arg11 (V0 : Valuation τ sig (Elt F)) : val6 V0 (no_index (Proc.devRef .tc main_arg11)) = (V0 (Proc.devRef .tc main_arg11)) :=
  (wE2_keep (val5 V0) main_arg11 (by decide)).trans (val5_main_arg11 V0)
theorem val6_main_arg12 (V0 : Valuation τ sig (Elt F)) : val6 V0 (no_index (Proc.devRef .tc main_arg12)) = (V0 (Proc.devRef .tc main_arg12)) :=
  (wE2_keep (val5 V0) main_arg12 (by decide)).trans (val5_main_arg12 V0)
theorem val6_main_v9 (V0 : Valuation τ sig (Elt F)) : val6 V0 (no_index (Proc.devRef .tc main_v9)) = cellR (xR (V0 (Proc.devRef .tc main_arg0))) :=
  (wE2_keep (val5 V0) main_v9 (by decide)).trans (val5_main_v9 V0)
theorem val6_main_v15 (V0 : Valuation τ sig (Elt F)) : val6 V0 (no_index (Proc.devRef .tc main_v15)) = cellR (yR (V0 (Proc.devRef .tc main_arg0))) :=
  (wE2_keep (val5 V0) main_v15 (by decide)).trans (val5_main_v15 V0)
theorem val6_main_v26 (V0 : Valuation τ sig (Elt F)) : val6 V0 (no_index (Proc.devRef .tc main_v26)) = maskR (cellR (xR (V0 (Proc.devRef .tc main_arg0)))) (cellR (yR (V0 (Proc.devRef .tc main_arg0)))) :=
  (wE2_keep (val5 V0) main_v26 (by decide)).trans (val5_main_v26 V0)
theorem val6_main_v51 (V0 : Valuation τ sig (Elt F)) : val6 V0 (no_index (Proc.devRef .tc main_v51)) = augR (V0 (Proc.devRef .tc main_arg0)) :=
  (wE2_main_v51 (val5 V0)).trans (by simp only [val5_main_arg0, val5_main_v44, val5_main_v45, val5_main_v46, val5_main_v47, val5_main_v48, val5_main_v49] <;> rfl)

/-- The contents after the first 7 stretches. -/
def val7 (V0 : Valuation τ sig (Elt F)) : Valuation τ sig (Elt F) := after wF (val6 V0)
theorem val7_main_arg0 (V0 : Valuation τ sig (Elt F)) : val7 V0 (no_index (Proc.devRef .tc main_arg0)) = (V0 (Proc.devRef .tc main_arg0)) :=
  (wF_keep (val6 V0) main_arg0 (by decide)).trans (val6_main_arg0 V0)
theorem val7_main_arg1 (V0 : Valuation τ sig (Elt F)) : val7 V0 (no_index (Proc.devRef .tc main_arg1)) = (V0 (Proc.devRef .tc main_arg1)) :=
  (wF_keep (val6 V0) main_arg1 (by decide)).trans (val6_main_arg1 V0)
theorem val7_main_arg2 (V0 : Valuation τ sig (Elt F)) : val7 V0 (no_index (Proc.devRef .tc main_arg2)) = (V0 (Proc.devRef .tc main_arg2)) :=
  (wF_keep (val6 V0) main_arg2 (by decide)).trans (val6_main_arg2 V0)
theorem val7_main_arg3 (V0 : Valuation τ sig (Elt F)) : val7 V0 (no_index (Proc.devRef .tc main_arg3)) = (V0 (Proc.devRef .tc main_arg3)) :=
  (wF_keep (val6 V0) main_arg3 (by decide)).trans (val6_main_arg3 V0)
theorem val7_main_arg4 (V0 : Valuation τ sig (Elt F)) : val7 V0 (no_index (Proc.devRef .tc main_arg4)) = (V0 (Proc.devRef .tc main_arg4)) :=
  (wF_keep (val6 V0) main_arg4 (by decide)).trans (val6_main_arg4 V0)
theorem val7_main_arg5 (V0 : Valuation τ sig (Elt F)) : val7 V0 (no_index (Proc.devRef .tc main_arg5)) = (V0 (Proc.devRef .tc main_arg5)) :=
  (wF_keep (val6 V0) main_arg5 (by decide)).trans (val6_main_arg5 V0)
theorem val7_main_arg6 (V0 : Valuation τ sig (Elt F)) : val7 V0 (no_index (Proc.devRef .tc main_arg6)) = (V0 (Proc.devRef .tc main_arg6)) :=
  (wF_keep (val6 V0) main_arg6 (by decide)).trans (val6_main_arg6 V0)
theorem val7_main_arg7 (V0 : Valuation τ sig (Elt F)) : val7 V0 (no_index (Proc.devRef .tc main_arg7)) = (V0 (Proc.devRef .tc main_arg7)) :=
  (wF_keep (val6 V0) main_arg7 (by decide)).trans (val6_main_arg7 V0)
theorem val7_main_arg8 (V0 : Valuation τ sig (Elt F)) : val7 V0 (no_index (Proc.devRef .tc main_arg8)) = (V0 (Proc.devRef .tc main_arg8)) :=
  (wF_keep (val6 V0) main_arg8 (by decide)).trans (val6_main_arg8 V0)
theorem val7_main_arg9 (V0 : Valuation τ sig (Elt F)) : val7 V0 (no_index (Proc.devRef .tc main_arg9)) = (V0 (Proc.devRef .tc main_arg9)) :=
  (wF_keep (val6 V0) main_arg9 (by decide)).trans (val6_main_arg9 V0)
theorem val7_main_arg10 (V0 : Valuation τ sig (Elt F)) : val7 V0 (no_index (Proc.devRef .tc main_arg10)) = (V0 (Proc.devRef .tc main_arg10)) :=
  (wF_keep (val6 V0) main_arg10 (by decide)).trans (val6_main_arg10 V0)
theorem val7_main_arg11 (V0 : Valuation τ sig (Elt F)) : val7 V0 (no_index (Proc.devRef .tc main_arg11)) = (V0 (Proc.devRef .tc main_arg11)) :=
  (wF_keep (val6 V0) main_arg11 (by decide)).trans (val6_main_arg11 V0)
theorem val7_main_arg12 (V0 : Valuation τ sig (Elt F)) : val7 V0 (no_index (Proc.devRef .tc main_arg12)) = (V0 (Proc.devRef .tc main_arg12)) :=
  (wF_keep (val6 V0) main_arg12 (by decide)).trans (val6_main_arg12 V0)
theorem val7_main_v9 (V0 : Valuation τ sig (Elt F)) : val7 V0 (no_index (Proc.devRef .tc main_v9)) = cellR (xR (V0 (Proc.devRef .tc main_arg0))) :=
  (wF_keep (val6 V0) main_v9 (by decide)).trans (val6_main_v9 V0)
theorem val7_main_v15 (V0 : Valuation τ sig (Elt F)) : val7 V0 (no_index (Proc.devRef .tc main_v15)) = cellR (yR (V0 (Proc.devRef .tc main_arg0))) :=
  (wF_keep (val6 V0) main_v15 (by decide)).trans (val6_main_v15 V0)
theorem val7_main_v26 (V0 : Valuation τ sig (Elt F)) : val7 V0 (no_index (Proc.devRef .tc main_v26)) = maskR (cellR (xR (V0 (Proc.devRef .tc main_arg0)))) (cellR (yR (V0 (Proc.devRef .tc main_arg0)))) :=
  (wF_keep (val6 V0) main_v26 (by decide)).trans (val6_main_v26 V0)
theorem val7_main_v71 (V0 : Valuation τ sig (Elt F)) : val7 V0 (no_index (Proc.devRef .tc main_v71)) = hidR (augR (V0 (Proc.devRef .tc main_arg0))) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (wF_main_v71 (val6 V0)).trans (by simp only [val6_main_v51, val6_main_arg1, val6_main_arg2, val6_main_arg3, val6_main_arg4, val6_main_arg5, val6_main_arg6] <;> rfl)

/-- The contents after the first 8 stretches. -/
def val8 (V0 : Valuation τ sig (Elt F)) : Valuation τ sig (Elt F) := after wG (val7 V0)
theorem val8_main_arg0 (V0 : Valuation τ sig (Elt F)) : val8 V0 (no_index (Proc.devRef .tc main_arg0)) = (V0 (Proc.devRef .tc main_arg0)) :=
  (wG_keep (val7 V0) main_arg0 (by decide)).trans (val7_main_arg0 V0)
theorem val8_main_arg1 (V0 : Valuation τ sig (Elt F)) : val8 V0 (no_index (Proc.devRef .tc main_arg1)) = (V0 (Proc.devRef .tc main_arg1)) :=
  (wG_keep (val7 V0) main_arg1 (by decide)).trans (val7_main_arg1 V0)
theorem val8_main_arg2 (V0 : Valuation τ sig (Elt F)) : val8 V0 (no_index (Proc.devRef .tc main_arg2)) = (V0 (Proc.devRef .tc main_arg2)) :=
  (wG_keep (val7 V0) main_arg2 (by decide)).trans (val7_main_arg2 V0)
theorem val8_main_arg3 (V0 : Valuation τ sig (Elt F)) : val8 V0 (no_index (Proc.devRef .tc main_arg3)) = (V0 (Proc.devRef .tc main_arg3)) :=
  (wG_keep (val7 V0) main_arg3 (by decide)).trans (val7_main_arg3 V0)
theorem val8_main_arg4 (V0 : Valuation τ sig (Elt F)) : val8 V0 (no_index (Proc.devRef .tc main_arg4)) = (V0 (Proc.devRef .tc main_arg4)) :=
  (wG_keep (val7 V0) main_arg4 (by decide)).trans (val7_main_arg4 V0)
theorem val8_main_arg5 (V0 : Valuation τ sig (Elt F)) : val8 V0 (no_index (Proc.devRef .tc main_arg5)) = (V0 (Proc.devRef .tc main_arg5)) :=
  (wG_keep (val7 V0) main_arg5 (by decide)).trans (val7_main_arg5 V0)
theorem val8_main_arg6 (V0 : Valuation τ sig (Elt F)) : val8 V0 (no_index (Proc.devRef .tc main_arg6)) = (V0 (Proc.devRef .tc main_arg6)) :=
  (wG_keep (val7 V0) main_arg6 (by decide)).trans (val7_main_arg6 V0)
theorem val8_main_arg7 (V0 : Valuation τ sig (Elt F)) : val8 V0 (no_index (Proc.devRef .tc main_arg7)) = (V0 (Proc.devRef .tc main_arg7)) :=
  (wG_keep (val7 V0) main_arg7 (by decide)).trans (val7_main_arg7 V0)
theorem val8_main_arg8 (V0 : Valuation τ sig (Elt F)) : val8 V0 (no_index (Proc.devRef .tc main_arg8)) = (V0 (Proc.devRef .tc main_arg8)) :=
  (wG_keep (val7 V0) main_arg8 (by decide)).trans (val7_main_arg8 V0)
theorem val8_main_arg9 (V0 : Valuation τ sig (Elt F)) : val8 V0 (no_index (Proc.devRef .tc main_arg9)) = (V0 (Proc.devRef .tc main_arg9)) :=
  (wG_keep (val7 V0) main_arg9 (by decide)).trans (val7_main_arg9 V0)
theorem val8_main_arg10 (V0 : Valuation τ sig (Elt F)) : val8 V0 (no_index (Proc.devRef .tc main_arg10)) = (V0 (Proc.devRef .tc main_arg10)) :=
  (wG_keep (val7 V0) main_arg10 (by decide)).trans (val7_main_arg10 V0)
theorem val8_main_arg11 (V0 : Valuation τ sig (Elt F)) : val8 V0 (no_index (Proc.devRef .tc main_arg11)) = (V0 (Proc.devRef .tc main_arg11)) :=
  (wG_keep (val7 V0) main_arg11 (by decide)).trans (val7_main_arg11 V0)
theorem val8_main_arg12 (V0 : Valuation τ sig (Elt F)) : val8 V0 (no_index (Proc.devRef .tc main_arg12)) = (V0 (Proc.devRef .tc main_arg12)) :=
  (wG_keep (val7 V0) main_arg12 (by decide)).trans (val7_main_arg12 V0)
theorem val8_main_v9 (V0 : Valuation τ sig (Elt F)) : val8 V0 (no_index (Proc.devRef .tc main_v9)) = cellR (xR (V0 (Proc.devRef .tc main_arg0))) :=
  (wG_keep (val7 V0) main_v9 (by decide)).trans (val7_main_v9 V0)
theorem val8_main_v15 (V0 : Valuation τ sig (Elt F)) : val8 V0 (no_index (Proc.devRef .tc main_v15)) = cellR (yR (V0 (Proc.devRef .tc main_arg0))) :=
  (wG_keep (val7 V0) main_v15 (by decide)).trans (val7_main_v15 V0)
theorem val8_main_v26 (V0 : Valuation τ sig (Elt F)) : val8 V0 (no_index (Proc.devRef .tc main_v26)) = maskR (cellR (xR (V0 (Proc.devRef .tc main_arg0)))) (cellR (yR (V0 (Proc.devRef .tc main_arg0)))) :=
  (wG_keep (val7 V0) main_v26 (by decide)).trans (val7_main_v26 V0)
theorem val8_main_v92 (V0 : Valuation τ sig (Elt F)) : val8 V0 (no_index (Proc.devRef .tc main_v92)) = featR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (wG_main_v92 (val7 V0)).trans (by simp only [val7_main_v71, val7_main_arg7, val7_main_arg8, val7_main_arg9, val7_main_arg10, val7_main_arg11, val7_main_arg12] <;> rfl)

/-- The contents after the first 9 stretches. -/
def val9 (V0 : Valuation τ sig (Elt F)) : Valuation τ sig (Elt F) := after wH (val8 V0)
theorem val9_main_arg0 (V0 : Valuation τ sig (Elt F)) : val9 V0 (no_index (Proc.devRef .tc main_arg0)) = (V0 (Proc.devRef .tc main_arg0)) :=
  (wH_keep (val8 V0) main_arg0 (by decide)).trans (val8_main_arg0 V0)
theorem val9_main_arg1 (V0 : Valuation τ sig (Elt F)) : val9 V0 (no_index (Proc.devRef .tc main_arg1)) = (V0 (Proc.devRef .tc main_arg1)) :=
  (wH_keep (val8 V0) main_arg1 (by decide)).trans (val8_main_arg1 V0)
theorem val9_main_arg2 (V0 : Valuation τ sig (Elt F)) : val9 V0 (no_index (Proc.devRef .tc main_arg2)) = (V0 (Proc.devRef .tc main_arg2)) :=
  (wH_keep (val8 V0) main_arg2 (by decide)).trans (val8_main_arg2 V0)
theorem val9_main_arg3 (V0 : Valuation τ sig (Elt F)) : val9 V0 (no_index (Proc.devRef .tc main_arg3)) = (V0 (Proc.devRef .tc main_arg3)) :=
  (wH_keep (val8 V0) main_arg3 (by decide)).trans (val8_main_arg3 V0)
theorem val9_main_arg4 (V0 : Valuation τ sig (Elt F)) : val9 V0 (no_index (Proc.devRef .tc main_arg4)) = (V0 (Proc.devRef .tc main_arg4)) :=
  (wH_keep (val8 V0) main_arg4 (by decide)).trans (val8_main_arg4 V0)
theorem val9_main_arg5 (V0 : Valuation τ sig (Elt F)) : val9 V0 (no_index (Proc.devRef .tc main_arg5)) = (V0 (Proc.devRef .tc main_arg5)) :=
  (wH_keep (val8 V0) main_arg5 (by decide)).trans (val8_main_arg5 V0)
theorem val9_main_arg6 (V0 : Valuation τ sig (Elt F)) : val9 V0 (no_index (Proc.devRef .tc main_arg6)) = (V0 (Proc.devRef .tc main_arg6)) :=
  (wH_keep (val8 V0) main_arg6 (by decide)).trans (val8_main_arg6 V0)
theorem val9_main_arg7 (V0 : Valuation τ sig (Elt F)) : val9 V0 (no_index (Proc.devRef .tc main_arg7)) = (V0 (Proc.devRef .tc main_arg7)) :=
  (wH_keep (val8 V0) main_arg7 (by decide)).trans (val8_main_arg7 V0)
theorem val9_main_arg8 (V0 : Valuation τ sig (Elt F)) : val9 V0 (no_index (Proc.devRef .tc main_arg8)) = (V0 (Proc.devRef .tc main_arg8)) :=
  (wH_keep (val8 V0) main_arg8 (by decide)).trans (val8_main_arg8 V0)
theorem val9_main_arg9 (V0 : Valuation τ sig (Elt F)) : val9 V0 (no_index (Proc.devRef .tc main_arg9)) = (V0 (Proc.devRef .tc main_arg9)) :=
  (wH_keep (val8 V0) main_arg9 (by decide)).trans (val8_main_arg9 V0)
theorem val9_main_arg10 (V0 : Valuation τ sig (Elt F)) : val9 V0 (no_index (Proc.devRef .tc main_arg10)) = (V0 (Proc.devRef .tc main_arg10)) :=
  (wH_keep (val8 V0) main_arg10 (by decide)).trans (val8_main_arg10 V0)
theorem val9_main_arg11 (V0 : Valuation τ sig (Elt F)) : val9 V0 (no_index (Proc.devRef .tc main_arg11)) = (V0 (Proc.devRef .tc main_arg11)) :=
  (wH_keep (val8 V0) main_arg11 (by decide)).trans (val8_main_arg11 V0)
theorem val9_main_arg12 (V0 : Valuation τ sig (Elt F)) : val9 V0 (no_index (Proc.devRef .tc main_arg12)) = (V0 (Proc.devRef .tc main_arg12)) :=
  (wH_keep (val8 V0) main_arg12 (by decide)).trans (val8_main_arg12 V0)
theorem val9_main_v92 (V0 : Valuation τ sig (Elt F)) : val9 V0 (no_index (Proc.devRef .tc main_v92)) = featR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (wH_keep (val8 V0) main_v92 (by decide)).trans (val8_main_v92 V0)
theorem val9_main_v96 (V0 : Valuation τ sig (Elt F)) : val9 V0 (no_index (Proc.devRef .tc main_v96)) = idxR (maskR (cellR (xR (V0 (Proc.devRef .tc main_arg0)))) (cellR (yR (V0 (Proc.devRef .tc main_arg0))))) (cellR (yR (V0 (Proc.devRef .tc main_arg0)))) (cellR (xR (V0 (Proc.devRef .tc main_arg0)))) :=
  (wH_main_v96 (val8 V0)).trans (by simp only [val8_main_v26, val8_main_v15, val8_main_v9] <;> rfl)
theorem val9_main_v98 (V0 : Valuation τ sig (Elt F)) : val9 V0 (no_index (Proc.devRef .tc main_v98)) = iotaColR :=
  wH_main_v98 (val8 V0)

/-- The contents after the first 10 stretches. -/
def val10 (V0 : Valuation τ sig (Elt F)) : Valuation τ sig (Elt F) := after wI (val9 V0)
theorem val10_main_arg0 (V0 : Valuation τ sig (Elt F)) : val10 V0 (no_index (Proc.devRef .tc main_arg0)) = (V0 (Proc.devRef .tc main_arg0)) :=
  (wI_keep (val9 V0) main_arg0 (by decide)).trans (val9_main_arg0 V0)
theorem val10_main_arg1 (V0 : Valuation τ sig (Elt F)) : val10 V0 (no_index (Proc.devRef .tc main_arg1)) = (V0 (Proc.devRef .tc main_arg1)) :=
  (wI_keep (val9 V0) main_arg1 (by decide)).trans (val9_main_arg1 V0)
theorem val10_main_arg2 (V0 : Valuation τ sig (Elt F)) : val10 V0 (no_index (Proc.devRef .tc main_arg2)) = (V0 (Proc.devRef .tc main_arg2)) :=
  (wI_keep (val9 V0) main_arg2 (by decide)).trans (val9_main_arg2 V0)
theorem val10_main_arg3 (V0 : Valuation τ sig (Elt F)) : val10 V0 (no_index (Proc.devRef .tc main_arg3)) = (V0 (Proc.devRef .tc main_arg3)) :=
  (wI_keep (val9 V0) main_arg3 (by decide)).trans (val9_main_arg3 V0)
theorem val10_main_arg4 (V0 : Valuation τ sig (Elt F)) : val10 V0 (no_index (Proc.devRef .tc main_arg4)) = (V0 (Proc.devRef .tc main_arg4)) :=
  (wI_keep (val9 V0) main_arg4 (by decide)).trans (val9_main_arg4 V0)
theorem val10_main_arg5 (V0 : Valuation τ sig (Elt F)) : val10 V0 (no_index (Proc.devRef .tc main_arg5)) = (V0 (Proc.devRef .tc main_arg5)) :=
  (wI_keep (val9 V0) main_arg5 (by decide)).trans (val9_main_arg5 V0)
theorem val10_main_arg6 (V0 : Valuation τ sig (Elt F)) : val10 V0 (no_index (Proc.devRef .tc main_arg6)) = (V0 (Proc.devRef .tc main_arg6)) :=
  (wI_keep (val9 V0) main_arg6 (by decide)).trans (val9_main_arg6 V0)
theorem val10_main_arg7 (V0 : Valuation τ sig (Elt F)) : val10 V0 (no_index (Proc.devRef .tc main_arg7)) = (V0 (Proc.devRef .tc main_arg7)) :=
  (wI_keep (val9 V0) main_arg7 (by decide)).trans (val9_main_arg7 V0)
theorem val10_main_arg8 (V0 : Valuation τ sig (Elt F)) : val10 V0 (no_index (Proc.devRef .tc main_arg8)) = (V0 (Proc.devRef .tc main_arg8)) :=
  (wI_keep (val9 V0) main_arg8 (by decide)).trans (val9_main_arg8 V0)
theorem val10_main_arg9 (V0 : Valuation τ sig (Elt F)) : val10 V0 (no_index (Proc.devRef .tc main_arg9)) = (V0 (Proc.devRef .tc main_arg9)) :=
  (wI_keep (val9 V0) main_arg9 (by decide)).trans (val9_main_arg9 V0)
theorem val10_main_arg10 (V0 : Valuation τ sig (Elt F)) : val10 V0 (no_index (Proc.devRef .tc main_arg10)) = (V0 (Proc.devRef .tc main_arg10)) :=
  (wI_keep (val9 V0) main_arg10 (by decide)).trans (val9_main_arg10 V0)
theorem val10_main_arg11 (V0 : Valuation τ sig (Elt F)) : val10 V0 (no_index (Proc.devRef .tc main_arg11)) = (V0 (Proc.devRef .tc main_arg11)) :=
  (wI_keep (val9 V0) main_arg11 (by decide)).trans (val9_main_arg11 V0)
theorem val10_main_arg12 (V0 : Valuation τ sig (Elt F)) : val10 V0 (no_index (Proc.devRef .tc main_arg12)) = (V0 (Proc.devRef .tc main_arg12)) :=
  (wI_keep (val9 V0) main_arg12 (by decide)).trans (val9_main_arg12 V0)
theorem val10_main_v92 (V0 : Valuation τ sig (Elt F)) : val10 V0 (no_index (Proc.devRef .tc main_v92)) = featR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (wI_keep (val9 V0) main_v92 (by decide)).trans (val9_main_v92 V0)
theorem val10_main_v102 (V0 : Valuation τ sig (Elt F)) : val10 V0 (no_index (Proc.devRef .tc main_v102)) = segR (V0 (Proc.devRef .tc main_arg0)) :=
  (wI_main_v102 (val9 V0)).trans (by simp only [val9_main_v96, val9_main_v98] <;> rfl)

/-- The contents after the first 11 stretches. -/
def val11 (V0 : Valuation τ sig (Elt F)) : Valuation τ sig (Elt F) := after wJ (val10 V0)
theorem val11_main_arg0 (V0 : Valuation τ sig (Elt F)) : val11 V0 (no_index (Proc.devRef .tc main_arg0)) = (V0 (Proc.devRef .tc main_arg0)) :=
  (wJ_keep (val10 V0) main_arg0 (by decide)).trans (val10_main_arg0 V0)
theorem val11_main_arg1 (V0 : Valuation τ sig (Elt F)) : val11 V0 (no_index (Proc.devRef .tc main_arg1)) = (V0 (Proc.devRef .tc main_arg1)) :=
  (wJ_keep (val10 V0) main_arg1 (by decide)).trans (val10_main_arg1 V0)
theorem val11_main_arg2 (V0 : Valuation τ sig (Elt F)) : val11 V0 (no_index (Proc.devRef .tc main_arg2)) = (V0 (Proc.devRef .tc main_arg2)) :=
  (wJ_keep (val10 V0) main_arg2 (by decide)).trans (val10_main_arg2 V0)
theorem val11_main_arg3 (V0 : Valuation τ sig (Elt F)) : val11 V0 (no_index (Proc.devRef .tc main_arg3)) = (V0 (Proc.devRef .tc main_arg3)) :=
  (wJ_keep (val10 V0) main_arg3 (by decide)).trans (val10_main_arg3 V0)
theorem val11_main_arg4 (V0 : Valuation τ sig (Elt F)) : val11 V0 (no_index (Proc.devRef .tc main_arg4)) = (V0 (Proc.devRef .tc main_arg4)) :=
  (wJ_keep (val10 V0) main_arg4 (by decide)).trans (val10_main_arg4 V0)
theorem val11_main_arg5 (V0 : Valuation τ sig (Elt F)) : val11 V0 (no_index (Proc.devRef .tc main_arg5)) = (V0 (Proc.devRef .tc main_arg5)) :=
  (wJ_keep (val10 V0) main_arg5 (by decide)).trans (val10_main_arg5 V0)
theorem val11_main_arg6 (V0 : Valuation τ sig (Elt F)) : val11 V0 (no_index (Proc.devRef .tc main_arg6)) = (V0 (Proc.devRef .tc main_arg6)) :=
  (wJ_keep (val10 V0) main_arg6 (by decide)).trans (val10_main_arg6 V0)
theorem val11_main_arg7 (V0 : Valuation τ sig (Elt F)) : val11 V0 (no_index (Proc.devRef .tc main_arg7)) = (V0 (Proc.devRef .tc main_arg7)) :=
  (wJ_keep (val10 V0) main_arg7 (by decide)).trans (val10_main_arg7 V0)
theorem val11_main_arg8 (V0 : Valuation τ sig (Elt F)) : val11 V0 (no_index (Proc.devRef .tc main_arg8)) = (V0 (Proc.devRef .tc main_arg8)) :=
  (wJ_keep (val10 V0) main_arg8 (by decide)).trans (val10_main_arg8 V0)
theorem val11_main_arg9 (V0 : Valuation τ sig (Elt F)) : val11 V0 (no_index (Proc.devRef .tc main_arg9)) = (V0 (Proc.devRef .tc main_arg9)) :=
  (wJ_keep (val10 V0) main_arg9 (by decide)).trans (val10_main_arg9 V0)
theorem val11_main_arg10 (V0 : Valuation τ sig (Elt F)) : val11 V0 (no_index (Proc.devRef .tc main_arg10)) = (V0 (Proc.devRef .tc main_arg10)) :=
  (wJ_keep (val10 V0) main_arg10 (by decide)).trans (val10_main_arg10 V0)
theorem val11_main_arg11 (V0 : Valuation τ sig (Elt F)) : val11 V0 (no_index (Proc.devRef .tc main_arg11)) = (V0 (Proc.devRef .tc main_arg11)) :=
  (wJ_keep (val10 V0) main_arg11 (by decide)).trans (val10_main_arg11 V0)
theorem val11_main_arg12 (V0 : Valuation τ sig (Elt F)) : val11 V0 (no_index (Proc.devRef .tc main_arg12)) = (V0 (Proc.devRef .tc main_arg12)) :=
  (wJ_keep (val10 V0) main_arg12 (by decide)).trans (val10_main_arg12 V0)
theorem val11_main_v120 (V0 : Valuation τ sig (Elt F)) : val11 V0 (no_index (Proc.devRef .tc main_v120)) = tailR (featR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))) (segR (V0 (Proc.devRef .tc main_arg0))) :=
  (wJ_main_v120 (val10 V0)).trans (by simp only [val10_main_v92, val10_main_v102] <;> rfl)

/-- The whole line of operations is the stretches in order. -/
theorem after_ops (V0 : Valuation τ sig (Elt F)) : after ops V0 = val11 V0 := by
  simp only [ops, ops0, ops1, ops2, after_app]
  rfl

end Cert.ReferenceIdeal.RefRun

end
-- ==== Proof.RefRun.lean ====
/- The reference program's run read back: every weakly fair execution terminates, the result buffer holds the composed
   pure term of the arguments' launch contents, and the arguments are unchanged. -/
import proofs.«118269_j50740743635700_2_alg».proof.Proof.RefVals
import Idealize.ShloMosaic.PureOps.Ideal

noncomputable section

namespace Cert.ReferenceIdeal.RefRun

open Cert.ReferenceIdeal Cert.ReferenceIdeal.Gen Idealize.ShloMosaic Idealize.SL.Sem Idealize.ShloMosaic.StableHlo

variable {F : FTy → Type} [FloatOps F]

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v120)
          = tailR (featR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
              (segR (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono
    (fun _ h c => ⟨(h c main_v120).trans (by rw [after_ops]; exact val11_main_v120 _),
      (h c main_arg0).trans (by rw [after_ops]; exact val11_main_arg0 _),
      (h c main_arg1).trans (by rw [after_ops]; exact val11_main_arg1 _),
      (h c main_arg2).trans (by rw [after_ops]; exact val11_main_arg2 _),
      (h c main_arg3).trans (by rw [after_ops]; exact val11_main_arg3 _),
      (h c main_arg4).trans (by rw [after_ops]; exact val11_main_arg4 _),
      (h c main_arg5).trans (by rw [after_ops]; exact val11_main_arg5 _),
      (h c main_arg6).trans (by rw [after_ops]; exact val11_main_arg6 _),
      (h c main_arg7).trans (by rw [after_ops]; exact val11_main_arg7 _),
      (h c main_arg8).trans (by rw [after_ops]; exact val11_main_arg8 _),
      (h c main_arg9).trans (by rw [after_ops]; exact val11_main_arg9 _),
      (h c main_arg10).trans (by rw [after_ops]; exact val11_main_arg10 _),
      (h c main_arg11).trans (by rw [after_ops]; exact val11_main_arg11 _),
      (h c main_arg12).trans (by rw [after_ops]; exact val11_main_arg12 _)⟩)
    (run_main (F := Ideal) m ρ)

end Cert.ReferenceIdeal.RefRun

end
-- ==== Proof.RefLayout.lean ====
/- Layout operations and the two-operand contraction of the reference function read at an index, in the forms its
   per-point value needs: a scalar splat, a trailing unit axis added or dropped, one column of the last axis, a vector
   laid along the last axis, a column repeated along a row, and a contraction of the last axes of a rank-3 and a rank-2
   array as a sum over the shared coordinate. -/
import Idealize.ShloMosaic.PureOps.Ideal.Laws
import Idealize.ShloMosaic.Lib.ValueIdx
import Idealize.ShloMosaic.Lib.Pipeline.Value

noncomputable section

namespace Cert.RefLayout

open Idealize.ShloMosaic Idealize.ShloMosaic.ValueIdx

variable {α : Type}

/-- A rank-zero array broadcast to any shape reads its one entry everywhere. -/
theorem bcast0_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- An [a, b, 1] array cast to [a, b] reads, at (p, q), the operand at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- Column `o` of the last axis of an [a, b, c] array, kept as an [a, b, 1] array. -/
theorem slice3_col_apply {a b c : ℕ} (o : Fin c) (x : (⟨3, ![a, b, c]⟩ : Shape).Idx → α)
    (h : (⟨3, ![a, b, c]⟩ : Shape).Slices ![0, 0, o.val] ⟨3, ![a, b, 1]⟩) (p : Fin a) (q : Fin b) (u : Fin 1) :
    extractStridedSlice ⟨3, ![a, b, 1]⟩ ![0, 0, o.val] x h (ix3 p q u) = x (ix3 p q o) := by
  refine extractStridedSlice_apply _ x h (ix3 p q u) (ix3 p q o) fun ax => ?_
  match ax with
  | ⟨0, _⟩ => show p.val = 0 + p.val; rw [Nat.zero_add]
  | ⟨1, _⟩ => show q.val = 0 + q.val; rw [Nat.zero_add]
  | ⟨2, _⟩ => show o.val = o.val + u.val; have := u.isLt; omega

/-- An [a, b] array given a trailing unit axis reads, at (p, q, u), the operand at (p, q). -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A [c] vector laid along the last axis of a [1, 1, c] array. -/
theorem bcast_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (r : Fin c) :
    broadcastInDim ⟨3, ![1, 1, c]⟩ ![2] h x (ix3 u v r) = x (ix1 r) := by
  refine broadcastInDim_apply _ h x (ix3 u v r) (ix1 r) fun ax => ?_
  match ax with
  | ⟨0, _⟩ =>
    show r.val = if c = 1 then 0 else r.val
    split
    · have := r.isLt; omega
    · rfl

/-- A [1, 1, c] array repeated over the two leading axes of an [a, b, c] array. -/
theorem bcast_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (r : Fin c) :
    broadcastInDim ⟨3, ![a, b, c]⟩ ![0, 1, 2] h x (ix3 p q r) = x (ix3 (0 : Fin 1) (0 : Fin 1) r) := by
  refine broadcastInDim_apply _ h x (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a] vector as an [a, 1] column. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An [a, 1] column repeated along the rows of an [a, b] array. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-! ## The contraction [B, N, K] · [M, K] → [B, N, M] over the shared last axis -/

/-- The dimension numbers of that contraction: the left operand's axis 2 against the right operand's axis 1, the left
    operand's axes 0 and 1 and the right operand's axis 0 kept, no batch axes. -/
structure IsRows {B N K M : ℕ} (D : DotDims ⟨3, ![B, N, K]⟩ ⟨2, ![M, K]⟩ ⟨3, ![B, N, M]⟩) : Prop where
  lc : D.lhsContracting = [2]
  rc : D.rhsContracting = [1]
  ln : D.lhsNonContracting = [0, 1]
  rn : D.rhsNonContracting = [0]
  lb : D.lhsBatch = []
  rb : D.rhsBatch = []

/-- The record, its lists spelt out. -/
abbrev mk {B N K M : ℕ} (wf : DotDims.WF ⟨3, ![B, N, K]⟩ ⟨2, ![M, K]⟩ ⟨3, ![B, N, M]⟩ [2] [1] [0, 1] [0] [] []) :
    DotDims ⟨3, ![B, N, K]⟩ ⟨2, ![M, K]⟩ ⟨3, ![B, N, M]⟩ := ⟨[2], [1], [0, 1], [0], [], [], wf⟩

section
variable {B N K M : ℕ} (wf : DotDims.WF ⟨3, ![B, N, K]⟩ ⟨2, ![M, K]⟩ ⟨3, ![B, N, M]⟩ [2] [1] [0, 1] [0] [] [])

theorem lhs0 (i : (⟨3, ![B, N, M]⟩ : Shape).Idx) (q : (mk wf).contr.Idx) : ((mk wf).lhsIdx i q 0).val = (i 0).val := by
  unfold DotDims.lhsIdx
  rw [dif_neg (show ¬(0 : Fin (Shape.rank ⟨3, ![B, N, K]⟩)) ∈ (mk wf).lhsBatch from fun h => nomatch h),
    dif_pos (show (0 : Fin (Shape.rank ⟨3, ![B, N, K]⟩)) ∈ (mk wf).lhsNonContracting from List.Mem.head _)]
  rfl

theorem lhs1 (i : (⟨3, ![B, N, M]⟩ : Shape).Idx) (q : (mk wf).contr.Idx) : ((mk wf).lhsIdx i q 1).val = (i 1).val := by
  unfold DotDims.lhsIdx
  rw [dif_neg (show ¬(1 : Fin (Shape.rank ⟨3, ![B, N, K]⟩)) ∈ (mk wf).lhsBatch from fun h => nomatch h),
    dif_pos (show (1 : Fin (Shape.rank ⟨3, ![B, N, K]⟩)) ∈ (mk wf).lhsNonContracting from List.Mem.tail _ (List.Mem.head _))]
  rfl

theorem lhs2 (i : (⟨3, ![B, N, M]⟩ : Shape).Idx) (q : (mk wf).contr.Idx) :
    ((mk wf).lhsIdx i q 2).val = (q ⟨0, Nat.one_pos⟩).val :=
  (mk wf).lhsIdx_val_of_single rfl i q

theorem rhs0 (i : (⟨3, ![B, N, M]⟩ : Shape).Idx) (q : (mk wf).contr.Idx) : ((mk wf).rhsIdx i q 0).val = (i 2).val := by
  unfold DotDims.rhsIdx
  rw [dif_neg (show ¬(0 : Fin (Shape.rank ⟨2, ![M, K]⟩)) ∈ (mk wf).rhsBatch from fun h => nomatch h),
    dif_pos (show (0 : Fin (Shape.rank ⟨2, ![M, K]⟩)) ∈ (mk wf).rhsNonContracting from List.Mem.head _)]
  rfl

theorem rhs1 (i : (⟨3, ![B, N, M]⟩ : Shape).Idx) (q : (mk wf).contr.Idx) :
    ((mk wf).rhsIdx i q 1).val = (q ⟨0, Nat.one_pos⟩).val :=
  (mk wf).rhsIdx_val_of_single rfl i q

/-- The contraction at (p, n, c), for the spelt-out record. -/
theorem sum_mk (x : (⟨3, ![B, N, K]⟩ : Shape).Idx → EReal) (y : (⟨2, ![M, K]⟩ : Shape).Idx → EReal) (p : Fin B) (n : Fin N) (c : Fin M) :
    ∑ k : (mk wf).contr.Idx, x ((mk wf).lhsIdx (ix3 p n c) k) * y ((mk wf).rhsIdx (ix3 p n c) k)
      = ∑ k : Fin K, x (ix3 p n k) * y (ix2 c k) := by
  rw [← Equiv.sum_comp (contrEquiv1 (mk wf) K rfl rfl).symm]
  refine Finset.sum_congr rfl fun k _ => ?_
  have hk := contrEquiv1_symm_val (mk wf) K rfl rfl k
  have el : (mk wf).lhsIdx (ix3 p n c) ((contrEquiv1 (mk wf) K rfl rfl).symm k) = ix3 p n k := funext fun ax => Fin.ext (by
    match ax with
    | ⟨0, _⟩ => exact lhs0 wf _ _
    | ⟨1, _⟩ => exact lhs1 wf _ _
    | ⟨2, _⟩ => exact (lhs2 wf _ _).trans hk)
  have er : (mk wf).rhsIdx (ix3 p n c) ((contrEquiv1 (mk wf) K rfl rfl).symm k) = ix2 c k := funext fun ax => Fin.ext (by
    match ax with
    | ⟨0, _⟩ => exact rhs0 wf _ _
    | ⟨1, _⟩ => exact (rhs1 wf _ _).trans hk)
  rw [el, er]

end

/-- The contraction at (p, n, c) is the sum over the shared axis's coordinate. -/
theorem sum_rows {B N K M : ℕ} (D : DotDims ⟨3, ![B, N, K]⟩ ⟨2, ![M, K]⟩ ⟨3, ![B, N, M]⟩) (h : IsRows D)
    (x : (⟨3, ![B, N, K]⟩ : Shape).Idx → EReal) (y : (⟨2, ![M, K]⟩ : Shape).Idx → EReal) (p : Fin B) (n : Fin N) (c : Fin M) :
    ∑ k : D.contr.Idx, x (D.lhsIdx (ix3 p n c) k) * y (D.rhsIdx (ix3 p n c) k) = ∑ k : Fin K, x (ix3 p n k) * y (ix2 c k) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p n c

/-- The host's contraction at an entry, whatever its schedule key. -/
theorem dotGeneral_rows_apply {B N K M : ℕ} {φ₁ φ₂ : FTy} (D : DotDims ⟨3, ![B, N, K]⟩ ⟨2, ![M, K]⟩ ⟨3, ![B, N, M]⟩) (h : IsRows D)
    (prec : Option ContractPrecision) (sched : HostSchedule) (x : FVec Ideal ⟨3, ![B, N, K]⟩ φ₁) (y : FVec Ideal ⟨2, ![M, K]⟩ φ₂)
    (p : Fin B) (n : Fin N) (c : Fin M) :
    FloatOps.dotGeneral D prec sched x y (ix3 p n c) = ∑ k : Fin K, x (ix3 p n k) * y (ix2 c k) :=
  (Ideal.dotGeneral_apply D prec sched x y (ix3 p n c)).trans (sum_rows D h x y p n c)

end Cert.RefLayout

end
-- ==== Proof.SpecFacts.lean ====
/- Facts about the specification's pieces that the two programs' comparison needs: truncating toward zero
   before the conversion to an integer changes nothing, since the conversion itself truncates toward zero. -/
import proofs.«118269_j50740743635700_2_alg».proof.Proof.Spec
import Idealize.ShloMosaic.PureOps.Ideal.Laws

noncomputable section

namespace Cert.Spec

open Idealize.ShloMosaic

/-- The clamped integer part of `z` rounded toward zero first — the ceiling below zero, the floor from zero up — is
    the clamped integer part of `z`. -/
theorem toIntClamped_trunc (lo hi : ℤ) (z : EReal) :
    Ideal.toIntClamped lo hi (if z < 0 then Ideal.liftRound Int.ceil z else Ideal.liftRound Int.floor z)
      = Ideal.toIntClamped lo hi z := by
  induction z using EReal.rec with
  | bot => rw [if_pos EReal.bot_lt_zero]; rfl
  | top => rw [if_neg (not_lt.mpr le_top)]; rfl
  | coe r =>
    by_cases h : r < 0
    · have h' : ((r : ℝ) : EReal) < 0 := by exact_mod_cast h
      rw [if_pos h', Ideal.liftRound_coe, Ideal.toIntClamped_coe, Ideal.toIntClamped_coe, if_neg (not_le.mpr h)]
      congr 2
      split <;> simp
    · have h' : ¬ ((r : ℝ) : EReal) < 0 := by exact_mod_cast h
      rw [if_neg h', Ideal.liftRound_coe, Ideal.toIntClamped_coe, Ideal.toIntClamped_coe, if_pos (not_lt.mp h)]
      congr 2
      split <;> simp

/-- The conversion to a signed integer after a truncation toward zero is the conversion. -/
theorem fptosi_trunc (w : ℕ) (z : EReal) :
    Ideal.fptosi w (if z < 0 then Ideal.liftRound Int.ceil z else Ideal.liftRound Int.floor z) = Ideal.fptosi w z := by
  unfold Ideal.fptosi
  rw [toIntClamped_trunc]

/-- The same with the truncation written as a select on the comparison with the f32 zero, as a host program
    writes it. -/
theorem fptosi_select_trunc (w : ℕ) (z : EReal) :
    Ideal.fptosi w (Scalar.select (Ideal.cmp .olt z (Ideal.ofBits .f32 0x00000000#32)) (Ideal.liftRound Int.ceil z)
      (Ideal.liftRound Int.floor z)) = Ideal.fptosi w z := by
  rw [← fptosi_trunc w z, Ideal.ofBits_zero_f32]
  refine congrArg _ ?_
  by_cases h : z < 0
  · rw [if_pos h]
    have : Ideal.cmp .olt z 0 = 1#1 := by simp [Ideal.cmp, h]
    rw [this]; rfl
  · rw [if_neg h]
    have : Ideal.cmp .olt z 0 = 0#1 := by simp [Ideal.cmp, h]
    rw [this]; rfl

end Cert.Spec

end
-- ==== Proof.RefSeg.lean ====
/- The reference's per-point integer side read at a point: the two coordinates, their grid cells (the rounding
   toward zero before the conversion is absorbed by the conversion), the cell centres, and the segment number,
   which is the specification's. -/
import proofs.«118269_j50740743635700_2_alg».proof.Proof.RefDefs
import proofs.«118269_j50740743635700_2_alg».proof.Proof.Spec
import proofs.«118269_j50740743635700_2_alg».proof.Proof.SpecFacts
import Idealize.ShloMosaic.Lib.Pipeline.Value
import Idealize.ShloMosaic.Lib.ValueIdx

noncomputable section

namespace Cert.ReferenceIdeal.RefRun

open Cert.ReferenceIdeal Cert.ReferenceIdeal.Gen Idealize.ShloMosaic Idealize.ShloMosaic.ValueIdx

/-- A `[2, 120000, 1]` column as a `[2, 120000]` array, at `(b, n)`. -/
theorem col3_apply {α : Type} (x : (⟨3, ![2, 120000, 1]⟩ : Shape).Idx → α)
    (h : (⟨3, ![2, 120000, 1]⟩ : Shape).ShapeCasts ⟨2, ![2, 120000]⟩) (b : Fin 2) (n : Fin 120000) :
    shapeCast ⟨2, ![2, 120000]⟩ x h (ix2 b n) = x (ix3 b n (0 : Fin 1)) :=
  shapeCast_apply x h _ _ (by
    rw [Shape.rowMajor_val_three, Shape.rowMajor_val_two]
    show (b.val * 120000 + n.val) * 1 + 0 = b.val * 120000 + n.val
    omega)

/-- The `x` coordinate of point `(b, n)`. -/
theorem xR_apply (p : (⟨S2x120000x4, .f32⟩ : BufTy).Contents (Elt Ideal)) (b : Fin 2) (n : Fin 120000) :
    xR (F := Ideal) p (ix2 b n) = p (ix3 b n 0) := by
  unfold xR
  refine (col3_apply _ _ b n).trans ?_
  exact extractStridedSlice_apply _ p _ (ix3 b n (0 : Fin 1)) (ix3 b n (0 : Fin 4)) (fun a => by
    match a with
    | ⟨0, _⟩ => exact (Nat.zero_add _).symm
    | ⟨1, _⟩ => exact (Nat.zero_add _).symm
    | ⟨2, _⟩ => rfl)

/-- The `y` coordinate of point `(b, n)`. -/
theorem yR_apply (p : (⟨S2x120000x4, .f32⟩ : BufTy).Contents (Elt Ideal)) (b : Fin 2) (n : Fin 120000) :
    yR (F := Ideal) p (ix2 b n) = p (ix3 b n 1) := by
  unfold yR
  refine (col3_apply _ _ b n).trans ?_
  exact extractStridedSlice_apply _ p _ (ix3 b n (0 : Fin 1)) (ix3 b n (1 : Fin 4)) (fun a => by
    match a with
    | ⟨0, _⟩ => exact (Nat.zero_add _).symm
    | ⟨1, _⟩ => exact (Nat.zero_add _).symm
    | ⟨2, _⟩ => rfl)

/-- The grid cell of a coordinate array at a point is the specification's cell of the coordinate. -/
theorem cellR_apply (x : (⟨S2x120000, .f32⟩ : BufTy).Contents (Elt Ideal)) (b : Fin 2) (n : Fin 120000) :
    cellR (F := Ideal) x (ix2 b n) = Cert.Spec.cell (x (ix2 b n)) := by
  unfold cellR Cert.Spec.cell
  show Ideal.fptosi 32 (Scalar.select
      (Ideal.cmp .olt (Ideal.div (x (ix2 b n) - Cert.Spec.cOrigin) Cert.Spec.cCell) (Ideal.ofBits .f32 0x00000000#32))
      (Ideal.liftRound Int.ceil (Ideal.div (x (ix2 b n) - Cert.Spec.cOrigin) Cert.Spec.cCell))
      (Ideal.liftRound Int.floor (Ideal.div (x (ix2 b n) - Cert.Spec.cOrigin) Cert.Spec.cCell)))
    = Ideal.fptosi 32 (Ideal.div (x (ix2 b n) - Cert.Spec.cOrigin) Cert.Spec.cCell)
  exact Cert.Spec.fptosi_select_trunc 32 _

/-- The centre of a cell array at a point is the specification's centre of the cell. -/
theorem ctrR_apply (g : IVec S2x120000 32) (b : Fin 2) (n : Fin 120000) :
    ctrR (F := Ideal) g (ix2 b n) = Cert.Spec.centre (g (ix2 b n)) := rfl

/-- The in-grid bit at a point. -/
theorem maskR_apply (gx gy : IVec S2x120000 32) (i : S2x120000.Idx) :
    maskR gx gy i = Cert.Spec.inGrid (gx i) (gy i) := rfl

/-- The pillar number at a point. -/
theorem idxR_apply (mask : IVec S2x120000 1) (gy gx : IVec S2x120000 32) (i : S2x120000.Idx) :
    idxR mask gy gx i = Scalar.select (mask i) (gy i * 512#32 + gx i) 262144#32 := rfl

/-- The batch entry's number, as a column, at row `b`. -/
theorem iotaColR_apply (b : Fin 2) : iotaColR (ix2 b (0 : Fin 1)) = BitVec.ofNat 32 b.val := by
  unfold iotaColR
  refine (broadcastInDim_apply _ _ _ (ix2 b (0 : Fin 1)) (ix1 b) (fun a => by
    match a with
    | ⟨0, _⟩ => rfl)).trans ?_
  rfl

/-- The segment number at a point: the pillar number plus the batch column's entry times 262145. -/
theorem segOf_apply (idx : IVec S2x120000 32) (io : IVec S2x1 32) (b : Fin 2) (n : Fin 120000) :
    segOf idx io (ix2 b n) = idx (ix2 b n) + io (ix2 b (0 : Fin 1)) * 262145#32 := by
  unfold segOf
  show idx (ix2 b n) + broadcastInDim S2x120000 ![0, 1] bcast_S2x1_S2x120000_0_1
      (muli io (broadcastInDim S2x1 ![] bcast_S_S2x1 (constantI S_ 32 262145#32))) (ix2 b n) = _
  refine congrArg (idx (ix2 b n) + ·) ?_
  refine (broadcastInDim_apply _ _ _ (ix2 b n) (ix2 b (0 : Fin 1)) (fun a => by
    match a with
    | ⟨0, _⟩ => rfl
    | ⟨1, _⟩ => rfl)).trans ?_
  rfl

/-- THE REFERENCE'S SEGMENT NUMBER of point `(b, n)` is the specification's. -/
theorem segR_apply (p : (⟨S2x120000x4, .f32⟩ : BufTy).Contents (Elt Ideal)) (b : Fin 2) (n : Fin 120000) :
    segR (F := Ideal) p (ix2 b n) = Cert.Spec.seg p b n := by
  unfold segR
  rw [segOf_apply, iotaColR_apply, idxR_apply, maskR_apply, cellR_apply, cellR_apply, xR_apply, yR_apply]
  rfl

end Cert.ReferenceIdeal.RefRun

end
-- ==== Proof.RefValue.lean ====
/- The reference function's clipped per-point features read at an index: the ten augmented features of a point, the two
   normalised layers as sums over their input features, and the clip, equal to the closed form of the specification. -/
import proofs.«118269_j50740743635700_2_alg».proof.Proof.RefDefs
import proofs.«118269_j50740743635700_2_alg».proof.Proof.RefLayout
import proofs.«118269_j50740743635700_2_alg».proof.Proof.RefSeg
import proofs.«118269_j50740743635700_2_alg».proof.Proof.Spec

noncomputable section

namespace Cert.ReferenceIdeal.RefRun

open Cert.ReferenceIdeal Cert.ReferenceIdeal.Gen Idealize.ShloMosaic Idealize.ShloMosaic.ValueIdx Cert.RefLayout

/-- A column array reads, at (b, n, ·), the array at (b, n). -/
theorem colR_apply (v : (⟨S2x120000, .f32⟩ : BufTy).Contents (Elt Ideal)) (b : Fin 2) (n : Fin 120000) (u : Fin 1) :
    colR (F := Ideal) v (ix3 b n u) = v (ix2 b n) :=
  bcast_ab_ab1_apply v _ b n u

/-- The offset of a point from its cell's centre along x. -/
theorem dx_apply (p : (⟨S2x120000x4, .f32⟩ : BufTy).Contents (Elt Ideal)) (b : Fin 2) (n : Fin 120000) :
    subf (F := Ideal) (φ := .f32) (xR (F := Ideal) p) (ctrR (F := Ideal) (cellR (F := Ideal) (xR (F := Ideal) p))) (ix2 b n) = p (ix3 b n 0) - Cert.Spec.centre (Cert.Spec.cell (p (ix3 b n 0))) := by
  show xR (F := Ideal) p (ix2 b n) - ctrR (F := Ideal) (cellR (F := Ideal) (xR (F := Ideal) p)) (ix2 b n) = _
  rw [ctrR_apply, cellR_apply, xR_apply]

/-- The offset of a point from its cell's centre along y. -/
theorem dy_apply (p : (⟨S2x120000x4, .f32⟩ : BufTy).Contents (Elt Ideal)) (b : Fin 2) (n : Fin 120000) :
    subf (F := Ideal) (φ := .f32) (yR (F := Ideal) p) (ctrR (F := Ideal) (cellR (F := Ideal) (yR (F := Ideal) p))) (ix2 b n) = p (ix3 b n 1) - Cert.Spec.centre (Cert.Spec.cell (p (ix3 b n 1))) := by
  show yR (F := Ideal) p (ix2 b n) - ctrR (F := Ideal) (cellR (F := Ideal) (yR (F := Ideal) p)) (ix2 b n) = _
  rw [ctrR_apply, cellR_apply, yR_apply]

/-- The centre of a point's cell along x. -/
theorem cx_apply (p : (⟨S2x120000x4, .f32⟩ : BufTy).Contents (Elt Ideal)) (b : Fin 2) (n : Fin 120000) :
    ctrR (F := Ideal) (cellR (F := Ideal) (xR (F := Ideal) p)) (ix2 b n) = Cert.Spec.centre (Cert.Spec.cell (p (ix3 b n 0))) := by
  rw [ctrR_apply, cellR_apply, xR_apply]

/-- The centre of a point's cell along y. -/
theorem cy_apply (p : (⟨S2x120000x4, .f32⟩ : BufTy).Contents (Elt Ideal)) (b : Fin 2) (n : Fin 120000) :
    ctrR (F := Ideal) (cellR (F := Ideal) (yR (F := Ideal) p)) (ix2 b n) = Cert.Spec.centre (Cert.Spec.cell (p (ix3 b n 1))) := by
  rw [ctrR_apply, cellR_apply, yR_apply]

section Aug6
variable (c0 c1 c2 c3 c4 c5 : (⟨S2x120000x1, .f32⟩ : BufTy).Contents (Elt Ideal)) (b : Fin 2) (n : Fin 120000)

/-- Column 0 of the six. -/
theorem aug6_at0 : aug6 (F := Ideal) c0 c1 c2 c3 c4 c5 (ix3 b n (0 : Fin 6)) = c0 (ix3 b n (0 : Fin 1)) :=
  concatenate_apply_piece (2 : Fin 3) _ _ (ix3 b n (0 : Fin 6)) 0 (by show (0 : ℕ) < 6; omega) S2x120000x1 c0 rfl rfl 0 rfl (ix3 b n (0 : Fin 1))
    (fun ax => match ax with | ⟨0, _⟩ => fun _ => rfl | ⟨1, _⟩ => fun _ => rfl | ⟨2, _⟩ => fun h => absurd rfl h) rfl

/-- Column 1 of the six. -/
theorem aug6_at1 : aug6 (F := Ideal) c0 c1 c2 c3 c4 c5 (ix3 b n (1 : Fin 6)) = c1 (ix3 b n (0 : Fin 1)) :=
  concatenate_apply_piece (2 : Fin 3) _ _ (ix3 b n (1 : Fin 6)) 1 (by show (1 : ℕ) < 6; omega) S2x120000x1 c1 rfl rfl 1 rfl (ix3 b n (0 : Fin 1))
    (fun ax => match ax with | ⟨0, _⟩ => fun _ => rfl | ⟨1, _⟩ => fun _ => rfl | ⟨2, _⟩ => fun h => absurd rfl h) rfl

/-- Column 2 of the six. -/
theorem aug6_at2 : aug6 (F := Ideal) c0 c1 c2 c3 c4 c5 (ix3 b n (2 : Fin 6)) = c2 (ix3 b n (0 : Fin 1)) :=
  concatenate_apply_piece (2 : Fin 3) _ _ (ix3 b n (2 : Fin 6)) 2 (by show (2 : ℕ) < 6; omega) S2x120000x1 c2 rfl rfl 2 rfl (ix3 b n (0 : Fin 1))
    (fun ax => match ax with | ⟨0, _⟩ => fun _ => rfl | ⟨1, _⟩ => fun _ => rfl | ⟨2, _⟩ => fun h => absurd rfl h) rfl

/-- Column 3 of the six. -/
theorem aug6_at3 : aug6 (F := Ideal) c0 c1 c2 c3 c4 c5 (ix3 b n (3 : Fin 6)) = c3 (ix3 b n (0 : Fin 1)) :=
  concatenate_apply_piece (2 : Fin 3) _ _ (ix3 b n (3 : Fin 6)) 3 (by show (3 : ℕ) < 6; omega) S2x120000x1 c3 rfl rfl 3 rfl (ix3 b n (0 : Fin 1))
    (fun ax => match ax with | ⟨0, _⟩ => fun _ => rfl | ⟨1, _⟩ => fun _ => rfl | ⟨2, _⟩ => fun h => absurd rfl h) rfl

/-- Column 4 of the six. -/
theorem aug6_at4 : aug6 (F := Ideal) c0 c1 c2 c3 c4 c5 (ix3 b n (4 : Fin 6)) = c4 (ix3 b n (0 : Fin 1)) :=
  concatenate_apply_piece (2 : Fin 3) _ _ (ix3 b n (4 : Fin 6)) 4 (by show (4 : ℕ) < 6; omega) S2x120000x1 c4 rfl rfl 4 rfl (ix3 b n (0 : Fin 1))
    (fun ax => match ax with | ⟨0, _⟩ => fun _ => rfl | ⟨1, _⟩ => fun _ => rfl | ⟨2, _⟩ => fun h => absurd rfl h) rfl

/-- Column 5 of the six. -/
theorem aug6_at5 : aug6 (F := Ideal) c0 c1 c2 c3 c4 c5 (ix3 b n (5 : Fin 6)) = c5 (ix3 b n (0 : Fin 1)) :=
  concatenate_apply_piece (2 : Fin 3) _ _ (ix3 b n (5 : Fin 6)) 5 (by show (5 : ℕ) < 6; omega) S2x120000x1 c5 rfl rfl 5 rfl (ix3 b n (0 : Fin 1))
    (fun ax => match ax with | ⟨0, _⟩ => fun _ => rfl | ⟨1, _⟩ => fun _ => rfl | ⟨2, _⟩ => fun h => absurd rfl h) rfl

end Aug6

section Aug10
variable (p : (⟨S2x120000x4, .f32⟩ : BufTy).Contents (Elt Ideal)) (a : (⟨S2x120000x6, .f32⟩ : BufTy).Contents (Elt Ideal)) (b : Fin 2) (n : Fin 120000)

theorem aug10_at0 : aug10 (F := Ideal) p a (ix3 b n (0 : Fin 10)) = p (ix3 b n (0 : Fin 4)) :=
  concatenate_pair_apply_left (2 : Fin 3) p a _ (ix3 b n (0 : Fin 10)) rfl (ix3 b n (0 : Fin 4))
    (fun ax => match ax with | ⟨0, _⟩ => rfl | ⟨1, _⟩ => rfl | ⟨2, _⟩ => rfl)

theorem aug10_at1 : aug10 (F := Ideal) p a (ix3 b n (1 : Fin 10)) = p (ix3 b n (1 : Fin 4)) :=
  concatenate_pair_apply_left (2 : Fin 3) p a _ (ix3 b n (1 : Fin 10)) rfl (ix3 b n (1 : Fin 4))
    (fun ax => match ax with | ⟨0, _⟩ => rfl | ⟨1, _⟩ => rfl | ⟨2, _⟩ => rfl)

theorem aug10_at2 : aug10 (F := Ideal) p a (ix3 b n (2 : Fin 10)) = p (ix3 b n (2 : Fin 4)) :=
  concatenate_pair_apply_left (2 : Fin 3) p a _ (ix3 b n (2 : Fin 10)) rfl (ix3 b n (2 : Fin 4))
    (fun ax => match ax with | ⟨0, _⟩ => rfl | ⟨1, _⟩ => rfl | ⟨2, _⟩ => rfl)

theorem aug10_at3 : aug10 (F := Ideal) p a (ix3 b n (3 : Fin 10)) = p (ix3 b n (3 : Fin 4)) :=
  concatenate_pair_apply_left (2 : Fin 3) p a _ (ix3 b n (3 : Fin 10)) rfl (ix3 b n (3 : Fin 4))
    (fun ax => match ax with | ⟨0, _⟩ => rfl | ⟨1, _⟩ => rfl | ⟨2, _⟩ => rfl)

theorem aug10_at4 : aug10 (F := Ideal) p a (ix3 b n (4 : Fin 10)) = a (ix3 b n (0 : Fin 6)) :=
  concatenate_pair_apply_right (2 : Fin 3) p a _ (ix3 b n (4 : Fin 10)) rfl rfl (ix3 b n (0 : Fin 6))
    (fun ax => match ax with | ⟨0, _⟩ => fun _ => rfl | ⟨1, _⟩ => fun _ => rfl | ⟨2, _⟩ => fun h => absurd rfl h) rfl

theorem aug10_at5 : aug10 (F := Ideal) p a (ix3 b n (5 : Fin 10)) = a (ix3 b n (1 : Fin 6)) :=
  concatenate_pair_apply_right (2 : Fin 3) p a _ (ix3 b n (5 : Fin 10)) rfl rfl (ix3 b n (1 : Fin 6))
    (fun ax => match ax with | ⟨0, _⟩ => fun _ => rfl | ⟨1, _⟩ => fun _ => rfl | ⟨2, _⟩ => fun h => absurd rfl h) rfl

theorem aug10_at6 : aug10 (F := Ideal) p a (ix3 b n (6 : Fin 10)) = a (ix3 b n (2 : Fin 6)) :=
  concatenate_pair_apply_right (2 : Fin 3) p a _ (ix3 b n (6 : Fin 10)) rfl rfl (ix3 b n (2 : Fin 6))
    (fun ax => match ax with | ⟨0, _⟩ => fun _ => rfl | ⟨1, _⟩ => fun _ => rfl | ⟨2, _⟩ => fun h => absurd rfl h) rfl

theorem aug10_at7 : aug10 (F := Ideal) p a (ix3 b n (7 : Fin 10)) = a (ix3 b n (3 : Fin 6)) :=
  concatenate_pair_apply_right (2 : Fin 3) p a _ (ix3 b n (7 : Fin 10)) rfl rfl (ix3 b n (3 : Fin 6))
    (fun ax => match ax with | ⟨0, _⟩ => fun _ => rfl | ⟨1, _⟩ => fun _ => rfl | ⟨2, _⟩ => fun h => absurd rfl h) rfl

theorem aug10_at8 : aug10 (F := Ideal) p a (ix3 b n (8 : Fin 10)) = a (ix3 b n (4 : Fin 6)) :=
  concatenate_pair_apply_right (2 : Fin 3) p a _ (ix3 b n (8 : Fin 10)) rfl rfl (ix3 b n (4 : Fin 6))
    (fun ax => match ax with | ⟨0, _⟩ => fun _ => rfl | ⟨1, _⟩ => fun _ => rfl | ⟨2, _⟩ => fun h => absurd rfl h) rfl

theorem aug10_at9 : aug10 (F := Ideal) p a (ix3 b n (9 : Fin 10)) = a (ix3 b n (5 : Fin 6)) :=
  concatenate_pair_apply_right (2 : Fin 3) p a _ (ix3 b n (9 : Fin 10)) rfl rfl (ix3 b n (5 : Fin 6))
    (fun ax => match ax with | ⟨0, _⟩ => fun _ => rfl | ⟨1, _⟩ => fun _ => rfl | ⟨2, _⟩ => fun h => absurd rfl h) rfl

end Aug10

/-- The ten augmented features of point (b, n). -/
theorem augR_apply (p : (⟨S2x120000x4, .f32⟩ : BufTy).Contents (Elt Ideal)) (b : Fin 2) (n : Fin 120000) (k : Fin 10) :
    augR (F := Ideal) p (ix3 b n k) = Cert.Spec.augRow (fun i => p (ix3 b n i)) k := by
  unfold augR
  match k with
  | ⟨0, _⟩ => exact aug10_at0 p _ b n
  | ⟨1, _⟩ => exact aug10_at1 p _ b n
  | ⟨2, _⟩ => exact aug10_at2 p _ b n
  | ⟨3, _⟩ => exact aug10_at3 p _ b n
  | ⟨4, _⟩ => exact (aug10_at4 p _ b n).trans ((aug6_at0 _ _ _ _ _ _ b n).trans ((colR_apply _ b n 0).trans (dx_apply p b n)))
  | ⟨5, _⟩ => exact (aug10_at5 p _ b n).trans ((aug6_at1 _ _ _ _ _ _ b n).trans ((colR_apply _ b n 0).trans (dy_apply p b n)))
  | ⟨6, _⟩ => exact (aug10_at6 p _ b n).trans ((aug6_at2 _ _ _ _ _ _ b n).trans (colR_apply _ b n 0))
  | ⟨7, _⟩ => exact (aug10_at7 p _ b n).trans ((aug6_at3 _ _ _ _ _ _ b n).trans ((colR_apply _ b n 0).trans (cx_apply p b n)))
  | ⟨8, _⟩ => exact (aug10_at8 p _ b n).trans ((aug6_at4 _ _ _ _ _ _ b n).trans ((colR_apply _ b n 0).trans (cy_apply p b n)))
  | ⟨9, _⟩ => exact (aug10_at9 p _ b n).trans ((aug6_at5 _ _ _ _ _ _ b n).trans (colR_apply _ b n 0))

/-- A length-64 vector laid along the last axis reads its entry. -/
theorem row64_apply (v : (⟨S64, .f32⟩ : BufTy).Contents (Elt Ideal)) (b : Fin 2) (n : Fin 120000) (h : Fin 64) :
    row64 (F := Ideal) v (ix3 b n h) = v (ix1 h) :=
  (bcast_11c_abc_apply _ _ b n h).trans (bcast_c_11c_apply v _ 0 0 h)

/-- A length-256 vector laid along the last axis reads its entry. -/
theorem row256_apply (v : (⟨S256, .f32⟩ : BufTy).Contents (Elt Ideal)) (b : Fin 2) (n : Fin 120000) (c : Fin 256) :
    row256 (F := Ideal) v (ix3 b n c) = v (ix1 c) :=
  (bcast_11c_abc_apply _ _ b n c).trans (bcast_c_11c_apply v _ 0 0 c)

/-- The first layer's linear map at (b, n, h): the sum over the ten input features. -/
theorem dot1_apply (a : (⟨S2x120000x10, .f32⟩ : BufTy).Contents (Elt Ideal)) (W1 : (⟨S64x10, .f32⟩ : BufTy).Contents (Elt Ideal)) (b : Fin 2) (n : Fin 120000) (h : Fin 64) :
    Host.dotGeneral (F := Ideal) (φ₁ := .f32) (φ₂ := .f32) dot_S2x120000x10_S64x10_S2x120000x64_2_1_01_0_n_n none a W1 (ix3 b n h) = ∑ k : Fin 10, a (ix3 b n k) * W1 (ix2 h k) :=
  dotGeneral_rows_apply dot_S2x120000x10_S64x10_S2x120000x64_2_1_01_0_n_n ⟨rfl, rfl, rfl, rfl, rfl, rfl⟩ none .single a W1 b n h

/-- The second layer's linear map at (b, n, c): the sum over the 64 hidden units. -/
theorem dot2_apply (x : (⟨S2x120000x64, .f32⟩ : BufTy).Contents (Elt Ideal)) (W2 : (⟨S256x64, .f32⟩ : BufTy).Contents (Elt Ideal)) (b : Fin 2) (n : Fin 120000) (c : Fin 256) :
    Host.dotGeneral (F := Ideal) (φ₁ := .f32) (φ₂ := .f32) dot_S2x120000x64_S256x64_S2x120000x256_2_1_01_0_n_n none x W2 (ix3 b n c) = ∑ k : Fin 64, x (ix3 b n k) * W2 (ix2 c k) :=
  dotGeneral_rows_apply dot_S2x120000x64_S256x64_S2x120000x256_2_1_01_0_n_n ⟨rfl, rfl, rfl, rfl, rfl, rfl⟩ none .single x W2 b n c

/-- The hidden layer at (b, n, h). -/
theorem hidR_apply (a : (⟨S2x120000x10, .f32⟩ : BufTy).Contents (Elt Ideal)) (W1 : (⟨S64x10, .f32⟩ : BufTy).Contents (Elt Ideal)) (b1 g1 be1 m1 v1 : (⟨S64, .f32⟩ : BufTy).Contents (Elt Ideal))
    (b : Fin 2) (n : Fin 120000) (h : Fin 64) :
    hidR (F := Ideal) a W1 b1 g1 be1 m1 v1 (ix3 b n h)
      = max (Cert.Spec.bn ((∑ k : Fin 10, a (ix3 b n k) * W1 (ix2 h k)) + b1 (ix1 h)) (m1 (ix1 h)) (v1 (ix1 h)) (g1 (ix1 h)) (be1 (ix1 h)))
          Cert.Spec.cZero := by
  show max ((((Host.dotGeneral (F := Ideal) (φ₁ := .f32) (φ₂ := .f32) dot_S2x120000x10_S64x10_S2x120000x64_2_1_01_0_n_n none a W1 (ix3 b n h) + row64 (F := Ideal) b1 (ix3 b n h)) - row64 (F := Ideal) m1 (ix3 b n h))
      * row64 (F := Ideal) (Host.rsqrt (F := Ideal) (addf (F := Ideal) v1 (broadcastInDim S64 ![] bcast_S_S64 (constant (F := Ideal) S_ .f32 0x3A83126F#32)))) (ix3 b n h))
      * row64 (F := Ideal) g1 (ix3 b n h) + row64 (F := Ideal) be1 (ix3 b n h)) (Ideal.ofBits .f32 0x00000000#32) = _
  simp only [row64_apply, dot1_apply]
  rfl

/-- The clipped output layer at (b, n, c). -/
theorem outR_apply (x : (⟨S2x120000x64, .f32⟩ : BufTy).Contents (Elt Ideal)) (W2 : (⟨S256x64, .f32⟩ : BufTy).Contents (Elt Ideal)) (b2 g2 be2 m2 v2 : (⟨S256, .f32⟩ : BufTy).Contents (Elt Ideal))
    (b : Fin 2) (n : Fin 120000) (c : Fin 256) :
    outR (F := Ideal) x W2 b2 g2 be2 m2 v2 (ix3 b n c)
      = min Cert.Spec.cHi (max Cert.Spec.cLo (max (Cert.Spec.bn ((∑ k : Fin 64, x (ix3 b n k) * W2 (ix2 c k)) + b2 (ix1 c)) (m2 (ix1 c)) (v2 (ix1 c)) (g2 (ix1 c)) (be2 (ix1 c)))
          Cert.Spec.cZero)) := by
  show min (Ideal.ofBits .f32 0x42C80000#32) (max (Ideal.ofBits .f32 0xC2C80000#32)
      (max ((((Host.dotGeneral (F := Ideal) (φ₁ := .f32) (φ₂ := .f32) dot_S2x120000x64_S256x64_S2x120000x256_2_1_01_0_n_n none x W2 (ix3 b n c) + row256 (F := Ideal) b2 (ix3 b n c)) - row256 (F := Ideal) m2 (ix3 b n c))
        * row256 (F := Ideal) (Host.rsqrt (F := Ideal) (addf (F := Ideal) v2 (broadcastInDim S256 ![] bcast_S_S256 (constant (F := Ideal) S_ .f32 0x3A83126F#32)))) (ix3 b n c))
        * row256 (F := Ideal) g2 (ix3 b n c) + row256 (F := Ideal) be2 (ix3 b n c)) (Ideal.ofBits .f32 0x00000000#32))) = _
  simp only [row256_apply, dot2_apply]
  rfl

/-- The reference's clipped features, index by index, are the specification's. -/
theorem featR_apply (p : (⟨S2x120000x4, .f32⟩ : BufTy).Contents (Elt Ideal)) (W1 : (⟨S64x10, .f32⟩ : BufTy).Contents (Elt Ideal)) (b1 g1 be1 m1 v1 : (⟨S64, .f32⟩ : BufTy).Contents (Elt Ideal))
    (W2 : (⟨S256x64, .f32⟩ : BufTy).Contents (Elt Ideal)) (b2 g2 be2 m2 v2 : (⟨S256, .f32⟩ : BufTy).Contents (Elt Ideal)) (b : Fin 2) (n : Fin 120000) (c : Fin 256) :
    featR (F := Ideal) p W1 b1 g1 be1 m1 v1 W2 b2 g2 be2 m2 v2 (ix3 b n c)
      = Cert.Spec.feat p W1 b1 g1 be1 m1 v1 W2 b2 g2 be2 m2 v2 b n c := by
  have hh : ∀ k : Fin 64, hidR (F := Ideal) (augR p) W1 b1 g1 be1 m1 v1 (ix3 b n k)
      = Cert.Spec.hidRow (fun i => p (ix3 b n i)) (fun k h => W1 (ix2 h k)) (fun h => b1 (ix1 h)) (fun h => g1 (ix1 h))
          (fun h => be1 (ix1 h)) (fun h => m1 (ix1 h)) (fun h => v1 (ix1 h)) k := fun k => by
    rw [hidR_apply]
    unfold Cert.Spec.hidRow
    simp only [augR_apply]
  unfold featR
  rw [outR_apply]
  unfold Cert.Spec.feat Cert.Spec.featRow
  simp only [hh]

end Cert.ReferenceIdeal.RefRun

end
-- ==== Proof.TailEq.lean ====
/- The two programs' steps after the per-point network agree: from equal features and equal segment numbers
   both sum the features and count the points per segment with the same scatter, and the kernel program's
   pillar quotient (row p of batch entry b, the spare last row never read) is the reference's mean array cut
   to its first 262144 rows per batch entry; the final layout steps are the same operations. -/
import proofs.«118269_j50740743635700_2_alg».proof.Proof.KI.TailDef
import proofs.«118269_j50740743635700_2_alg».proof.Proof.RefDefs
import Idealize.ShloMosaic.Lib.Pipeline.Value
import Idealize.ShloMosaic.Lib.ValueIdx

noncomputable section

namespace Cert.TailEq

open Idealize.ShloMosaic Idealize.ShloMosaic.ValueIdx

section Layout
variable {α : Type}

/-- `[2, 120000, 1]` flattened to `[240000]`, at `q = b · 120000 + n`. -/
theorem flat3_apply (x : (⟨3, ![2, 120000, 1]⟩ : Shape).Idx → α)
    (h : (⟨3, ![2, 120000, 1]⟩ : Shape).ShapeCasts ⟨1, ![240000]⟩)
    (q : Fin 240000) (b : Fin 2) (n : Fin 120000) (hq : q.val = b.val * 120000 + n.val) :
    shapeCast ⟨1, ![240000]⟩ x h (ix1 q) = x (ix3 b n (0 : Fin 1)) :=
  shapeCast_apply x h _ _ (by
    rw [Shape.rowMajor_val_three, Shape.rowMajor_val_one]
    show (b.val * 120000 + n.val) * 1 + 0 = q.val
    omega)

/-- `[2, 120000]` flattened to `[240000]`, at `q = b · 120000 + n`. -/
theorem flat2_apply (x : (⟨2, ![2, 120000]⟩ : Shape).Idx → α)
    (h : (⟨2, ![2, 120000]⟩ : Shape).ShapeCasts ⟨1, ![240000]⟩)
    (q : Fin 240000) (b : Fin 2) (n : Fin 120000) (hq : q.val = b.val * 120000 + n.val) :
    shapeCast ⟨1, ![240000]⟩ x h (ix1 q) = x (ix2 b n) :=
  shapeCast_apply x h _ _ (by
    rw [Shape.rowMajor_val_two, Shape.rowMajor_val_one]
    show b.val * 120000 + n.val = q.val
    omega)

/-- The two flattenings of equal segment numbers are equal. -/
theorem flat_eq (x : (⟨3, ![2, 120000, 1]⟩ : Shape).Idx → α) (y : (⟨2, ![2, 120000]⟩ : Shape).Idx → α)
    (hx : (⟨3, ![2, 120000, 1]⟩ : Shape).ShapeCasts ⟨1, ![240000]⟩) (hy : (⟨2, ![2, 120000]⟩ : Shape).ShapeCasts ⟨1, ![240000]⟩)
    (h : ∀ (b : Fin 2) (n : Fin 120000), x (ix3 b n (0 : Fin 1)) = y (ix2 b n)) :
    shapeCast ⟨1, ![240000]⟩ x hx = shapeCast ⟨1, ![240000]⟩ y hy := by
  funext j
  obtain ⟨q, rfl⟩ : ∃ q : Fin 240000, j = ix1 q := ⟨j 0, eq_ix1 j⟩
  have hlt : q.val < 240000 := q.isLt
  have hq : q.val = (⟨q.val / 120000, by omega⟩ : Fin 2).val * 120000
      + (⟨q.val % 120000, Nat.mod_lt _ (by norm_num)⟩ : Fin 120000).val := by
    show q.val = q.val / 120000 * 120000 + q.val % 120000
    omega
  rw [flat3_apply x hx q _ _ hq, flat2_apply y hy q _ _ hq]
  exact h _ _

/-- `[524290, 256]` as `[2, 262145, 256]`, at `(b, p, ch)`: row `b · 262145 + p`. -/
theorem rows3_apply (x : (⟨2, ![524290, 256]⟩ : Shape).Idx → α)
    (h : (⟨2, ![524290, 256]⟩ : Shape).ShapeCasts ⟨3, ![2, 262145, 256]⟩)
    (b : Fin 2) (p : Fin 262145) (ch : Fin 256) (q : Fin 524290) (hq : q.val = b.val * 262145 + p.val) :
    shapeCast ⟨3, ![2, 262145, 256]⟩ x h (ix3 b p ch) = x (ix2 q ch) :=
  shapeCast_apply x h _ _ (by
    rw [Shape.rowMajor_val_three, Shape.rowMajor_val_two]
    show q.val * 256 + ch.val = (b.val * 262145 + p.val) * 256 + ch.val
    rw [hq])

/-- `[524290]` as `[2, 262145, 1]`, at `(b, p, 0)`: entry `b · 262145 + p`. -/
theorem rows1_apply (x : (⟨1, ![524290]⟩ : Shape).Idx → α)
    (h : (⟨1, ![524290]⟩ : Shape).ShapeCasts ⟨3, ![2, 262145, 1]⟩)
    (b : Fin 2) (p : Fin 262145) (q : Fin 524290) (hq : q.val = b.val * 262145 + p.val) :
    shapeCast ⟨3, ![2, 262145, 1]⟩ x h (ix3 b p (0 : Fin 1)) = x (ix1 q) :=
  shapeCast_apply x h _ _ (by
    rw [Shape.rowMajor_val_three, Shape.rowMajor_val_one]
    show q.val = (b.val * 262145 + p.val) * 1 + 0
    omega)

end Layout

/-- THE QUOTIENTS AGREE: the pillar quotient of the sums and counts laid out per batch entry is the array of
    means — the sums over the counts plus ε, the counts and ε broadcast along the channels — laid out per batch
    entry and cut to its first 262144 rows. -/
theorem pillar_eq (sums : (⟨2, ![524290, 256]⟩ : Shape).Idx → EReal) (cnt : (⟨1, ![524290]⟩ : Shape).Idx → EReal)
    (h1 : (⟨2, ![524290, 256]⟩ : Shape).ShapeCasts ⟨3, ![2, 262145, 256]⟩)
    (h2 : (⟨1, ![524290]⟩ : Shape).ShapeCasts ⟨3, ![2, 262145, 1]⟩)
    (h3 : (⟨2, ![524290, 256]⟩ : Shape).ShapeCasts ⟨3, ![2, 262145, 256]⟩)
    (h4 : (⟨3, ![2, 262145, 256]⟩ : Shape).Slices ![0, 0, 0] ⟨3, ![2, 262144, 256]⟩)
    (h5 : (⟨2, ![524290, 1]⟩ : Shape).BroadcastsInDim ⟨2, ![524290, 256]⟩ ![0, 1])
    (h6 : (⟨1, ![524290]⟩ : Shape).BroadcastsInDim ⟨2, ![524290, 1]⟩ ![0])
    (h7 : (⟨0, ![]⟩ : Shape).BroadcastsInDim ⟨2, ![524290, 1]⟩ ![]) :
    Cert.KernelIdeal.Hand.pillarOf (shapeCast ⟨3, ![2, 262145, 256]⟩ sums h1) (shapeCast ⟨3, ![2, 262145, 1]⟩ cnt h2)
      = extractStridedSlice ⟨3, ![2, 262144, 256]⟩ ![0, 0, 0]
          (shapeCast ⟨3, ![2, 262145, 256]⟩
            (Host.divf (F := Ideal) (φ := .f32) sums
              (broadcastInDim ⟨2, ![524290, 256]⟩ ![0, 1] h5
                (addf (F := Ideal) (φ := .f32) (broadcastInDim ⟨2, ![524290, 1]⟩ ![0] h6 cnt)
                  (broadcastInDim ⟨2, ![524290, 1]⟩ ![] h7 (constant (F := Ideal) ⟨0, ![]⟩ .f32 0x358637BD#32))))) h3) h4 := by
  funext i
  obtain ⟨b, p, ch, rfl⟩ : ∃ (b : Fin 2) (p : Fin 262144) (ch : Fin 256), i = ix3 b p ch := ⟨i 0, i 1, i 2, eq_ix3 i⟩
  have hp : p.val < 262144 := p.isLt
  have hb : b.val < 2 := b.isLt
  let q : Fin 524290 := ⟨b.val * 262145 + p.val, by omega⟩
  have hq : q.val = b.val * 262145 + (Cert.KernelIdeal.Hand.up p).val := rfl
  -- the kernel program's side
  have hL : Cert.KernelIdeal.Hand.pillarOf (shapeCast ⟨3, ![2, 262145, 256]⟩ sums h1) (shapeCast ⟨3, ![2, 262145, 1]⟩ cnt h2) (ix3 b p ch)
      = Ideal.div (sums (ix2 q ch)) (cnt (ix1 q) + Ideal.ofBits .f32 0x358637BD#32) := by
    show Ideal.div (shapeCast ⟨3, ![2, 262145, 256]⟩ sums h1 (ix3 b (Cert.KernelIdeal.Hand.up p) ch))
      (shapeCast ⟨3, ![2, 262145, 1]⟩ cnt h2 (ix3 b (Cert.KernelIdeal.Hand.up p) (0 : Fin 1)) + Ideal.ofBits .f32 0x358637BD#32) = _
    rw [rows3_apply sums h1 b _ ch q hq, rows1_apply cnt h2 b _ q hq]
  rw [hL]
  -- the reference's side
  refine Eq.symm ((extractStridedSlice_apply _ _ h4 (ix3 b p ch) (ix3 b (Cert.KernelIdeal.Hand.up p) ch) (fun a => by
    match a with
    | ⟨0, _⟩ => exact (Nat.zero_add _).symm
    | ⟨1, _⟩ => exact (Nat.zero_add _).symm
    | ⟨2, _⟩ => exact (Nat.zero_add _).symm)).trans ?_)
  rw [rows3_apply _ h3 b _ ch q hq]
  show Ideal.div (sums (ix2 q ch)) (broadcastInDim ⟨2, ![524290, 256]⟩ ![0, 1] h5
      (addf (F := Ideal) (φ := .f32) (broadcastInDim ⟨2, ![524290, 1]⟩ ![0] h6 cnt)
        (broadcastInDim ⟨2, ![524290, 1]⟩ ![] h7 (constant (F := Ideal) ⟨0, ![]⟩ .f32 0x358637BD#32))) (ix2 q ch)) = _
  refine congrArg (Ideal.div _) ?_
  refine (broadcastInDim_apply _ h5 _ (ix2 q ch) (ix2 q (0 : Fin 1)) (fun a => by
    match a with
    | ⟨0, _⟩ => rfl
    | ⟨1, _⟩ => rfl)).trans ?_
  show broadcastInDim ⟨2, ![524290, 1]⟩ ![0] h6 cnt (ix2 q (0 : Fin 1)) + Ideal.ofBits .f32 0x358637BD#32 = _
  refine congrArg (· + _) ?_
  exact broadcastInDim_apply _ h6 cnt (ix2 q (0 : Fin 1)) (ix1 q) (fun a => by
    match a with
    | ⟨0, _⟩ => rfl)

/-- THE TAILS AGREE: from the same features and equal segment numbers the kernel program's steps after the
    per-point network and the reference's compute the same array. -/
theorem tail_eq (feat : (⟨Cert.KernelIdeal.S2x120000x256, .f32⟩ : BufTy).Contents (Elt Ideal))
    (seg3 : (⟨Cert.KernelIdeal.S2x120000x1, .i32⟩ : BufTy).Contents (Elt Ideal)) (seg : IVec Cert.ReferenceIdeal.S2x120000 32)
    (h : ∀ (b : Fin 2) (n : Fin 120000), seg3 (ix3 b n 0) = seg (ix2 b n)) :
    Cert.KernelIdeal.Hand.tailK feat seg3 = Cert.ReferenceIdeal.RefRun.tailR (F := Ideal) feat seg := by
  have hf : Cert.KernelIdeal.Hand.flatSegK seg3 = Cert.ReferenceIdeal.RefRun.flatSegR seg := by
    unfold Cert.KernelIdeal.Hand.flatSegK Cert.ReferenceIdeal.RefRun.flatSegR
    exact congrArg (broadcastInDim _ _ _) (flat_eq seg3 seg _ _ h)
  have hp : Cert.KernelIdeal.Hand.pillarOf (Cert.KernelIdeal.Hand.sumsK feat seg3) (Cert.KernelIdeal.Hand.cntK seg3)
      = extractStridedSlice Cert.ReferenceIdeal.S2x262144x256 ![0, 0, 0]
          (shapeCast Cert.ReferenceIdeal.S2x262145x256 (Cert.ReferenceIdeal.RefRun.meanR (F := Ideal) feat seg)
            Cert.ReferenceIdeal.Gen.shapeCasts_S524290x256_S2x262145x256)
          Cert.ReferenceIdeal.Gen.slices_S2x262145x256_S2x262144x256_0_0_0 := by
    unfold Cert.KernelIdeal.Hand.sumsK Cert.KernelIdeal.Hand.cntK Cert.ReferenceIdeal.RefRun.meanR
      Cert.ReferenceIdeal.RefRun.sumsR Cert.ReferenceIdeal.RefRun.cntR
    rw [hf]
    exact pillar_eq _ _ _ _ _ _ _ _ _
  unfold Cert.KernelIdeal.Hand.tailK Cert.KernelIdeal.Hand.layoutK Cert.ReferenceIdeal.RefRun.tailR
  rw [hp]

end Cert.TailEq

end
-- ==== Proof.lean ====
/-
  The claim: a pillar encoder on a TensorCore against its reference.
  Per point (b, n) of 2 × 120000 points (x, y, z, i): the grid cell of x and of y ((coordinate + 51.2) / 0.2
  truncated toward zero to an integer), the cell's centre, ten augmented features, two linear layers with batch
  normalisation at running statistics and a rectifier, clipped to [−100, 100]; the point's segment is its cell's
  number inside the 512 × 512 grid, or a spare bin outside it, offset by the batch entry. Features are summed and
  points counted per segment; every pillar is its sum divided by its count plus 10⁻⁶; the spare bins are dropped
  and the pillars laid out as [2, 256, 512, 512].

  The kernel program runs the per-point network as one pipelined region over 40 blocks of 6000 points (the weights
  transposed and the parameter vectors laid out as rows by host operations before it), sums and counts on the host,
  and divides in a second pipelined region over 2 × 64 blocks of 4096 pillars; the reference is host operations only.
  At the extended reals the two agree operation by operation: a matrix product in a block is the dot product of the
  point's row, a change of float format is the identity, and the one syntactic difference — the reference rounds
  toward zero before converting to an integer, the kernel converts directly — is no difference, the conversion
  rounding toward zero itself. No law used needs finiteness: the precondition is never opened.

  Frames: each kernel program's run is followed through its five segments (host stretch, region, host stretch,
  region, host stretch) with the contents of every buffer it keeps; no segment writes an argument array. The
  reference's run is its operations' fold. The idealization rewrote nothing, so `preserves` is trivial.
-/
import proofs.«118269_j50740743635700_2_alg».proof.Defs
import proofs.«118269_j50740743635700_2_alg».proof.Proof.Gen.Kernel
import proofs.«118269_j50740743635700_2_alg».proof.Proof.Gen.KernelIdeal
import proofs.«118269_j50740743635700_2_alg».proof.Proof.Gen.ReferenceIdeal
import proofs.«118269_j50740743635700_2_alg».proof.Proof.Gen.Pre_finite_inputs
import proofs.«118269_j50740743635700_2_alg».proof.Proof.K.Run
import proofs.«118269_j50740743635700_2_alg».proof.Proof.KI.Result
import proofs.«118269_j50740743635700_2_alg».proof.Proof.RefRun
import proofs.«118269_j50740743635700_2_alg».proof.Proof.RefValue
import proofs.«118269_j50740743635700_2_alg».proof.Proof.RefSeg
import proofs.«118269_j50740743635700_2_alg».proof.Proof.TailEq
import Idealize.ShloMosaic.Adequacy
import Idealize.ShloMosaic.Init

noncomputable section

namespace Cert.Proof

open Idealize.ShloMosaic Idealize.ShloMosaic.TcCoe Idealize.SL.Sem Idealize.ShloMosaic.ValueIdx
open Cert.ReferenceIdeal.RefRun (featR segR tailR)

/-- The kernel program's result array after its run is the reference's function of the arguments: the first
    region's features and segment ids are the per-point closed forms, which the reference's are too; from there the
    two programs sum, count, divide and lay out alike. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Hand.W5 m ρ c (Proc.devRef .tc Cert.KernelIdeal.main_v26)
      = tailR (F := Ideal) (featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (segR (m ((c.tc : Thread Cert.KernelIdeal.nD Cert.KernelIdeal.τ).loc Cert.KernelIdeal.main_arg0))) := by
  rw [Cert.KernelIdeal.Hand.kernel_value]
  have hf : Cert.KernelIdeal.Hand.featArr (Cert.KernelIdeal.Hand.U1 m ρ) c = featR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
    funext i
    obtain ⟨b, n, ch, rfl⟩ : ∃ (b : Fin 2) (n : Fin 120000) (ch : Fin 256), i = ix3 b n ch := ⟨i 0, i 1, i 2, eq_ix3 i⟩
    rw [Cert.KernelIdeal.Hand.featArr_spec, Cert.ReferenceIdeal.RefRun.featR_apply]
  rw [hf]
  exact Cert.TailEq.tail_eq _ _ _ fun b n =>
    (Cert.KernelIdeal.Hand.segArr_spec m ρ c b n).trans (Cert.ReferenceIdeal.RefRun.segR_apply _ b n).symm

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

theorem algebraic : Cert.algebraic_KernelIdeal_ReferenceIdeal := by
  intro m ρ m' ρ' _ hagree
  refine ⟨fun c => tailR (F := Ideal) (featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (segR (m ((c.tc : Thread Cert.KernelIdeal.nD Cert.KernelIdeal.τ).loc Cert.KernelIdeal.main_arg0))), ?_, ?_⟩
  · exact (θ_run Cert.KernelIdeal.defs _ _).mono (fun r h c => ⟨(h c).1.trans (kernel_result m ρ c), (h c).2⟩) (Cert.KernelIdeal.Hand.run_value m ρ)
  · refine (θ_run Cert.ReferenceIdeal.defs _ _).mono (fun r h c => ⟨(h c).1.trans ?_, (h c).2⟩) (Cert.ReferenceIdeal.RefRun.run m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
